-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S11264x2048 : Shape := ⟨2, ![11264, 2048]⟩
abbrev S2048 : Shape := ⟨1, ![2048]⟩
abbrev S2048x5632 : Shape := ⟨2, ![2048, 5632]⟩
abbrev S5632 : Shape := ⟨1, ![5632]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048 : S_.BroadcastsInDim S2048 (![] : Fin 0 → Fin S2048.rank)
  reducesTo_S2048_S_d0 : S2048.ReducesTo [0] S_
  bcast_S_S2048x5632 : S_.BroadcastsInDim S2048x5632 (![] : Fin 0 → Fin S2048x5632.rank)
  reducesTo_S2048x5632_S_d0_1 : S2048x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_arg4 : FVec F S5632 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  main_v23

def fn {F : FTy → Type} [FloatOps F] (main_arg0 : FVec F S4x4096x2048 .f32) (main_arg1 : FVec F S11264x2048 .f32) (main_arg2 : FVec F S2048 .f32) (main_arg3 : FVec F S2048x5632 .f32) (main_arg4 : FVec F S5632 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_v13 main_v16
-- ==== Kernel.lean ====
abbrev S4x4096x2048 : Shape := ⟨3, ![4, 4096, 2048]⟩
abbrev S11264x2048 : Shape := ⟨2, ![11264, 2048]⟩
abbrev S2048 : Shape := ⟨1, ![2048]⟩
abbrev S2048x5632 : Shape := ⟨2, ![2048, 5632]⟩
abbrev S5632 : Shape := ⟨1, ![5632]⟩
abbrev S_ : Shape := ⟨0, ![]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S16384x5632 : Shape := ⟨2, ![16384, 5632]⟩
abbrev S1024x2048 : Shape := ⟨2, ![1024, 2048]⟩
abbrev S1024x512 : Shape := ⟨2, ![1024, 512]⟩
abbrev S128x5632 : Shape := ⟨2, ![128, 5632]⟩
abbrev S128x2048 : Shape := ⟨2, ![128, 2048]⟩
abbrev S128 : Shape := ⟨1, ![128]⟩
abbrev S128x1 : Shape := ⟨2, ![128, 1]⟩
abbrev S1x5632 : Shape := ⟨2, ![1, 5632]⟩

abbrev nBuf : Space → Nat
  | .hbm => 58
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S11264x2048, .f32⟩
  | .hbm, ⟨2, _⟩ => ⟨S2048, .f32⟩
  | .hbm, ⟨3, _⟩ => ⟨S2048x5632, .f32⟩
  | .hbm, ⟨4, _⟩ => ⟨S5632, .f32⟩
  | .hbm, ⟨5, _⟩ => ⟨S11264x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S11264x2048, .f32⟩
  | .hbm, ⟨16, _⟩ => ⟨S11264x2048, .f32⟩
  | .hbm, ⟨17, _⟩ => ⟨S11264x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S11264x2048, .f32⟩
  | .hbm, ⟨22, _⟩ => ⟨S11264x2048, .f32⟩
  | .hbm, ⟨23, _⟩ => ⟨S_, .f32⟩
  | .hbm, ⟨24, _⟩ => ⟨S11264x2048, .f32⟩
  | .hbm, ⟨25, _⟩ => ⟨S11264x2048, .f32⟩
  | .hbm, ⟨26, _⟩ => ⟨S11264x2048, .f32⟩
  | .hbm, ⟨27, _⟩ => ⟨S11264x2048, .f32⟩
  | .hbm, ⟨28, _⟩ => ⟨S11264x2048, .bf16⟩
  | .hbm, ⟨29, _⟩ => ⟨S2048x5632, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x5632, .f32⟩
  | .hbm, ⟨46, _⟩ => ⟨S2048x5632, .f32⟩
  | .hbm, ⟨47, _⟩ => ⟨S_, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .bf16⟩
  | .hbm, ⟨53, _⟩ => ⟨S16384x2048, .f32⟩
  | .hbm, ⟨54, _⟩ => ⟨S16384x2048, .bf16⟩
  | .hbm, ⟨55, _⟩ => ⟨S16384x5632, .bf16⟩
  | .hbm, ⟨56, _⟩ => ⟨S16384x2048, .f32⟩
  | .hbm, ⟨57, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S1024x512, .bf16⟩
  | .local _ .vmem, ⟨12, _⟩ => ⟨S1024x512, .bf16⟩
  | .local _ .vmem, ⟨13, _⟩ => ⟨S128x5632, .bf16⟩
  | .local _ .vmem, ⟨14, _⟩ => ⟨S128x5632, .bf16⟩
  | .local _ .vmem, ⟨15, _⟩ => ⟨S5632, .f32⟩
  | .local _ .vmem, ⟨16, _⟩ => ⟨S2048x5632, .bf16⟩
  | .local _ .vmem, ⟨17, _⟩ => ⟨S128x2048, .f32⟩
  | .local _ .vmem, ⟨18, _⟩ => ⟨S128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_call0_v0 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_cst_7 : Ref sig .tc := ⟨.hbm, 34, rfl⟩
abbrev main_call3_v0 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5632 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x5632 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S11264x2048_S_d0_1 : S11264x2048.ReducesTo [0, 1] S_
  h_S_ : 0 < S_.numel
  bcast_S_S11264x2048 : S_.BroadcastsInDim S11264x2048 (![] : Fin 0 → Fin S11264x2048.rank)
  bitsLt_bf16_f32 : FTy.bits .bf16 < FTy.bits .f32
  reducesTo_S2048x5632_S_d0_1 : S2048x5632.ReducesTo [0, 1] S_
  bcast_S_S2048x5632 : S_.BroadcastsInDim S2048x5632 (![] : Fin 0 → Fin S2048x5632.rank)
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  reduces_S512x2048_S512 : S512x2048.Reduces [1] S512
  shapeCasts_S512_S512x1 : S512.ShapeCasts S512x1
  broadcasts_S512x1_S512x2048 : S512x1.Broadcasts S512x2048
  shapeCasts_S2048_S1x2048 : S2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S128x5632_S128x5632_0_0 : ∀ a, (![0, 0] : Fin 2 → Nat) a + S128x5632.size a ≤ S128x5632.size a
  h_S128x5632 : 0 < S128x5632.numel
  shapeCasts_S128x5632_S128x5632 : S128x5632.ShapeCasts S128x5632
  inb_S5632_S5632_0 : ∀ a, (![0] : Fin 1 → Nat) a + S5632.size a ≤ S5632.size a
  h_S5632 : 0 < S5632.numel
  reduces_S128x5632_S128 : S128x5632.Reduces [1] S128
  shapeCasts_S128_S128x1 : S128.ShapeCasts S128x1
  broadcasts_S128x1_S128x5632 : S128x1.Broadcasts S128x5632
  shapeCasts_S5632_S1x5632 : S5632.ShapeCasts S1x5632
  broadcasts_S1x5632_S128x5632 : S1x5632.Broadcasts S128x5632
  inb_S2048x5632_S2048x5632_0_0 : ∀ a, (![0, 0] : Fin 2 → Nat) a + S2048x5632.size a ≤ S2048x5632.size a
  h_S2048x5632 : 0 < S2048x5632.numel
  shapeCasts_S2048x5632_S2048x5632 : S2048x5632.ShapeCasts S2048x5632
  inb_S128x2048_S128x2048_0_0 : ∀ a, (![0, 0] : Fin 2 → Nat) a + S128x2048.size a ≤ S128x2048.size a
  h_S128x2048 : 0 < S128x2048.numel
  shapeCasts_S16384x2048_S4x4096x2048 : S16384x2048.ShapeCasts S4x4096x2048
  dot_S1024x2048_S512x2048_S1024x512_1_1_0_0_n_n_wf : DotDims.WF S1024x2048 S512x2048 S1024x512 [1] [1] [0] [0] [] []
  dot_S128x5632_S2048x5632_S128x2048_1_1_0_0_n_n_wf : DotDims.WF S128x5632 S2048x5632 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .bf16 = 32 ∨ (Rect.block (s := S16384x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .bf16 = 32 ∨ (Rect.block (s := S16384x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S11264x2048.size a
  hwx1_1 : ∀ i : grid1.Coords, EltTy.bits .bf16 = 32 ∨ (Rect.block (s := S11264x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S11264x2048.size a
  hwx1_2 : ∀ i : grid1.Coords, EltTy.bits .bf16 = 32 ∨ (Rect.block (s := S11264x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S16384x5632.size a
  hwx1_3 : ∀ i : grid1.Coords, EltTy.bits .bf16 = 32 ∨ (Rect.block (s := S16384x5632) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x5632.size a ≤ S16384x5632.size a
  hwx2_0 : ∀ i : grid2.Coords, EltTy.bits .bf16 = 32 ∨ (Rect.block (s := S16384x5632) S128x5632.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5632.size a ≤ S5632.size a
  hwx2_1 : ∀ i : grid2.Coords, EltTy.bits .f32 = 32 ∨ (Rect.block (s := S5632) S5632.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x5632.size a ≤ S2048x5632.size a
  hwx2_2 : ∀ i : grid2.Coords, EltTy.bits .bf16 = 32 ∨ (Rect.block (s := S2048x5632) S2048x5632.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2048.size a ≤ S16384x2048.size a
  hwx2_3 : ∀ i : grid2.Coords, EltTy.bits .f32 = 32 ∨ (Rect.block (s := S16384x2048) S128x2048.size (cc2_transform_3 i) (hinb2_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S128x5632_S2048x5632_S128x2048_1_1_0_0_n_n : DotDims S128x5632 S2048x5632 S128x2048 where
  lhsContracting := [1]
  rhsContracting := [1]
  lhsNonContracting := [0]
  rhsNonContracting := [0]
  lhsBatch := []
  rhsBatch := []
  wf := dot_S128x5632_S2048x5632_S128x2048_1_1_0_0_n_n_wf

abbrev win0_0 : Pipeline.Window sig grid0 :=
  Pipeline.Window.ofSpec (Memref.whole main_v24) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S128x5632.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S5632.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2048x5632.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S128x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x2048 : Shape := ⟨3, ![4, 4096, 2048]⟩
abbrev S11264x2048 : Shape := ⟨2, ![11264, 2048]⟩
abbrev S2048 : Shape := ⟨1, ![2048]⟩
abbrev S2048x5632 : Shape := ⟨2, ![2048, 5632]⟩
abbrev S5632 : Shape := ⟨1, ![5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩
abbrev S1x1x5632 : Shape := ⟨3, ![1, 1, 5632]⟩

abbrev nBuf : Space → Nat
  | .hbm => 153
  | .vmem => 0
  | .smem => 0
  | _ => 0

abbrev hbmTy0_0 (i : Nat) : BufTy := match i % 128 with
  | 0 => ⟨S4x4096x2048, .f32⟩
  | 1 => ⟨S11264x2048, .f32⟩
  | 2 => ⟨S2048, .f32⟩
  | 3 => ⟨S2048x5632, .f32⟩
  | 4 => ⟨S5632, .f32⟩
  | 5 => ⟨S4x4096x2048, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x2048, .f32⟩
  | 17 => ⟨S4x4096x2048, .f32⟩
  | 18 => ⟨S1x1x2048, .f32⟩
  | 19 => ⟨S4x4096x2048, .f32⟩
  | 20 => ⟨S4x4096x2048, .f32⟩
  | 21 => ⟨S4x4096x2048, .f32⟩
  | 22 => ⟨S_, .f32⟩
  | 23 => ⟨S4x4096, .f32⟩
  | 24 => ⟨S4x4096x1, .f32⟩
  | 25 => ⟨S_, .f32⟩
  | 26 => ⟨S_, .f32⟩
  | 27 => ⟨S4x4096x1, .f32⟩
  | 28 => ⟨S4x4096x1, .f32⟩
  | 29 => ⟨S_, .f32⟩
  | 30 => ⟨S4x4096x1, .f32⟩
  | 31 => ⟨S4x4096x1, .f32⟩
  | 32 => ⟨S4x4096x2048, .f32⟩
  | 33 => ⟨S4x4096x2048, .f32⟩
  | 34 => ⟨S4x4096x2048, .f32⟩
  | 35 => ⟨S_, .f32⟩
  | 36 => ⟨S_, .f32⟩
  | 37 => ⟨S_, .f32⟩
  | 38 => ⟨S4x4096x2048, .f32⟩
  | 39 => ⟨S4x4096x2048, .f32⟩
  | 40 => ⟨S_, .f32⟩
  | 41 => ⟨S4x4096x2048, .f32⟩
  | 42 => ⟨S4x4096x2048, .f32⟩
  | 43 => ⟨S4x4096x2048, .f32⟩
  | 44 => ⟨S4x4096x2048, .f32⟩
  | 45 => ⟨S4x4096x2048, .f32⟩
  | 46 => ⟨S4x4096x2048, .f32⟩
  | 47 => ⟨S11264x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S11264x2048, .f32⟩
  | 58 => ⟨S11264x2048, .f32⟩
  | 59 => ⟨S11264x2048, .f32⟩
  | 60 => ⟨S_, .f32⟩
  | 61 => ⟨S_, .f32⟩
  | 62 => ⟨S_, .f32⟩
  | 63 => ⟨S11264x2048, .f32⟩
  | 64 => ⟨S11264x2048, .f32⟩
  | 65 => ⟨S_, .f32⟩
  | 66 => ⟨S11264x2048, .f32⟩
  | 67 => ⟨S11264x2048, .f32⟩
  | 68 => ⟨S11264x2048, .f32⟩
  | 69 => ⟨S11264x2048, .f32⟩
  | 70 => ⟨S11264x2048, .f32⟩
  | 71 => ⟨S11264x2048, .f32⟩
  | 72 => ⟨S4x4096x11264, .f32⟩
  | 73 => ⟨S4x4096x5632, .f32⟩
  | 74 => ⟨S4x4096x5632, .f32⟩
  | 75 => ⟨S4x4096x5632, .f32⟩
  | 76 => ⟨S4x4096x5632, .f32⟩
  | 77 => ⟨S_, .f32⟩
  | 78 => ⟨S4x4096x5632, .f32⟩
  | 79 => ⟨S4x4096x5632, .f32⟩
  | 80 => ⟨S_, .f32⟩
  | 81 => ⟨S4x4096x5632, .f32⟩
  | 82 => ⟨S4x4096x5632, .f32⟩
  | 83 => ⟨S4x4096x5632, .f32⟩
  | 84 => ⟨S4x4096x5632, .f32⟩
  | 85 => ⟨S4x4096x5632, .f32⟩
  | 86 => ⟨S_, .f32⟩
  | 87 => ⟨S4x4096, .f32⟩
  | 88 => ⟨S4x4096x1, .f32⟩
  | 89 => ⟨S_, .f32⟩
  | 90 => ⟨S4x4096x1, .f32⟩
  | 91 => ⟨S4x4096x1, .f32⟩
  | 92 => ⟨S_, .f32⟩
  | 93 => ⟨S4x4096x1, .f32⟩
  | 94 => ⟨S4x4096x1, .f32⟩
  | 95 => ⟨S4x4096x1, .f32⟩
  | 96 => ⟨S4x4096x5632, .f32⟩
  | 97 => ⟨S4x4096x5632, .f32⟩
  | 98 => ⟨S1x1x5632, .f32⟩
  | 99 => ⟨S4x4096x5632, .f32⟩
  | 100 => ⟨S4x4096x5632, .f32⟩
  | 101 => ⟨S4x4096x5632, .f32⟩
  | 102 => ⟨S_, .f32⟩
  | 103 => ⟨S4x4096, .f32⟩
  | 104 => ⟨S4x4096x1, .f32⟩
  | 105 => ⟨S_, .f32⟩
  | 106 => ⟨S_, .f32⟩
  | 107 => ⟨S4x4096x1, .f32⟩
  | 108 => ⟨S4x4096x1, .f32⟩
  | 109 => ⟨S_, .f32⟩
  | 110 => ⟨S4x4096x1, .f32⟩
  | 111 => ⟨S4x4096x1, .f32⟩
  | 112 => ⟨S4x4096x5632, .f32⟩
  | 113 => ⟨S4x4096x5632, .f32⟩
  | 114 => ⟨S4x4096x5632, .f32⟩
  | 115 => ⟨S_, .f32⟩
  | 116 => ⟨S_, .f32⟩
  | 117 => ⟨S_, .f32⟩
  | 118 => ⟨S4x4096x5632, .f32⟩
  | 119 => ⟨S4x4096x5632, .f32⟩
  | 120 => ⟨S_, .f32⟩
  | 121 => ⟨S4x4096x5632, .f32⟩
  | 122 => ⟨S4x4096x5632, .f32⟩
  | 123 => ⟨S4x4096x5632, .f32⟩
  | 124 => ⟨S4x4096x5632, .f32⟩
  | 125 => ⟨S4x4096x5632, .f32⟩
  | 126 => ⟨S4x4096x5632, .f32⟩
  | 127 => ⟨S2048x5632, .f32⟩
  | _ => ⟨S4x4096x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S2048x5632, .f32⟩
  | 10 => ⟨S2048x5632, .f32⟩
  | 11 => ⟨S2048x5632, .f32⟩
  | 12 => ⟨S_, .f32⟩
  | 13 => ⟨S_, .f32⟩
  | 14 => ⟨S_, .f32⟩
  | 15 => ⟨S2048x5632, .f32⟩
  | 16 => ⟨S2048x5632, .f32⟩
  | 17 => ⟨S_, .f32⟩
  | 18 => ⟨S2048x5632, .f32⟩
  | 19 => ⟨S2048x5632, .f32⟩
  | 20 => ⟨S2048x5632, .f32⟩
  | 21 => ⟨S2048x5632, .f32⟩
  | 22 => ⟨S2048x5632, .f32⟩
  | 23 => ⟨S2048x5632, .f32⟩
  | 24 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_cst_9 : Ref sig .tc := ⟨.hbm, 52, rfl⟩
abbrev main_call3_v0 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_cst_12 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_15 : Ref sig .tc := ⟨.hbm, 86, rfl⟩
abbrev main_v52 : Ref sig .tc := ⟨.hbm, 87, rfl⟩
abbrev main_v53 : Ref sig .tc := ⟨.hbm, 88, rfl⟩
abbrev main_cst_16 : Ref sig .tc := ⟨.hbm, 89, rfl⟩
abbrev main_v54 : Ref sig .tc := ⟨.hbm, 90, rfl⟩
abbrev main_v55 : Ref sig .tc := ⟨.hbm, 91, rfl⟩
abbrev main_cst_17 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_call6_v0 : Ref sig .tc := ⟨.hbm, 106, rfl⟩
abbrev main_call6_v1 : Ref sig .tc := ⟨.hbm, 107, rfl⟩
abbrev main_v67 : Ref sig .tc := ⟨.hbm, 108, rfl⟩
abbrev main_cst_20 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_21 : Ref sig .tc := ⟨.hbm, 115, rfl⟩
abbrev main_cst_22 : Ref sig .tc := ⟨.hbm, 116, rfl⟩
abbrev main_call8_v0 : Ref sig .tc := ⟨.hbm, 117, rfl⟩
abbrev main_call8_v1 : Ref sig .tc := ⟨.hbm, 118, rfl⟩
abbrev main_call8_v2 : Ref sig .tc := ⟨.hbm, 119, rfl⟩
abbrev main_call8_v3 : Ref sig .tc := ⟨.hbm, 120, rfl⟩
abbrev main_call8_v4 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_23 : Ref sig .tc := ⟨.hbm, 128, rfl⟩
abbrev main_v79 : Ref sig .tc := ⟨.hbm, 129, rfl⟩
abbrev main_cst_24 : Ref sig .tc := ⟨.hbm, 130, rfl⟩
abbrev main_v80 : Ref sig .tc := ⟨.hbm, 131, rfl⟩
abbrev main_cst_25 : Ref sig .tc := ⟨.hbm, 132, rfl⟩
abbrev main_call9_v0 : Ref sig .tc := ⟨.hbm, 133, rfl⟩
abbrev main_v81 : Ref sig .tc := ⟨.hbm, 134, rfl⟩
abbrev main_cst_26 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_27 : Ref sig .tc := ⟨.hbm, 140, rfl⟩
abbrev main_cst_28 : Ref sig .tc := ⟨.hbm, 141, rfl⟩
abbrev main_call11_v0 : Ref sig .tc := ⟨.hbm, 142, rfl⟩
abbrev main_call11_v1 : Ref sig .tc := ⟨.hbm, 143, rfl⟩
abbrev main_call11_v2 : Ref sig .tc := ⟨.hbm, 144, rfl⟩
abbrev main_call11_v3 : Ref sig .tc := ⟨.hbm, 145, rfl⟩
abbrev main_call11_v4 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S11264x2048_S_d0_1 : S11264x2048.ReducesTo [0, 1] S_
  bcast_S_S11264x2048 : S_.BroadcastsInDim S11264x2048 (![] : Fin 0 → Fin S11264x2048.rank)
  slices_S4x4096x11264_S4x4096x5632_0_0_0 : S4x4096x11264.Slices ![0, 0, 0] S4x4096x5632
  slices_S4x4096x11264_S4x4096x5632_0_0_5632 : S4x4096x11264.Slices ![0, 0, 5632] S4x4096x5632
  bcast_S_S4x4096x5632 : S_.BroadcastsInDim S4x4096x5632 (![] : Fin 0 → Fin S4x4096x5632.rank)
  reducesTo_S4x4096x5632_S4x4096_d2 : S4x4096x5632.ReducesTo [2] S4x4096
  bcast_S4x4096x1_S4x4096x5632_0_1_2 : S4x4096x1.BroadcastsInDim S4x4096x5632 (![0, 1, 2] : Fin 3 → Fin S4x4096x5632.rank)
  bcast_S5632_S1x1x5632_2 : S5632.BroadcastsInDim S1x1x5632 (![2] : Fin 1 → Fin S1x1x5632.rank)
  bcast_S1x1x5632_S4x4096x5632_0_1_2 : S1x1x5632.BroadcastsInDim S4x4096x5632 (![0, 1, 2] : Fin 3 → Fin S4x4096x5632.rank)
  reducesTo_S2048x5632_S_d0_1 : S2048x5632.ReducesTo [0, 1] S_
  bcast_S_S2048x5632 : S_.BroadcastsInDim S2048x5632 (![] : Fin 0 → Fin S2048x5632.rank)
  dot_S4x4096x2048_S11264x2048_S4x4096x11264_2_1_01_0_n_n_wf : DotDims.WF S4x4096x2048 S11264x2048 S4x4096x11264 [2] [1] [0, 1] [0] [] []
  dot_S4x4096x5632_S2048x5632_S4x4096x2048_2_1_01_0_n_n_wf : DotDims.WF S4x4096x5632 S2048x5632 S4x4096x2048 [2] [1] [0, 1] [0] [] []

variable [Facts₀]

def dot_S4x4096x2048_S11264x2048_S4x4096x11264_2_1_01_0_n_n : DotDims S4x4096x2048 S11264x2048 S4x4096x11264 where
  lhsContracting := [2]
  rhsContracting := [1]
  lhsNonContracting := [0, 1]
  rhsNonContracting := [0]
  lhsBatch := []
  rhsBatch := []
  wf := dot_S4x4096x2048_S11264x2048_S4x4096x11264_2_1_01_0_n_n_wf
def dot_S4x4096x5632_S2048x5632_S4x4096x2048_2_1_01_0_n_n : DotDims S4x4096x5632 S2048x5632 S4x4096x2048 where
  lhsContracting := [2]
  rhsContracting := [1]
  lhsNonContracting := [0, 1]
  rhsNonContracting := [0]
  lhsBatch := []
  rhsBatch := []
  wf := dot_S4x4096x5632_S2048x5632_S4x4096x2048_2_1_01_0_n_n_wf

class Facts : Prop extends Facts₀ where

variable [Facts]
-- ==== Proof.KB.Region0.lean ====
/-
  The first kernel region on one core: every grid point t takes rows 512·t … 512·t + 511 of the flattened
  activations and the whole gain vector, and leaves in its output block the normalised, int8-quantised rows.
  Stated for an arbitrary entry valuation V of the core's buffers, at any float instance.
-/
import proofs.«132295_j1597727834559_2_alg».proof.Proof.Gen.Kernel.Launch
import proofs.«132295_j1597727834559_2_alg».proof.Proof.Gen.Kernel.Skeleton
import proofs.«132295_j1597727834559_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or not: an
    unfetched point has the same block index as the one before it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rI0_0 : Rect S512x2048 := Rect.unit (s := S512x2048) ![0, 0] S512x2048.size inb_S512x2048_S512x2048_0_0
abbrev rI0_1 : Rect S2048 := Rect.unit (s := S2048) ![0] S2048.size inb_S2048_S2048_0
abbrev rO0 : Rect S512x2048 := Rect.unit (s := S512x2048) ![0, 0] S512x2048.size inb_S512x2048_S512x2048_0_0

/-- What the body leaves in the output block, from the input blocks: its one store, of the whole block. -/
def out0 (x0 : Vec F S512x2048 .f32) (x1 : Vec F S2048 .f32) : Vec F S512x2048 .bf16 :=
  View.canon [⟨rO0, k0_pay1 (View.ld x0 rI0_0) (View.ld x1 rI0_1)⟩]

theorem cover0 (p0 : Vec F S512x2048 .bf16) (y : S512x2048.Idx) :
    ∃ pc ∈ ([⟨rO0, p0⟩] : List (View.Piece (Elt F) S512x2048 .bf16)), y ∈ pc.1.set :=
  View.cover_of_tiled [⟨rO0, p0⟩] S512x2048.size (by rfl) y

set_option maxHeartbeats 1000000 in
/-- The body on whole staging buffers: the inputs at their contents and the output at anything run to the inputs as
    they were and the output at out0 of the inputs. -/
theorem sound_kernel0 (c : Dev nD) (E : Set ℕ) (i : grid0.Coords) (a0 : Memref sig .tc .vmem S512x2048 .f32) (ha0 : a0.IsWhole) (a1 : Memref sig .tc .vmem S2048 .f32) (ha1 : a1.IsWhole)
    (ao : Memref sig .tc .vmem S512x2048 .bf16) (hao : ao.IsWhole)
    (x0 : Vec F S512x2048 .f32) (x1 : Vec F S2048 .f32) (K : PUnit → sProp 𝕄) :
    iprop(owns (c : Thread nD τ) a0 fullShare x0 ∗ owns (c : Thread nD τ) a1 fullShare x1 ∗ (∃ d, owns (c : Thread nD τ) ao fullShare d)
        ∗ (iprop(owns (c : Thread nD τ) a0 fullShare x0 ∗ owns (c : Thread nD τ) a1 fullShare x1
            ∗ owns (c : Thread nD τ) ao fullShare (out0 x0 x1)) -∗ K ⟨⟩))
      ⊢ wp frame (wpE (defs₀ (F := F)) Variants.none c none) E (cc0__rmsnorm_quant_kernel i a0 ha0 a1 ha1 ao hao) K := by
  simp only [cc0__rmsnorm_quant_kernel_eq_skeleton]; unfold cc0__rmsnorm_quant_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0 _)

/-- The region's proof data on core c: the arrays as the region finds them; after the body at point t each input's
    buffer at its block and the output's at out0 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The second kernel region on one core: grid point (i, n) takes rows 1024·i … of the quantised activations and two
  blocks of 512 rows of the ternary weight matrix — block n (the gate half) and block n + 11 (the value half), both
  windows of ONE array — and leaves in its output block gate · σ(gate) · value of the two products.
  Stated for an arbitrary entry valuation V of the core's buffers, at any float instance.
-/
import proofs.«132295_j1597727834559_2_alg».proof.Proof.Gen.Kernel.Launch
import proofs.«132295_j1597727834559_2_alg».proof.Proof.Gen.Kernel.Skeleton
import proofs.«132295_j1597727834559_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not: an
    unfetched point has the same block index as the one before it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rI1_0 : Rect S1024x2048 := Rect.unit (s := S1024x2048) ![0, 0] S1024x2048.size inb_S1024x2048_S1024x2048_0_0
abbrev rI1_1 : Rect S512x2048 := Rect.unit (s := S512x2048) ![0, 0] S512x2048.size inb_S512x2048_S512x2048_0_0
abbrev rI1_2 : Rect S512x2048 := Rect.unit (s := S512x2048) ![0, 0] S512x2048.size inb_S512x2048_S512x2048_0_0
abbrev rO1 : Rect S1024x512 := Rect.unit (s := S1024x512) ![0, 0] S1024x512.size inb_S1024x512_S1024x512_0_0

/-- What the body leaves in the output block, from the input blocks: its one store, of the whole block. -/
def out1 (x0 : Vec F S1024x2048 .bf16) (x1 : Vec F S512x2048 .bf16) (x2 : Vec F S512x2048 .bf16) : Vec F S1024x512 .bf16 :=
  View.canon [⟨rO1, k1_pay1 (View.ld x0 rI1_0) (View.ld x1 rI1_1) (View.ld x2 rI1_2)⟩]

theorem cover1 (p0 : Vec F S1024x512 .bf16) (y : S1024x512.Idx) :
    ∃ pc ∈ ([⟨rO1, p0⟩] : List (View.Piece (Elt F) S1024x512 .bf16)), y ∈ pc.1.set :=
  View.cover_of_tiled [⟨rO1, p0⟩] S1024x512.size (by rfl) y

set_option maxHeartbeats 1000000 in
/-- The body on whole staging buffers: the inputs at their contents and the output at anything run to the inputs as
    they were and the output at out1 of the inputs. -/
theorem sound_kernel1 (c : Dev nD) (E : Set ℕ) (i : grid1.Coords) (a0 : Memref sig .tc .vmem S1024x2048 .bf16) (ha0 : a0.IsWhole) (a1 : Memref sig .tc .vmem S512x2048 .bf16) (ha1 : a1.IsWhole) (a2 : Memref sig .tc .vmem S512x2048 .bf16) (ha2 : a2.IsWhole)
    (ao : Memref sig .tc .vmem S1024x512 .bf16) (hao : ao.IsWhole)
    (x0 : Vec F S1024x2048 .bf16) (x1 : Vec F S512x2048 .bf16) (x2 : Vec F S512x2048 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) ao fullShare d)
        ∗ (iprop(owns (c : Thread nD τ) a0 fullShare x0 ∗ owns (c : Thread nD τ) a1 fullShare x1 ∗ owns (c : Thread nD τ) a2 fullShare x2
            ∗ owns (c : Thread nD τ) ao fullShare (out1 x0 x1 x2)) -∗ K ⟨⟩))
      ⊢ wp frame (wpE (defs₀ (F := F)) Variants.none c none) E (cc1__bitlinear1_swiglu_kernel i a0 ha0 a1 ha1 a2 ha2 ao hao) K := by
  simp only [cc1__bitlinear1_swiglu_kernel_eq_skeleton]; unfold cc1__bitlinear1_swiglu_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1 _)

/-- The region's proof data on core c: the arrays as the region finds them; after the body at point t each input's
    buffer at its block and the output's at out1 of the input blocks; the invariant the scoped rest and the generator
    register, untouched; nothing owed; the weight matrix, which two windows read, held half by each of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  The third kernel region on one core: every grid point t takes rows 128·t … of the gated activations, the whole
  second gain vector and the whole second ternary weight matrix, and leaves in its output block the product of the
  normalised, int8-quantised rows with the weights.
  Stated for an arbitrary entry valuation V of the core's buffers, at any float instance.
-/
import proofs.«132295_j1597727834559_2_alg».proof.Proof.Gen.Kernel.Launch
import proofs.«132295_j1597727834559_2_alg».proof.Proof.Gen.Kernel.Skeleton
import proofs.«132295_j1597727834559_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or not: an
    unfetched point has the same block index as the one before it. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rI2_0 : Rect S128x5632 := Rect.unit (s := S128x5632) ![0, 0] S128x5632.size inb_S128x5632_S128x5632_0_0
abbrev rI2_1 : Rect S5632 := Rect.unit (s := S5632) ![0] S5632.size inb_S5632_S5632_0
abbrev rI2_2 : Rect S2048x5632 := Rect.unit (s := S2048x5632) ![0, 0] S2048x5632.size inb_S2048x5632_S2048x5632_0_0
abbrev rO2 : Rect S128x2048 := Rect.unit (s := S128x2048) ![0, 0] S128x2048.size inb_S128x2048_S128x2048_0_0

/-- What the body leaves in the output block, from the input blocks: its one store, of the whole block. -/
def out2 (x0 : Vec F S128x5632 .bf16) (x1 : Vec F S5632 .f32) (x2 : Vec F S2048x5632 .bf16) : Vec F S128x2048 .f32 :=
  View.canon [⟨rO2, k2_pay1 (View.ld x0 rI2_0) (View.ld x1 rI2_1) (View.ld x2 rI2_2)⟩]

theorem cover2 (p0 : Vec F S128x2048 .f32) (y : S128x2048.Idx) :
    ∃ pc ∈ ([⟨rO2, p0⟩] : List (View.Piece (Elt F) S128x2048 .f32)), y ∈ pc.1.set :=
  View.cover_of_tiled [⟨rO2, p0⟩] S128x2048.size (by rfl) y

set_option maxHeartbeats 1000000 in
/-- The body on whole staging buffers: the inputs at their contents and the output at anything run to the inputs as
    they were and the output at out2 of the inputs. -/
theorem sound_kernel2 (c : Dev nD) (E : Set ℕ) (i : grid2.Coords) (a0 : Memref sig .tc .vmem S128x5632 .bf16) (ha0 : a0.IsWhole) (a1 : Memref sig .tc .vmem S5632 .f32) (ha1 : a1.IsWhole) (a2 : Memref sig .tc .vmem S2048x5632 .bf16) (ha2 : a2.IsWhole)
    (ao : Memref sig .tc .vmem S128x2048 .f32) (hao : ao.IsWhole)
    (x0 : Vec F S128x5632 .bf16) (x1 : Vec F S5632 .f32) (x2 : Vec F S2048x5632 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) ao fullShare d)
        ∗ (iprop(owns (c : Thread nD τ) a0 fullShare x0 ∗ owns (c : Thread nD τ) a1 fullShare x1 ∗ owns (c : Thread nD τ) a2 fullShare x2
            ∗ owns (c : Thread nD τ) ao fullShare (out2 x0 x1 x2)) -∗ K ⟨⟩))
      ⊢ wp frame (wpE (defs₀ (F := F)) Variants.none c none) E (cc2__bitlinear2_kernel i a0 ha0 a1 ha1 a2 ha2 ao hao) K := by
  simp only [cc2__bitlinear2_kernel_eq_skeleton]; unfold cc2__bitlinear2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The region's proof data on core c: the arrays as the region finds them; after the body at point t each input's
    buffer at its block and the output's at out2 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Region1Share.lean ====
/-
  The second region reads the ternary weight matrix through TWO windows (the gate half and the value half of its
  rows), so that array's buffer is held half by each: on entry the full share is split in two, on exit the halves,
  which still hold the same contents, are joined again. The other two arrays are held whole.
-/
import proofs.«132295_j1597727834559_2_alg».proof.Proof.KB.Region1
import Idealize.ShloMosaic.Rules.PointsTo

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's four windows are three. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v25) ↦{fullShare} V' main_v25) ∗ (((c : Thread nD τ).loc main_v11) ↦{fullShare} V' main_v11)
          ∗ (((c : Thread nD τ).loc main_v26) ↦{fullShare} V' main_v26)) := by
  unfold Pipeline.arrBufs
  rw [bigSep_eq_bigSepL_of_eq [main_v25, main_v11, main_v26] (by decide) (by decide)]
  rfl

/-- The region's arrays, window by window, each whole at its share. -/
theorem arrays1_eq (c : Dev nD) (G : (w : Fin cfg1.W) → Buf (Elt F) ((cfg1.win w).arr.view.loc (c : Thread nD τ))) :
    (dat1 V c).arrays G = iprop((((c : Thread nD τ).loc main_v25) ↦{fullShare} G 0) ∗ (((c : Thread nD τ).loc main_v11) ↦{fullShare.left} G 1)
      ∗ (((c : Thread nD τ).loc main_v11) ↦{fullShare.right} G 2) ∗ (((c : Thread nD τ).loc main_v26) ↦{fullShare} G 3)) := by
  unfold Dat.arrays
  rw [bigSep_W1, (arr_whole1 0).set_eq_univ, (arr_whole1 1).set_eq_univ, (arr_whole1 3).set_eq_univ]
  rfl

/-- ENTRY: the three buffers whole at contents V' make the region's arrays at those contents. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v25) (h1 : G 1 = V' main_v11) (h2 : G 2 = V' main_v11) (h3 : G 3 = V' main_v26) :
    (Pipeline.arrBufs (Ix := Unit) (Name := ℕ) (U := UR sig nD τ) (Lvl := ℕ) spec1 c V' : sProp 𝕄) ⊢ (dat1 V c).arrays G := by
  rw [arrBufs1_eq, arrays1_eq, h0, h1, h2, h3]
  iintro ⟨Ha, Hw, Ho⟩
  ihave Hs := (pointsTo_share (PosShare.mem_left_op_right fullShare)).1 $$ Hw
  icases Hs with ⟨Hl, Hr⟩
  isplitl [Ha]; · iexact Ha
  isplitl [Hl]; · iexact Hl
  isplitl [Hr]; · iexact Hr
  iexact Ho

/-- EXIT: the region's arrays at contents that agree on the shared buffer make the three buffers whole again. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v25) (h1 : G 1 = V' main_v11) (h2 : G 2 = V' main_v11) (h3 : G 3 = V' main_v26) :
    (dat1 V c).arrays G ⊢ (Pipeline.arrBufs (Ix := Unit) (Name := ℕ) (U := UR sig nD τ) (Lvl := ℕ) spec1 c V' : sProp 𝕄) := by
  rw [arrBufs1_eq, arrays1_eq, h0, h1, h2, h3]
  iintro ⟨Ha, Hl, Hr, Ho⟩
  isplitl [Ha]; · iexact Ha
  isplitl [Hl Hr]
  · iapply (pointsTo_share (PosShare.mem_left_op_right fullShare)).2
    isplitl [Hl]; · iexact Hl
    iexact Hr
  iexact Ho

end Cert.Kernel.Hand

end
-- ==== Proof.KB.Run.lean ====
/-
  The whole program on every core: thirteen stretches of host operations (the two weight matrices are
  ternary-quantised and the activations flattened), the three kernel regions, and one last host operation (the
  result reshaped back). Between two items a core's unscoped buffers are all held at a known valuation; a region
  changes that valuation at its output array only. At the end every unscoped buffer is read at the last valuation.
-/
import proofs.«132295_j1597727834559_2_alg».proof.Proof.KB.Region0
import proofs.«132295_j1597727834559_2_alg».proof.Proof.KB.Region1
import proofs.«132295_j1597727834559_2_alg».proof.Proof.KB.Region2
import proofs.«132295_j1597727834559_2_alg».proof.Proof.KB.Region1Share
import proofs.«132295_j1597727834559_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each region -/

/-- The core's buffers when the first region is entered (after the thirteen host stretches), read at the
    TensorCore's references. -/
abbrev E0 : (c : Dev nD) → (b : Ref sig .tc) → Buf (Elt F) ((c : Thread nD τ).loc b) := fun c b => V13 m c b
/-- What the first region leaves in its output array: its write-backs folded over the grid. -/
def o0 (c : Dev nD) : Buf (Elt F) ((c : Thread nD τ).loc main_v25) := (dat0 (E0 m) c).arrAt 2 cfg0.N
/-- The core's buffers after the first region: changed at that array only. -/
def WA (c : Dev nD) : Valuation τ sig (Elt F) := Function.update (V13 m c) main_v25 (o0 m c)
abbrev EA : (c : Dev nD) → (b : Ref sig .tc) → Buf (Elt F) ((c : Thread nD τ).loc b) := fun c b => WA m c b
/-- Likewise the second region, -/
def o1 (c : Dev nD) : Buf (Elt F) ((c : Thread nD τ).loc main_v26) := (dat1 (EA m) c).arrAt 3 cfg1.N
def WB (c : Dev nD) : Valuation τ sig (Elt F) := Function.update (WA m c) main_v26 (o1 m c)
abbrev EB : (c : Dev nD) → (b : Ref sig .tc) → Buf (Elt F) ((c : Thread nD τ).loc b) := fun c b => WB m c b
/-- and the third. -/
def o2 (c : Dev nD) : Buf (Elt F) ((c : Thread nD τ).loc main_v27) := (dat2 (EB m) c).arrAt 3 cfg2.N
def WC (c : Dev nD) : Valuation τ sig (Elt F) := Function.update (WB m c) main_v27 (o2 m c)

/-- The regions' results as the valuations between items read them: each output array at what its region left. -/
def outs : Outs (F := F) := fun _ r c => WC m c r

theorem WC_v25 (c : Dev nD) : WC m c (Proc.devRef .tc main_v25) = o0 m c := by
  unfold WC; rw [Function.update_of_ne (StableHlo.devRef_ne_of_ne (by decide))]
  unfold WB; rw [Function.update_of_ne (StableHlo.devRef_ne_of_ne (by decide))]
  unfold WA; rw [Function.update_self]
theorem WC_v26 (c : Dev nD) : WC m c (Proc.devRef .tc main_v26) = o1 m c := by
  unfold WC; rw [Function.update_of_ne (StableHlo.devRef_ne_of_ne (by decide))]
  unfold WB; rw [Function.update_self]
theorem WC_v27 (c : Dev nD) : WC m c (Proc.devRef .tc main_v27) = o2 m c := by
  unfold WC; rw [Function.update_self]

theorem V14_eq (c : Dev nD) : V14 m (outs m) c = WA m c :=
  congrArg (Function.update (V13 m c) (Proc.devRef .tc main_v25)) (WC_v25 m c)
theorem V15_eq (c : Dev nD) : V15 m (outs m) c = WB m c := by
  show Function.update (V14 m (outs m) c) (Proc.devRef .tc main_v26) (outs m 15 main_v26 c) = _
  rw [V14_eq]; exact congrArg (Function.update (WA m c) (Proc.devRef .tc main_v26)) (WC_v26 m c)
theorem V16_eq (c : Dev nD) : V16 m (outs m) c = WC m c := by
  show Function.update (V15 m (outs m) c) (Proc.devRef .tc main_v27) (outs m 16 main_v27 c) = _
  rw [V15_eq]; exact congrArg (Function.update (WB m c) (Proc.devRef .tc main_v27)) (WC_v27 m c)

/-- A region leaves every buffer but its output array as it found it. -/
theorem WA_of_ne (c : Dev nD) (b : Ref sig .tc) (h : b ≠ main_v25) : WA m c (Proc.devRef .tc b) = V13 m c (Proc.devRef .tc b) := by
  unfold WA; exact Function.update_of_ne (StableHlo.devRef_ne_of_ne h) _ _
theorem WA_v25 (c : Dev nD) : WA m c (Proc.devRef .tc main_v25) = o0 m c := by unfold WA; rw [Function.update_self]
theorem WB_of_ne (c : Dev nD) (b : Ref sig .tc) (h : b ≠ main_v26) : WB m c (Proc.devRef .tc b) = WA m c (Proc.devRef .tc b) := by
  unfold WB; exact Function.update_of_ne (StableHlo.devRef_ne_of_ne h) _ _
theorem WB_v26 (c : Dev nD) : WB m c (Proc.devRef .tc main_v26) = o1 m c := by unfold WB; rw [Function.update_self]
theorem WC_of_ne (c : Dev nD) (b : Ref sig .tc) (h : b ≠ main_v27) : WC m c (Proc.devRef .tc b) = WB m c (Proc.devRef .tc b) := by
  unfold WC; exact Function.update_of_ne (StableHlo.devRef_ne_of_ne h) _ _

/-- The first region's arrays at its exit, read in the valuation after it: the two inputs as entered, the output at
    what the region left. -/
theorem exit0_0 (c : Dev nD) : (dat0 (E0 m) c).arrAt 0 cfg0.N = EA m c main_v24 :=
  ((dat0 (E0 m) c).arrAt_in 0 rfl cfg0.N).trans ((A_eq0 (E0 m) c 0).trans (WA_of_ne m c main_v24 (by decide)).symm)
theorem exit0_1 (c : Dev nD) : (dat0 (E0 m) c).arrAt 1 cfg0.N = EA m c main_arg2 :=
  ((dat0 (E0 m) c).arrAt_in 1 rfl cfg0.N).trans ((A_eq0 (E0 m) c 1).trans (WA_of_ne m c main_arg2 (by decide)).symm)
theorem exit0_2 (c : Dev nD) : (dat0 (E0 m) c).arrAt 2 cfg0.N = EA m c main_v25 := (WA_v25 m c).symm
theorem rest0 (c : Dev nD) (b : Ref sig .tc) (hb : b ∉ Finset.univ.image (Pipeline.arrRef spec0)) : EA m c b = E0 m c b :=
  WA_of_ne m c b fun e => hb (Finset.mem_image.mpr ⟨2, Finset.mem_univ _, e.symm⟩)

abbrev EC : (c : Dev nD) → (b : Ref sig .tc) → Buf (Elt F) ((c : Thread nD τ).loc b) := fun c b => WC m c b

/-- The second region's arrays at its exit: the activations and the weight matrix (through both of its windows) as
    entered, the output at what the region left. -/
theorem exit1_0 (c : Dev nD) : (dat1 (EA m) c).arrAt 0 cfg1.N = EB m c main_v25 :=
  ((dat1 (EA m) c).arrAt_in 0 rfl cfg1.N).trans ((A_eq1 (EA m) c 0).trans (WB_of_ne m c main_v25 (by decide)).symm)
theorem exit1_1 (c : Dev nD) : (dat1 (EA m) c).arrAt 1 cfg1.N = EB m c main_v11 :=
  ((dat1 (EA m) c).arrAt_in 1 rfl cfg1.N).trans ((A_eq1 (EA m) c 1).trans (WB_of_ne m c main_v11 (by decide)).symm)
theorem exit1_2 (c : Dev nD) : (dat1 (EA m) c).arrAt 2 cfg1.N = EB m c main_v11 :=
  ((dat1 (EA m) c).arrAt_in 2 rfl cfg1.N).trans ((A_eq1 (EA m) c 2).trans (WB_of_ne m c main_v11 (by decide)).symm)
theorem exit1_3 (c : Dev nD) : (dat1 (EA m) c).arrAt 3 cfg1.N = EB m c main_v26 := (WB_v26 m c).symm
theorem rest1 (c : Dev nD) (b : Ref sig .tc) (hb : b ∉ Finset.univ.image (Pipeline.arrRef spec1)) : EB m c b = EA m c b :=
  WB_of_ne m c b fun e => hb (Finset.mem_image.mpr ⟨3, Finset.mem_univ _, e.symm⟩)
/-- and the third's. -/
theorem exit2_0 (c : Dev nD) : (dat2 (EB m) c).arrAt 0 cfg2.N = EC m c main_v26 :=
  ((dat2 (EB m) c).arrAt_in 0 rfl cfg2.N).trans ((A_eq2 (EB m) c 0).trans (WC_of_ne m c main_v26 (by decide)).symm)
theorem exit2_1 (c : Dev nD) : (dat2 (EB m) c).arrAt 1 cfg2.N = EC m c main_arg4 :=
  ((dat2 (EB m) c).arrAt_in 1 rfl cfg2.N).trans ((A_eq2 (EB m) c 1).trans (WC_of_ne m c main_arg4 (by decide)).symm)
theorem exit2_2 (c : Dev nD) : (dat2 (EB m) c).arrAt 2 cfg2.N = EC m c main_v23 :=
  ((dat2 (EB m) c).arrAt_in 2 rfl cfg2.N).trans ((A_eq2 (EB m) c 2).trans (WC_of_ne m c main_v23 (by decide)).symm)
theorem exit2_3 (c : Dev nD) : (dat2 (EB m) c).arrAt 3 cfg2.N = EC m c main_v27 := (WC_v27 m c).symm
theorem rest2 (c : Dev nD) (b : Ref sig .tc) (hb : b ∉ Finset.univ.image (Pipeline.arrRef spec2)) : EC m c b = EB m c b :=
  WC_of_ne m c b fun e => hb (Finset.mem_image.mpr ⟨3, Finset.mem_univ _, e.symm⟩)

/-! ## The proof data family and the thread state -/

/-- Every region's proof data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (EA m) c
  | ⟨2, _⟩ => fun c => dat2 (EB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    debts, none. -/
abbrev Rr (c : Dev nD) : sProp 𝕄 := iprop((∃ r, prngReg c r) ∗ ∃ W, owes (c : Thread nD τ) (0 : CellTallies nD τ sig Unit) W)
abbrev EE : Fin 4 → Dev nD → sProp 𝕄 := fun _ c => Rr c

/-! ## The regions over the thread state -/

set_option backward.isDefEq.respectTransparency.types false in
/-- The first region: entered with every unscoped buffer at the valuation after the host stretches, left with the
    output array at what its write-backs make it. Its arrays are taken out of the unscoped buffers and put back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V13 m c) ∗ EE 0 c)
  post c := iprop(StableHlo.held (c : Thread nD τ) (Pipeline.ucRefs τ sig) (V14 m (outs m) c) ∗ EE 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (EA m c) ((pdats m 0 c).arrAt · cfg0.N)
      (fun w => match w with
        | ⟨0, _⟩ => exit0_0 m c
        | ⟨1, _⟩ => exit0_1 m c
        | ⟨2, _⟩ => exit0_2 m c)
      (rest0 m c)
    rw [Pipeline.unscopedBufs_held] at hjoin
    rw [V14_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region, in the same way: its three inputs as entered, its output array at what it leaves. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EB m) c).loose
  hwaits := Pipeline.hwaits_of_owed_zero _ _ _ _ L lv 2 fun _ _ => rfl
  pre c := iprop(StableHlo.held (c : Thread nD τ) (Pipeline.ucRefs τ sig) (V15 m (outs m) c) ∗ EE 2 c)
  post c := iprop(StableHlo.held (c : Thread nD τ) (Pipeline.ucRefs τ sig) (V16 m (outs m) c) ∗ EE 3 c)
  X c := iprop(∃ r, prngReg c r)
  Y c := iprop(∃ r, prngReg c r)
  Z c := Pipeline.unscopedRest (Ix := Unit) (Name := ℕ) (U := UR sig nD τ) (Lvl := ℕ) spec2 c (EB m c)
  hentry c := by
    rw [Pipeline.ownSems0_none, V15_eq]
    have hsplit := Pipeline.arrays_of_unscopedBufs (p := 2) (pcfgs (F := F)) adm (pdats m) launch2.win launch2.arr_whole c
      ((pdats m 2 c).share_full fun _ => rfl) (EB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EB m c) (EC m c) ((pdats m 2 c).arrAt · cfg2.N)
      (fun w => match w with
        | ⟨0, _⟩ => exit2_0 m c
        | ⟨1, _⟩ => exit2_1 m c
        | ⟨2, _⟩ => exit2_2 m c
        | ⟨3, _⟩ => exit2_3 m c)
      (rest2 m c)
    rw [Pipeline.unscopedBufs_held] at hjoin
    rw [V16_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region. Two of its windows read one array, so its arrays are taken out of the unscoped buffers by
    hand: the three buffers behind them whole, the weight matrix's share dealt to its two windows, and on exit joined
    again. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (EA m) c).loose
  hwaits := Pipeline.hwaits_of_owed_zero _ _ _ _ L lv 1 fun _ _ => rfl
  pre c := iprop(StableHlo.held (c : Thread nD τ) (Pipeline.ucRefs τ sig) (V14 m (outs m) c) ∗ EE 1 c)
  post c := iprop(StableHlo.held (c : Thread nD τ) (Pipeline.ucRefs τ sig) (V15 m (outs m) c) ∗ EE 2 c)
  X c := iprop(∃ r, prngReg c r)
  Y c := iprop(∃ r, prngReg c r)
  Z c := Pipeline.unscopedRest (Ix := Unit) (Name := ℕ) (U := UR sig nD τ) (Lvl := ℕ) spec1 c (EA m c)
  hentry c := by
    rw [Pipeline.ownSems0_none, V14_eq]
    have hub := Pipeline.unscopedBufs_split₀ (nD := nD) (τ := τ) (Val := Elt F) (Ix := Unit) (Name := ℕ) (U := UR sig nD τ) (Lvl := ℕ)
      (Pipeline.pin (pcfgs (F := F)) adm) 1 winFacts₀1.arr_unscoped c (EA m c)
    rw [Pipeline.unscopedBufs_held] at hub
    iintro ⟨⟨Hub, Hp, HO⟩, -, -⟩
    ihave H := (Entails.of_eq hub) $$ Hub
    icases H with ⟨Hb, Hrest⟩
    have hdeal : (Pipeline.arrBufs (Ix := Unit) (Name := ℕ) (U := UR sig nD τ) (Lvl := ℕ) spec1 c (EA m c) : sProp 𝕄)
        ⊢ (pdats m 1 c).arrays ((pdats m 1 c).arrAt · 0) :=
      arrays1_of_bufs (EA m) c (EA m c) ((dat1 (EA m) c).arrAt · 0)
        (A_eq1 (EA m) c 0) (A_eq1 (EA m) c 1) (A_eq1 (EA m) c 2) (A_eq1 (EA m) c 3)
    ihave Ha := hdeal $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (nD := nD) (τ := τ) (Val := Elt F) (Ix := Unit) (Name := ℕ) (U := UR sig nD τ) (Lvl := ℕ)
      (Pipeline.pin (pcfgs (F := F)) adm) 1 winFacts₀1.arr_unscoped c (EB m c)
    rw [Pipeline.unscopedBufs_held] at hub
    have hrest : (Pipeline.unscopedRest (Ix := Unit) (Name := ℕ) (U := UR sig nD τ) (Lvl := ℕ) spec1 c (EA m c) : sProp 𝕄)
        = Pipeline.unscopedRest spec1 c (EB m c) := by
      unfold Pipeline.unscopedRest
      exact bigSep_congr fun b hb => by rw [rest1 m c b (Finset.mem_sdiff.mp hb).2]
    rw [V15_eq]
    iintro ⟨Ha, HO, HY, Hrest⟩
    have hjoin : (pdats m 1 c).arrays ((pdats m 1 c).arrAt · (Pipeline.pin (pcfgs (F := F)) adm 1).N)
        ⊢ (Pipeline.arrBufs (Ix := Unit) (Name := ℕ) (U := UR sig nD τ) (Lvl := ℕ) spec1 c (EB m c) : sProp 𝕄) :=
      bufs_of_arrays1 (EA m) c (EB m c) ((dat1 (EA m) c).arrAt · cfg1.N)
        (exit1_0 m c) (exit1_1 m c) (exit1_2 m c) (exit1_3 m c)
    ihave Hb := hjoin $$ Ha
    ihave Hr' := (Entails.of_eq hrest) $$ Hrest
    imodintro
    isplitl [Hb Hr']
    · iapply (Entails.of_eq hub.symm); isplitl [Hb] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- From any memory with zero counters every weakly fair execution of the program on the TensorCores terminates,
    nothing faulting, and every final memory holds each unscoped buffer of each core at the last valuation: the
    launch's contents run through the host stretches and changed by each region at its output array. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv EE () (pdats m) (reg0 m) (reg1 m) (reg2 m))
    (fun c Q => by
      rewrite [main_chain c, Seg.run_eq_chain,
        show (segs m (outs m) 𝒱₀ L lv EE () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (show EE 3 c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V17_main_arg0 m (outs m) c),
     (h c _ (mem_uc main_arg1 (by decide))).trans (V17_main_arg1 m (outs m) c),
     (h c _ (mem_uc main_arg2 (by decide))).trans (V17_main_arg2 m (outs m) c),
     (h c _ (mem_uc main_arg3 (by decide))).trans (V17_main_arg3 m (outs m) c),
     (h c _ (mem_uc main_arg4 (by decide))).trans (V17_main_arg4 m (outs m) c)⟩) (run_all m ρ)

end Cert.Kernel.Hand

end
-- ==== Proof.KI.Region0.lean ====
/-
  The first kernel region on one core: every grid point t takes rows 512·t … 512·t + 511 of the flattened
  activations and the whole gain vector, and leaves in its output block the normalised, int8-quantised rows.
  Stated for an arbitrary entry valuation V of the core's buffers, at any float instance.
-/
import proofs.«132295_j1597727834559_2_alg».proof.Proof.Gen.KernelIdeal.Launch
import proofs.«132295_j1597727834559_2_alg».proof.Proof.Gen.KernelIdeal.Skeleton
import proofs.«132295_j1597727834559_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or not: an
    unfetched point has the same block index as the one before it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rI0_0 : Rect S512x2048 := Rect.unit (s := S512x2048) ![0, 0] S512x2048.size inb_S512x2048_S512x2048_0_0
abbrev rI0_1 : Rect S2048 := Rect.unit (s := S2048) ![0] S2048.size inb_S2048_S2048_0
abbrev rO0 : Rect S512x2048 := Rect.unit (s := S512x2048) ![0, 0] S512x2048.size inb_S512x2048_S512x2048_0_0

/-- What the body leaves in the output block, from the input blocks: its one store, of the whole block. -/
def out0 (x0 : Vec F S512x2048 .f32) (x1 : Vec F S2048 .f32) : Vec F S512x2048 .bf16 :=
  View.canon [⟨rO0, k0_pay1 (View.ld x0 rI0_0) (View.ld x1 rI0_1)⟩]

theorem cover0 (p0 : Vec F S512x2048 .bf16) (y : S512x2048.Idx) :
    ∃ pc ∈ ([⟨rO0, p0⟩] : List (View.Piece (Elt F) S512x2048 .bf16)), y ∈ pc.1.set :=
  View.cover_of_tiled [⟨rO0, p0⟩] S512x2048.size (by rfl) y

set_option maxHeartbeats 1000000 in
/-- The body on whole staging buffers: the inputs at their contents and the output at anything run to the inputs as
    they were and the output at out0 of the inputs. -/
theorem sound_kernel0 (c : Dev nD) (E : Set ℕ) (i : grid0.Coords) (a0 : Memref sig .tc .vmem S512x2048 .f32) (ha0 : a0.IsWhole) (a1 : Memref sig .tc .vmem S2048 .f32) (ha1 : a1.IsWhole)
    (ao : Memref sig .tc .vmem S512x2048 .bf16) (hao : ao.IsWhole)
    (x0 : Vec F S512x2048 .f32) (x1 : Vec F S2048 .f32) (K : PUnit → sProp 𝕄) :
    iprop(owns (c : Thread nD τ) a0 fullShare x0 ∗ owns (c : Thread nD τ) a1 fullShare x1 ∗ (∃ d, owns (c : Thread nD τ) ao fullShare d)
        ∗ (iprop(owns (c : Thread nD τ) a0 fullShare x0 ∗ owns (c : Thread nD τ) a1 fullShare x1
            ∗ owns (c : Thread nD τ) ao fullShare (out0 x0 x1)) -∗ K ⟨⟩))
      ⊢ wp frame (wpE (defs₀ (F := F)) Variants.none c none) E (cc0__rmsnorm_quant_kernel i a0 ha0 a1 ha1 ao hao) K := by
  simp only [cc0__rmsnorm_quant_kernel_eq_skeleton]; unfold cc0__rmsnorm_quant_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0 _)

/-- The region's proof data on core c: the arrays as the region finds them; after the body at point t each input's
    buffer at its block and the output's at out0 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region on one core: grid point (i, n) takes rows 1024·i … of the quantised activations and two
  blocks of 512 rows of the ternary weight matrix — block n (the gate half) and block n + 11 (the value half), both
  windows of ONE array — and leaves in its output block gate · σ(gate) · value of the two products.
  Stated for an arbitrary entry valuation V of the core's buffers, at any float instance.
-/
import proofs.«132295_j1597727834559_2_alg».proof.Proof.Gen.KernelIdeal.Launch
import proofs.«132295_j1597727834559_2_alg».proof.Proof.Gen.KernelIdeal.Skeleton
import proofs.«132295_j1597727834559_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not: an
    unfetched point has the same block index as the one before it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rI1_0 : Rect S1024x2048 := Rect.unit (s := S1024x2048) ![0, 0] S1024x2048.size inb_S1024x2048_S1024x2048_0_0
abbrev rI1_1 : Rect S512x2048 := Rect.unit (s := S512x2048) ![0, 0] S512x2048.size inb_S512x2048_S512x2048_0_0
abbrev rI1_2 : Rect S512x2048 := Rect.unit (s := S512x2048) ![0, 0] S512x2048.size inb_S512x2048_S512x2048_0_0
abbrev rO1 : Rect S1024x512 := Rect.unit (s := S1024x512) ![0, 0] S1024x512.size inb_S1024x512_S1024x512_0_0

/-- What the body leaves in the output block, from the input blocks: its one store, of the whole block. -/
def out1 (x0 : Vec F S1024x2048 .bf16) (x1 : Vec F S512x2048 .bf16) (x2 : Vec F S512x2048 .bf16) : Vec F S1024x512 .bf16 :=
  View.canon [⟨rO1, k1_pay1 (View.ld x0 rI1_0) (View.ld x1 rI1_1) (View.ld x2 rI1_2)⟩]

theorem cover1 (p0 : Vec F S1024x512 .bf16) (y : S1024x512.Idx) :
    ∃ pc ∈ ([⟨rO1, p0⟩] : List (View.Piece (Elt F) S1024x512 .bf16)), y ∈ pc.1.set :=
  View.cover_of_tiled [⟨rO1, p0⟩] S1024x512.size (by rfl) y

set_option maxHeartbeats 1000000 in
/-- The body on whole staging buffers: the inputs at their contents and the output at anything run to the inputs as
    they were and the output at out1 of the inputs. -/
theorem sound_kernel1 (c : Dev nD) (E : Set ℕ) (i : grid1.Coords) (a0 : Memref sig .tc .vmem S1024x2048 .bf16) (ha0 : a0.IsWhole) (a1 : Memref sig .tc .vmem S512x2048 .bf16) (ha1 : a1.IsWhole) (a2 : Memref sig .tc .vmem S512x2048 .bf16) (ha2 : a2.IsWhole)
    (ao : Memref sig .tc .vmem S1024x512 .bf16) (hao : ao.IsWhole)
    (x0 : Vec F S1024x2048 .bf16) (x1 : Vec F S512x2048 .bf16) (x2 : Vec F S512x2048 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) ao fullShare d)
        ∗ (iprop(owns (c : Thread nD τ) a0 fullShare x0 ∗ owns (c : Thread nD τ) a1 fullShare x1 ∗ owns (c : Thread nD τ) a2 fullShare x2
            ∗ owns (c : Thread nD τ) ao fullShare (out1 x0 x1 x2)) -∗ K ⟨⟩))
      ⊢ wp frame (wpE (defs₀ (F := F)) Variants.none c none) E (cc1__bitlinear1_swiglu_kernel i a0 ha0 a1 ha1 a2 ha2 ao hao) K := by
  simp only [cc1__bitlinear1_swiglu_kernel_eq_skeleton]; unfold cc1__bitlinear1_swiglu_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1 _)

/-- The region's proof data on core c: the arrays as the region finds them; after the body at point t each input's
    buffer at its block and the output's at out1 of the input blocks; the invariant the scoped rest and the generator
    register, untouched; nothing owed; the weight matrix, which two windows read, held half by each of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The third kernel region on one core: every grid point t takes rows 128·t … of the gated activations, the whole
  second gain vector and the whole second ternary weight matrix, and leaves in its output block the product of the
  normalised, int8-quantised rows with the weights.
  Stated for an arbitrary entry valuation V of the core's buffers, at any float instance.
-/
import proofs.«132295_j1597727834559_2_alg».proof.Proof.Gen.KernelIdeal.Launch
import proofs.«132295_j1597727834559_2_alg».proof.Proof.Gen.KernelIdeal.Skeleton
import proofs.«132295_j1597727834559_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or not: an
    unfetched point has the same block index as the one before it. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rI2_0 : Rect S128x5632 := Rect.unit (s := S128x5632) ![0, 0] S128x5632.size inb_S128x5632_S128x5632_0_0
abbrev rI2_1 : Rect S5632 := Rect.unit (s := S5632) ![0] S5632.size inb_S5632_S5632_0
abbrev rI2_2 : Rect S2048x5632 := Rect.unit (s := S2048x5632) ![0, 0] S2048x5632.size inb_S2048x5632_S2048x5632_0_0
abbrev rO2 : Rect S128x2048 := Rect.unit (s := S128x2048) ![0, 0] S128x2048.size inb_S128x2048_S128x2048_0_0

/-- What the body leaves in the output block, from the input blocks: its one store, of the whole block. -/
def out2 (x0 : Vec F S128x5632 .bf16) (x1 : Vec F S5632 .f32) (x2 : Vec F S2048x5632 .bf16) : Vec F S128x2048 .f32 :=
  View.canon [⟨rO2, k2_pay1 (View.ld x0 rI2_0) (View.ld x1 rI2_1) (View.ld x2 rI2_2)⟩]

theorem cover2 (p0 : Vec F S128x2048 .f32) (y : S128x2048.Idx) :
    ∃ pc ∈ ([⟨rO2, p0⟩] : List (View.Piece (Elt F) S128x2048 .f32)), y ∈ pc.1.set :=
  View.cover_of_tiled [⟨rO2, p0⟩] S128x2048.size (by rfl) y

set_option maxHeartbeats 1000000 in
/-- The body on whole staging buffers: the inputs at their contents and the output at anything run to the inputs as
    they were and the output at out2 of the inputs. -/
theorem sound_kernel2 (c : Dev nD) (E : Set ℕ) (i : grid2.Coords) (a0 : Memref sig .tc .vmem S128x5632 .bf16) (ha0 : a0.IsWhole) (a1 : Memref sig .tc .vmem S5632 .f32) (ha1 : a1.IsWhole) (a2 : Memref sig .tc .vmem S2048x5632 .bf16) (ha2 : a2.IsWhole)
    (ao : Memref sig .tc .vmem S128x2048 .f32) (hao : ao.IsWhole)
    (x0 : Vec F S128x5632 .bf16) (x1 : Vec F S5632 .f32) (x2 : Vec F S2048x5632 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) ao fullShare d)
        ∗ (iprop(owns (c : Thread nD τ) a0 fullShare x0 ∗ owns (c : Thread nD τ) a1 fullShare x1 ∗ owns (c : Thread nD τ) a2 fullShare x2
            ∗ owns (c : Thread nD τ) ao fullShare (out2 x0 x1 x2)) -∗ K ⟨⟩))
      ⊢ wp frame (wpE (defs₀ (F := F)) Variants.none c none) E (cc2__bitlinear2_kernel i a0 ha0 a1 ha1 a2 ha2 ao hao) K := by
  simp only [cc2__bitlinear2_kernel_eq_skeleton]; unfold cc2__bitlinear2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The region's proof data on core c: the arrays as the region finds them; after the body at point t each input's
    buffer at its block and the output's at out2 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region1Share.lean ====
/-
  The second region reads the ternary weight matrix through TWO windows (the gate half and the value half of its
  rows), so that array's buffer is held half by each: on entry the full share is split in two, on exit the halves,
  which still hold the same contents, are joined again. The other two arrays are held whole.
-/
import proofs.«132295_j1597727834559_2_alg».proof.Proof.KI.Region1
import Idealize.ShloMosaic.Rules.PointsTo

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's four windows are three. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v25) ↦{fullShare} V' main_v25) ∗ (((c : Thread nD τ).loc main_v11) ↦{fullShare} V' main_v11)
          ∗ (((c : Thread nD τ).loc main_v26) ↦{fullShare} V' main_v26)) := by
  unfold Pipeline.arrBufs
  rw [bigSep_eq_bigSepL_of_eq [main_v25, main_v11, main_v26] (by decide) (by decide)]
  rfl

/-- The region's arrays, window by window, each whole at its share. -/
theorem arrays1_eq (c : Dev nD) (G : (w : Fin cfg1.W) → Buf (Elt F) ((cfg1.win w).arr.view.loc (c : Thread nD τ))) :
    (dat1 V c).arrays G = iprop((((c : Thread nD τ).loc main_v25) ↦{fullShare} G 0) ∗ (((c : Thread nD τ).loc main_v11) ↦{fullShare.left} G 1)
      ∗ (((c : Thread nD τ).loc main_v11) ↦{fullShare.right} G 2) ∗ (((c : Thread nD τ).loc main_v26) ↦{fullShare} G 3)) := by
  unfold Dat.arrays
  rw [bigSep_W1, (arr_whole1 0).set_eq_univ, (arr_whole1 1).set_eq_univ, (arr_whole1 3).set_eq_univ]
  rfl

/-- ENTRY: the three buffers whole at contents V' make the region's arrays at those contents. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v25) (h1 : G 1 = V' main_v11) (h2 : G 2 = V' main_v11) (h3 : G 3 = V' main_v26) :
    (Pipeline.arrBufs (Ix := Unit) (Name := ℕ) (U := UR sig nD τ) (Lvl := ℕ) spec1 c V' : sProp 𝕄) ⊢ (dat1 V c).arrays G := by
  rw [arrBufs1_eq, arrays1_eq, h0, h1, h2, h3]
  iintro ⟨Ha, Hw, Ho⟩
  ihave Hs := (pointsTo_share (PosShare.mem_left_op_right fullShare)).1 $$ Hw
  icases Hs with ⟨Hl, Hr⟩
  isplitl [Ha]; · iexact Ha
  isplitl [Hl]; · iexact Hl
  isplitl [Hr]; · iexact Hr
  iexact Ho

/-- EXIT: the region's arrays at contents that agree on the shared buffer make the three buffers whole again. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v25) (h1 : G 1 = V' main_v11) (h2 : G 2 = V' main_v11) (h3 : G 3 = V' main_v26) :
    (dat1 V c).arrays G ⊢ (Pipeline.arrBufs (Ix := Unit) (Name := ℕ) (U := UR sig nD τ) (Lvl := ℕ) spec1 c V' : sProp 𝕄) := by
  rw [arrBufs1_eq, arrays1_eq, h0, h1, h2, h3]
  iintro ⟨Ha, Hl, Hr, Ho⟩
  isplitl [Ha]; · iexact Ha
  isplitl [Hl Hr]
  · iapply (pointsTo_share (PosShare.mem_left_op_right fullShare)).2
    isplitl [Hl]; · iexact Hl
    iexact Hr
  iexact Ho

end Cert.KernelIdeal.Hand

end
-- ==== Proof.KI.Run.lean ====
/-
  The whole program on every core: thirteen stretches of host operations (the two weight matrices are
  ternary-quantised and the activations flattened), the three kernel regions, and one last host operation (the
  result reshaped back). Between two items a core's unscoped buffers are all held at a known valuation; a region
  changes that valuation at its output array only. At the end every unscoped buffer is read at the last valuation.
-/
import proofs.«132295_j1597727834559_2_alg».proof.Proof.KI.Region0
import proofs.«132295_j1597727834559_2_alg».proof.Proof.KI.Region1
import proofs.«132295_j1597727834559_2_alg».proof.Proof.KI.Region2
import proofs.«132295_j1597727834559_2_alg».proof.Proof.KI.Region1Share
import proofs.«132295_j1597727834559_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each region -/

/-- The core's buffers when the first region is entered (after the thirteen host stretches), read at the
    TensorCore's references. -/
abbrev E0 : (c : Dev nD) → (b : Ref sig .tc) → Buf (Elt F) ((c : Thread nD τ).loc b) := fun c b => V13 m c b
/-- What the first region leaves in its output array: its write-backs folded over the grid. -/
def o0 (c : Dev nD) : Buf (Elt F) ((c : Thread nD τ).loc main_v25) := (dat0 (E0 m) c).arrAt 2 cfg0.N
/-- The core's buffers after the first region: changed at that array only. -/
def WA (c : Dev nD) : Valuation τ sig (Elt F) := Function.update (V13 m c) main_v25 (o0 m c)
abbrev EA : (c : Dev nD) → (b : Ref sig .tc) → Buf (Elt F) ((c : Thread nD τ).loc b) := fun c b => WA m c b
/-- Likewise the second region, -/
def o1 (c : Dev nD) : Buf (Elt F) ((c : Thread nD τ).loc main_v26) := (dat1 (EA m) c).arrAt 3 cfg1.N
def WB (c : Dev nD) : Valuation τ sig (Elt F) := Function.update (WA m c) main_v26 (o1 m c)
abbrev EB : (c : Dev nD) → (b : Ref sig .tc) → Buf (Elt F) ((c : Thread nD τ).loc b) := fun c b => WB m c b
/-- and the third. -/
def o2 (c : Dev nD) : Buf (Elt F) ((c : Thread nD τ).loc main_v27) := (dat2 (EB m) c).arrAt 3 cfg2.N
def WC (c : Dev nD) : Valuation τ sig (Elt F) := Function.update (WB m c) main_v27 (o2 m c)

/-- The regions' results as the valuations between items read them: each output array at what its region left. -/
def outs : Outs (F := F) := fun _ r c => WC m c r

theorem WC_v25 (c : Dev nD) : WC m c (Proc.devRef .tc main_v25) = o0 m c := by
  unfold WC; rw [Function.update_of_ne (StableHlo.devRef_ne_of_ne (by decide))]
  unfold WB; rw [Function.update_of_ne (StableHlo.devRef_ne_of_ne (by decide))]
  unfold WA; rw [Function.update_self]
theorem WC_v26 (c : Dev nD) : WC m c (Proc.devRef .tc main_v26) = o1 m c := by
  unfold WC; rw [Function.update_of_ne (StableHlo.devRef_ne_of_ne (by decide))]
  unfold WB; rw [Function.update_self]
theorem WC_v27 (c : Dev nD) : WC m c (Proc.devRef .tc main_v27) = o2 m c := by
  unfold WC; rw [Function.update_self]

theorem V14_eq (c : Dev nD) : V14 m (outs m) c = WA m c :=
  congrArg (Function.update (V13 m c) (Proc.devRef .tc main_v25)) (WC_v25 m c)
theorem V15_eq (c : Dev nD) : V15 m (outs m) c = WB m c := by
  show Function.update (V14 m (outs m) c) (Proc.devRef .tc main_v26) (outs m 15 main_v26 c) = _
  rw [V14_eq]; exact congrArg (Function.update (WA m c) (Proc.devRef .tc main_v26)) (WC_v26 m c)
theorem V16_eq (c : Dev nD) : V16 m (outs m) c = WC m c := by
  show Function.update (V15 m (outs m) c) (Proc.devRef .tc main_v27) (outs m 16 main_v27 c) = _
  rw [V15_eq]; exact congrArg (Function.update (WB m c) (Proc.devRef .tc main_v27)) (WC_v27 m c)

/-- A region leaves every buffer but its output array as it found it. -/
theorem WA_of_ne (c : Dev nD) (b : Ref sig .tc) (h : b ≠ main_v25) : WA m c (Proc.devRef .tc b) = V13 m c (Proc.devRef .tc b) := by
  unfold WA; exact Function.update_of_ne (StableHlo.devRef_ne_of_ne h) _ _
theorem WA_v25 (c : Dev nD) : WA m c (Proc.devRef .tc main_v25) = o0 m c := by unfold WA; rw [Function.update_self]
theorem WB_of_ne (c : Dev nD) (b : Ref sig .tc) (h : b ≠ main_v26) : WB m c (Proc.devRef .tc b) = WA m c (Proc.devRef .tc b) := by
  unfold WB; exact Function.update_of_ne (StableHlo.devRef_ne_of_ne h) _ _
theorem WB_v26 (c : Dev nD) : WB m c (Proc.devRef .tc main_v26) = o1 m c := by unfold WB; rw [Function.update_self]
theorem WC_of_ne (c : Dev nD) (b : Ref sig .tc) (h : b ≠ main_v27) : WC m c (Proc.devRef .tc b) = WB m c (Proc.devRef .tc b) := by
  unfold WC; exact Function.update_of_ne (StableHlo.devRef_ne_of_ne h) _ _

/-- The first region's arrays at its exit, read in the valuation after it: the two inputs as entered, the output at
    what the region left. -/
theorem exit0_0 (c : Dev nD) : (dat0 (E0 m) c).arrAt 0 cfg0.N = EA m c main_v24 :=
  ((dat0 (E0 m) c).arrAt_in 0 rfl cfg0.N).trans ((A_eq0 (E0 m) c 0).trans (WA_of_ne m c main_v24 (by decide)).symm)
theorem exit0_1 (c : Dev nD) : (dat0 (E0 m) c).arrAt 1 cfg0.N = EA m c main_arg2 :=
  ((dat0 (E0 m) c).arrAt_in 1 rfl cfg0.N).trans ((A_eq0 (E0 m) c 1).trans (WA_of_ne m c main_arg2 (by decide)).symm)
theorem exit0_2 (c : Dev nD) : (dat0 (E0 m) c).arrAt 2 cfg0.N = EA m c main_v25 := (WA_v25 m c).symm
theorem rest0 (c : Dev nD) (b : Ref sig .tc) (hb : b ∉ Finset.univ.image (Pipeline.arrRef spec0)) : EA m c b = E0 m c b :=
  WA_of_ne m c b fun e => hb (Finset.mem_image.mpr ⟨2, Finset.mem_univ _, e.symm⟩)

abbrev EC : (c : Dev nD) → (b : Ref sig .tc) → Buf (Elt F) ((c : Thread nD τ).loc b) := fun c b => WC m c b

/-- The second region's arrays at its exit: the activations and the weight matrix (through both of its windows) as
    entered, the output at what the region left. -/
theorem exit1_0 (c : Dev nD) : (dat1 (EA m) c).arrAt 0 cfg1.N = EB m c main_v25 :=
  ((dat1 (EA m) c).arrAt_in 0 rfl cfg1.N).trans ((A_eq1 (EA m) c 0).trans (WB_of_ne m c main_v25 (by decide)).symm)
theorem exit1_1 (c : Dev nD) : (dat1 (EA m) c).arrAt 1 cfg1.N = EB m c main_v11 :=
  ((dat1 (EA m) c).arrAt_in 1 rfl cfg1.N).trans ((A_eq1 (EA m) c 1).trans (WB_of_ne m c main_v11 (by decide)).symm)
theorem exit1_2 (c : Dev nD) : (dat1 (EA m) c).arrAt 2 cfg1.N = EB m c main_v11 :=
  ((dat1 (EA m) c).arrAt_in 2 rfl cfg1.N).trans ((A_eq1 (EA m) c 2).trans (WB_of_ne m c main_v11 (by decide)).symm)
theorem exit1_3 (c : Dev nD) : (dat1 (EA m) c).arrAt 3 cfg1.N = EB m c main_v26 := (WB_v26 m c).symm
theorem rest1 (c : Dev nD) (b : Ref sig .tc) (hb : b ∉ Finset.univ.image (Pipeline.arrRef spec1)) : EB m c b = EA m c b :=
  WB_of_ne m c b fun e => hb (Finset.mem_image.mpr ⟨3, Finset.mem_univ _, e.symm⟩)
/-- and the third's. -/
theorem exit2_0 (c : Dev nD) : (dat2 (EB m) c).arrAt 0 cfg2.N = EC m c main_v26 :=
  ((dat2 (EB m) c).arrAt_in 0 rfl cfg2.N).trans ((A_eq2 (EB m) c 0).trans (WC_of_ne m c main_v26 (by decide)).symm)
theorem exit2_1 (c : Dev nD) : (dat2 (EB m) c).arrAt 1 cfg2.N = EC m c main_arg4 :=
  ((dat2 (EB m) c).arrAt_in 1 rfl cfg2.N).trans ((A_eq2 (EB m) c 1).trans (WC_of_ne m c main_arg4 (by decide)).symm)
theorem exit2_2 (c : Dev nD) : (dat2 (EB m) c).arrAt 2 cfg2.N = EC m c main_v23 :=
  ((dat2 (EB m) c).arrAt_in 2 rfl cfg2.N).trans ((A_eq2 (EB m) c 2).trans (WC_of_ne m c main_v23 (by decide)).symm)
theorem exit2_3 (c : Dev nD) : (dat2 (EB m) c).arrAt 3 cfg2.N = EC m c main_v27 := (WC_v27 m c).symm
theorem rest2 (c : Dev nD) (b : Ref sig .tc) (hb : b ∉ Finset.univ.image (Pipeline.arrRef spec2)) : EC m c b = EB m c b :=
  WC_of_ne m c b fun e => hb (Finset.mem_image.mpr ⟨3, Finset.mem_univ _, e.symm⟩)

/-! ## The proof data family and the thread state -/

/-- Every region's proof data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (EA m) c
  | ⟨2, _⟩ => fun c => dat2 (EB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    debts, none. -/
abbrev Rr (c : Dev nD) : sProp 𝕄 := iprop((∃ r, prngReg c r) ∗ ∃ W, owes (c : Thread nD τ) (0 : CellTallies nD τ sig Unit) W)
abbrev EE : Fin 4 → Dev nD → sProp 𝕄 := fun _ c => Rr c

/-! ## The regions over the thread state -/

set_option backward.isDefEq.respectTransparency.types false in
/-- The first region: entered with every unscoped buffer at the valuation after the host stretches, left with the
    output array at what its write-backs make it. Its arrays are taken out of the unscoped buffers and put back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V13 m c) ∗ EE 0 c)
  post c := iprop(StableHlo.held (c : Thread nD τ) (Pipeline.ucRefs τ sig) (V14 m (outs m) c) ∗ EE 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (EA m c) ((pdats m 0 c).arrAt · cfg0.N)
      (fun w => match w with
        | ⟨0, _⟩ => exit0_0 m c
        | ⟨1, _⟩ => exit0_1 m c
        | ⟨2, _⟩ => exit0_2 m c)
      (rest0 m c)
    rw [Pipeline.unscopedBufs_held] at hjoin
    rw [V14_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region, in the same way: its three inputs as entered, its output array at what it leaves. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EB m) c).loose
  hwaits := Pipeline.hwaits_of_owed_zero _ _ _ _ L lv 2 fun _ _ => rfl
  pre c := iprop(StableHlo.held (c : Thread nD τ) (Pipeline.ucRefs τ sig) (V15 m (outs m) c) ∗ EE 2 c)
  post c := iprop(StableHlo.held (c : Thread nD τ) (Pipeline.ucRefs τ sig) (V16 m (outs m) c) ∗ EE 3 c)
  X c := iprop(∃ r, prngReg c r)
  Y c := iprop(∃ r, prngReg c r)
  Z c := Pipeline.unscopedRest (Ix := Unit) (Name := ℕ) (U := UR sig nD τ) (Lvl := ℕ) spec2 c (EB m c)
  hentry c := by
    rw [Pipeline.ownSems0_none, V15_eq]
    have hsplit := Pipeline.arrays_of_unscopedBufs (p := 2) (pcfgs (F := F)) adm (pdats m) launch2.win launch2.arr_whole c
      ((pdats m 2 c).share_full fun _ => rfl) (EB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EB m c) (EC m c) ((pdats m 2 c).arrAt · cfg2.N)
      (fun w => match w with
        | ⟨0, _⟩ => exit2_0 m c
        | ⟨1, _⟩ => exit2_1 m c
        | ⟨2, _⟩ => exit2_2 m c
        | ⟨3, _⟩ => exit2_3 m c)
      (rest2 m c)
    rw [Pipeline.unscopedBufs_held] at hjoin
    rw [V16_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region. Two of its windows read one array, so its arrays are taken out of the unscoped buffers by
    hand: the three buffers behind them whole, the weight matrix's share dealt to its two windows, and on exit joined
    again. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (EA m) c).loose
  hwaits := Pipeline.hwaits_of_owed_zero _ _ _ _ L lv 1 fun _ _ => rfl
  pre c := iprop(StableHlo.held (c : Thread nD τ) (Pipeline.ucRefs τ sig) (V14 m (outs m) c) ∗ EE 1 c)
  post c := iprop(StableHlo.held (c : Thread nD τ) (Pipeline.ucRefs τ sig) (V15 m (outs m) c) ∗ EE 2 c)
  X c := iprop(∃ r, prngReg c r)
  Y c := iprop(∃ r, prngReg c r)
  Z c := Pipeline.unscopedRest (Ix := Unit) (Name := ℕ) (U := UR sig nD τ) (Lvl := ℕ) spec1 c (EA m c)
  hentry c := by
    rw [Pipeline.ownSems0_none, V14_eq]
    have hub := Pipeline.unscopedBufs_split₀ (nD := nD) (τ := τ) (Val := Elt F) (Ix := Unit) (Name := ℕ) (U := UR sig nD τ) (Lvl := ℕ)
      (Pipeline.pin (pcfgs (F := F)) adm) 1 winFacts₀1.arr_unscoped c (EA m c)
    rw [Pipeline.unscopedBufs_held] at hub
    iintro ⟨⟨Hub, Hp, HO⟩, -, -⟩
    ihave H := (Entails.of_eq hub) $$ Hub
    icases H with ⟨Hb, Hrest⟩
    have hdeal : (Pipeline.arrBufs (Ix := Unit) (Name := ℕ) (U := UR sig nD τ) (Lvl := ℕ) spec1 c (EA m c) : sProp 𝕄)
        ⊢ (pdats m 1 c).arrays ((pdats m 1 c).arrAt · 0) :=
      arrays1_of_bufs (EA m) c (EA m c) ((dat1 (EA m) c).arrAt · 0)
        (A_eq1 (EA m) c 0) (A_eq1 (EA m) c 1) (A_eq1 (EA m) c 2) (A_eq1 (EA m) c 3)
    ihave Ha := hdeal $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (nD := nD) (τ := τ) (Val := Elt F) (Ix := Unit) (Name := ℕ) (U := UR sig nD τ) (Lvl := ℕ)
      (Pipeline.pin (pcfgs (F := F)) adm) 1 winFacts₀1.arr_unscoped c (EB m c)
    rw [Pipeline.unscopedBufs_held] at hub
    have hrest : (Pipeline.unscopedRest (Ix := Unit) (Name := ℕ) (U := UR sig nD τ) (Lvl := ℕ) spec1 c (EA m c) : sProp 𝕄)
        = Pipeline.unscopedRest spec1 c (EB m c) := by
      unfold Pipeline.unscopedRest
      exact bigSep_congr fun b hb => by rw [rest1 m c b (Finset.mem_sdiff.mp hb).2]
    rw [V15_eq]
    iintro ⟨Ha, HO, HY, Hrest⟩
    have hjoin : (pdats m 1 c).arrays ((pdats m 1 c).arrAt · (Pipeline.pin (pcfgs (F := F)) adm 1).N)
        ⊢ (Pipeline.arrBufs (Ix := Unit) (Name := ℕ) (U := UR sig nD τ) (Lvl := ℕ) spec1 c (EB m c) : sProp 𝕄) :=
      bufs_of_arrays1 (EA m) c (EB m c) ((dat1 (EA m) c).arrAt · cfg1.N)
        (exit1_0 m c) (exit1_1 m c) (exit1_2 m c) (exit1_3 m c)
    ihave Hb := hjoin $$ Ha
    ihave Hr' := (Entails.of_eq hrest) $$ Hrest
    imodintro
    isplitl [Hb Hr']
    · iapply (Entails.of_eq hub.symm); isplitl [Hb] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- From any memory with zero counters every weakly fair execution of the program on the TensorCores terminates,
    nothing faulting, and every final memory holds each unscoped buffer of each core at the last valuation: the
    launch's contents run through the host stretches and changed by each region at its output array. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv EE () (pdats m) (reg0 m) (reg1 m) (reg2 m))
    (fun c Q => by
      rewrite [main_chain c, Seg.run_eq_chain,
        show (segs m (outs m) 𝒱₀ L lv EE () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (show EE 3 c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V17_main_arg0 m (outs m) c),
     (h c _ (mem_uc main_arg1 (by decide))).trans (V17_main_arg1 m (outs m) c),
     (h c _ (mem_uc main_arg2 (by decide))).trans (V17_main_arg2 m (outs m) c),
     (h c _ (mem_uc main_arg3 (by decide))).trans (V17_main_arg3 m (outs m) c),
     (h c _ (mem_uc main_arg4 (by decide))).trans (V17_main_arg4 m (outs m) c)⟩) (run_all m ρ)

end Cert.KernelIdeal.Hand

end
-- ==== Proof.Spec.lean ====
/-
  The mathematics both programs compute, stated once over the extended reals.

  A token row x of width 2048 goes through a gated two-layer block whose two linear maps are "bit-linear":
  the row is RMS-normalised (x · rsqrt(mean x² + ε) · g), fake-quantised to int8 by its own absolute maximum
  (round-half-even of y·s clipped to [-128, 127], divided by s again, s = 127 / max(ε', max|y|)), and multiplied
  by a weight matrix that was fake-quantised to ternary values by its mean absolute value
  (round-half-even of w·t clipped to [-1, 1], divided by t, t = 1 / max(ε', mean|w|)).
  Between the two layers the 11264 outputs of the first are split in halves (gate, v) and combined as
  gate · σ(gate) · v.

  The definition is parametrised by how a quantised value is wrapped around the unquantised one and by the
  spelling of σ, so that the "direct" form (the quantised value itself, σ the logistic function) and the
  "straight-through" form (a + (q − a), σ spelt 1 / (1 + e^(−a))) are two instances of one function; they
  agree wherever the unquantised values are finite.
-/
import Idealize.ShloMosaic.PureOps.Ideal
import Idealize.ShloMosaic.Lib.ValueIdx

noncomputable section

namespace BitMlp

open Idealize.ShloMosaic

/-- The float constants of the computation, as extended reals. -/
structure Consts where
  /-- 0.0, the start of every sum -/
  zero : EReal
  /-- −∞, the start of every maximum -/
  ninf : EReal
  /-- 1.0 and −1.0: the ternary clip bounds, the numerator of the weight scale, the ones of σ -/
  one : EReal
  mone : EReal
  /-- the normalisation ε (1e-6 as an f32) and the quantisation ε' (1e-5 as an f32) -/
  epsN : EReal
  epsQ : EReal
  /-- 127.0 and −128.0: the int8 clip bounds; 127.0 is also the numerator of the activation scale -/
  qhi : EReal
  qlo : EReal
  /-- the row widths 2048.0 and 5632.0 and the weight element counts 11264·2048 and 2048·5632, as floats -/
  nD : EReal
  nI : EReal
  cG : EReal
  cD : EReal

/-- |a| -/
def absE (a : EReal) : EReal := max a (-a)

/-- round to nearest, ties to even; the infinities fixed -/
def rne (a : EReal) : EReal := Ideal.liftRound Ideal.roundHalfEven a

/-- fake-quantisation of one value at scale s: round(a·s) clipped to [lo, hi], over s -/
def quant (lo hi s a : EReal) : EReal := Ideal.div (min hi (max lo (rne (a * s)))) s

/-- the straight-through wrapping of a quantised value q around a -/
def ste (a q : EReal) : EReal := a + (q - a)

/-- the ternary scale of a whole weight tensor: 1 / max(ε', (0 + Σ|w|) / count) -/
def wScale (c : Consts) (cnt : EReal) {ι : Type} [Fintype ι] (w : ι → EReal) : EReal :=
  Ideal.div c.one (max c.epsQ (Ideal.div (c.zero + ∑ i, absE (w i)) cnt))

/-- one ternary-quantised weight -/
def wQuant (c : Consts) (t a : EReal) : EReal := quant c.mone c.one t a

/-- a row, RMS-normalised with gain g: x_d · rsqrt((0 + Σ x²)/n + ε) · g_d -/
def rowNorm (c : Consts) (cnt : EReal) {n : Nat} (x g : Fin n → EReal) (d : Fin n) : EReal :=
  x d * Ideal.rsqrt (Ideal.div (c.zero + ∑ k, x k * x k) cnt + c.epsN) * g d

/-- the int8 scale of a row: 127 / max(ε', max_k |y_k|), the maximum folded from −∞ -/
def rowScale (c : Consts) {n : Nat} (y : Fin n → EReal) : EReal :=
  Ideal.div c.qhi (max c.epsQ ((Finset.univ : Finset (Fin n)).fold max c.ninf fun k => absE (y k)))

/-- one int8-quantised entry of a row -/
def actQ (c : Consts) {n : Nat} (y : Fin n → EReal) (d : Fin n) : EReal :=
  quant c.qlo c.qhi (rowScale c y) (y d)

/-- the contraction of two rows -/
def dot {n : Nat} (a b : Fin n → EReal) : EReal := ∑ k, a k * b k

/-- rows 0 … 5631 of the first weight matrix carry the gate, rows 5632 … 11263 the value -/
def top (n : Fin 5632) : Fin 11264 := ⟨n.val, by have := n.isLt; omega⟩
def bot (n : Fin 5632) : Fin 11264 := ⟨n.val + 5632, by have := n.isLt; omega⟩

/-- The block on one row. `wrap a q` says what is kept of a value a and its quantisation q; `sg` is σ.
    Wg : [11264, 2048] and Wd : [2048, 5632] are the (already quantised) weights, gg and gd the gains. -/
def mlpRow (c : Consts) (wrap : EReal → EReal → EReal) (sg : EReal → EReal)
    (Wg : Fin 11264 → Fin 2048 → EReal) (Wd : Fin 2048 → Fin 5632 → EReal)
    (gg : Fin 2048 → EReal) (gd : Fin 5632 → EReal) (x : Fin 2048 → EReal) : Fin 2048 → EReal :=
  let y : Fin 2048 → EReal := rowNorm c c.nD x gg
  let xq : Fin 2048 → EReal := fun k => wrap (y k) (actQ c y k)
  let sw : Fin 5632 → EReal := fun n =>
    dot xq (Wg (top n)) * sg (dot xq (Wg (top n))) * dot xq (Wg (bot n))
  let y' : Fin 5632 → EReal := rowNorm c c.nI sw gd
  let sq : Fin 5632 → EReal := fun i => wrap (y' i) (actQ c y' i)
  fun d => dot sq (Wd d)

/-- the direct form: the quantised value itself; σ the logistic function -/
def direct (_a q : EReal) : EReal := q

/-- σ spelt out: 1 / (1 + e^(−a)) with the literal 1.0 -/
def sigmoidSpelt (c : Consts) (a : EReal) : EReal := Ideal.div c.one (c.one + Ideal.exp (-a))

/-- a weight tensor over a rank-2 index type, ternary-quantised, as a matrix of rows -/
def wMat (c : Consts) (wrap : EReal → EReal → EReal) (cnt : EReal) {A B : Nat}
    (w : (⟨2, ![A, B]⟩ : Shape).Idx → EReal) (o : Fin A) (k : Fin B) : EReal :=
  wrap (w (ValueIdx.ix2 o k)) (wQuant c (wScale c cnt w) (w (ValueIdx.ix2 o k)))

/-- The whole function, direct form: the result at (b, s, d) from the five argument arrays. -/
def outDirect (c : Consts) (x : (⟨3, ![4, 4096, 2048]⟩ : Shape).Idx → EReal)
    (wg : (⟨2, ![11264, 2048]⟩ : Shape).Idx → EReal) (gg : (⟨1, ![2048]⟩ : Shape).Idx → EReal)
    (wd : (⟨2, ![2048, 5632]⟩ : Shape).Idx → EReal) (gd : (⟨1, ![5632]⟩ : Shape).Idx → EReal)
    (b : Fin 4) (s : Fin 4096) (d : Fin 2048) : EReal :=
  mlpRow c direct Ideal.logistic (wMat c direct c.cG wg) (wMat c direct c.cD wd)
    (fun k => gg (ValueIdx.ix1 k)) (fun i => gd (ValueIdx.ix1 i)) (fun k => x (ValueIdx.ix3 b s k)) d

/-- The whole function, straight-through form. -/
def outSte (c : Consts) (x : (⟨3, ![4, 4096, 2048]⟩ : Shape).Idx → EReal)
    (wg : (⟨2, ![11264, 2048]⟩ : Shape).Idx → EReal) (gg : (⟨1, ![2048]⟩ : Shape).Idx → EReal)
    (wd : (⟨2, ![2048, 5632]⟩ : Shape).Idx → EReal) (gd : (⟨1, ![5632]⟩ : Shape).Idx → EReal)
    (b : Fin 4) (s : Fin 4096) (d : Fin 2048) : EReal :=
  mlpRow c ste (sigmoidSpelt c) (wMat c ste c.cG wg) (wMat c ste c.cD wd)
    (fun k => gg (ValueIdx.ix1 k)) (fun i => gd (ValueIdx.ix1 i)) (fun k => x (ValueIdx.ix3 b s k)) d

/-- The constants of this computation, by their f32 words. -/
def consts : Consts where
  zero := Ideal.ofBits .f32 0x00000000#32
  ninf := Ideal.ofBits .f32 0xFF800000#32
  one := Ideal.ofBits .f32 0x3F800000#32
  mone := Ideal.ofBits .f32 0xBF800000#32
  epsN := Ideal.ofBits .f32 0x358637BD#32
  epsQ := Ideal.ofBits .f32 0x3727C5AC#32
  qhi := Ideal.ofBits .f32 0x42FE0000#32
  qlo := Ideal.ofBits .f32 0xC3000000#32
  nD := Ideal.ofBits .f32 0x45000000#32
  nI := Ideal.ofBits .f32 0x45B00000#32
  cG := Ideal.ofBits .f32 0x4BB00000#32
  cD := Ideal.ofBits .f32 0x4B300000#32

end BitMlp

end
-- ==== Proof.KI.PayRows.lean ====
/-
  The two row-quantising kernel payloads, read at an index at the ideal values.

  Each row x of the loaded block is RMS-normalised, y = x · rsqrt(Σ x² / n + ε) · g, scaled by s = 127 / max(ε', max |y|),
  rounded to the nearest integer (ties to even), clipped to [−128, 127] and divided by s again. The row sum and the row
  maximum are taken with the reduced axis kept as a unit axis (a column), which is broadcast back along the row; the gain
  is one row broadcast over all rows. Read at (p, q) this is the specification's quantised normalised row at q.
  The second payload contracts the quantised rows with a weight matrix over the row axis of both.
-/
import proofs.«132295_j1597727834559_2_alg».proof.Proof.Gen.KernelIdeal.Skeleton
import proofs.«132295_j1597727834559_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic

open ValueIdx

/-! ## Layout steps of a keep-dims row reduction, read at coordinates -/

section Layout
variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast along the rows to a × b reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-b vector viewed as one row and broadcast over a rows reads, at (p, c), the vector at c. -/
theorem rowBroadcast_apply {a b : ℕ} (g : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ g hc) hb (ix2 p c) = g (ix1 c) :=
  (broadcastTo_1b_ab_apply _ hb p c).trans (shapeCast_a_1a_apply g hc 0 c)

end Layout

/-! ## The two row reductions -/

/-- The sum along each row, read at row p. -/
theorem rowSum_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src (funext fun ax => Fin.ext ?_)
  match ax with
  | ⟨0, _⟩ => rfl
  | ⟨1, _⟩ => rfl

/-- The maximum along each row, folded from the accumulator's value, read at row p. -/
theorem rowMax_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) fun k => src (ix2 p k) := by
  refine (Ideal.multiReduction_maximumf_single src acc h hφ hacc (ix1 p)).trans ?_
  show (Finset.univ : Finset (Fin b)).fold max (Ideal.ofBits .f32 acc) (fun k => src (h.lift (ix1 p) k)) = _
  refine congrArg (fun f => (Finset.univ : Finset (Fin b)).fold max (Ideal.ofBits .f32 acc) f) (funext fun k => congrArg src (funext fun ax => Fin.ext ?_))
  match ax with
  | ⟨0, _⟩ => rfl
  | ⟨1, _⟩ => rfl

/-! ## The three stages of a row's quantisation, over variables -/

section Stages
variable {a b : ℕ}

/-- Every row RMS-normalised and multiplied by the gain: x · rsqrt(Σ x² / n + e) · g, the sum and the scale kept as columns. -/
def normVec (x : FVec Ideal ⟨2, ![a, b]⟩ .f32) (g : FVec Ideal ⟨1, ![b]⟩ .f32) (n e : Ideal .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (hc' : (⟨1, ![b]⟩ : Shape).ShapeCasts ⟨2, ![1, b]⟩) (hb' : (⟨2, ![1, b]⟩ : Shape).Broadcasts ⟨2, ![a, b]⟩) :
    FVec Ideal ⟨2, ![a, b]⟩ .f32 :=
  mulf (mulf x (broadcastTo ⟨2, ![a, b]⟩ (rsqrt (addf (divf
      (shapeCast ⟨2, ![a, 1]⟩ (multiReduction .add [1] ⟨1, ![a]⟩ (mulf x x) acc hr hφ hacc) hc)
      (broadcast ⟨2, ![a, 1]⟩ n)) (broadcast ⟨2, ![a, 1]⟩ e))) hb))
    (broadcastTo ⟨2, ![a, b]⟩ (shapeCast ⟨2, ![1, b]⟩ g hc') hb')

/-- One normalised entry, as a function of the row and the gain. -/
def nrm (n e : EReal) (x g : Fin b → EReal) (k : Fin b) : EReal :=
  x k * Ideal.rsqrt (Ideal.div (∑ j : Fin b, x j * x j) n + e) * g k

theorem normVec_apply (x : FVec Ideal ⟨2, ![a, b]⟩ .f32) (g : FVec Ideal ⟨1, ![b]⟩ .f32) (n e : Ideal .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (hc' : (⟨1, ![b]⟩ : Shape).ShapeCasts ⟨2, ![1, b]⟩) (hb' : (⟨2, ![1, b]⟩ : Shape).Broadcasts ⟨2, ![a, b]⟩)
    (p : Fin a) (k : Fin b) :
    normVec x g n e acc hr hφ hacc hc hb hc' hb' (ix2 p k) = nrm n e (fun j => x (ix2 p j)) (fun j => g (ix1 j)) k := by
  unfold normVec
  show x (ix2 p k) * broadcastTo ⟨2, ![a, b]⟩ _ hb (ix2 p k) * broadcastTo ⟨2, ![a, b]⟩ _ hb' (ix2 p k) = _
  rw [rowBroadcast_apply, broadcastTo_a1_ab_apply]
  show x (ix2 p k) * Ideal.rsqrt (Ideal.div (shapeCast ⟨2, ![a, 1]⟩ _ hc (ix2 p (0 : Fin 1))) n + e) * g (ix1 k) = _
  rw [shapeCast_a_a1_apply, rowSum_apply]
  rfl

/-- Every row's scale c / max(ε', max |y|), kept as a column. -/
def scaleVec (y : FVec Ideal ⟨2, ![a, b]⟩ .f32) (c eq : Ideal .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) : FVec Ideal ⟨2, ![a, 1]⟩ .f32 :=
  divf (broadcast ⟨2, ![a, 1]⟩ c) (maximumf (broadcast ⟨2, ![a, 1]⟩ eq)
    (shapeCast ⟨2, ![a, 1]⟩ (multiReduction .maximumf [1] ⟨1, ![a]⟩ (absf y) acc hr hφ hacc) hc))

theorem scaleVec_apply (y : FVec Ideal ⟨2, ![a, b]⟩ .f32) (c eq : Ideal .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (p : Fin a) (u : Fin 1)
    (y' : Fin b → EReal) (hy : ∀ k, y (ix2 p k) = y' k) :
    scaleVec y c eq acc hr hφ hacc hc (ix2 p u)
      = Ideal.div c (max eq ((Finset.univ : Finset (Fin b)).fold max (Ideal.ofBits .f32 acc) fun k => BitMlp.absE (y' k))) := by
  unfold scaleVec
  show Ideal.div c (max eq (shapeCast ⟨2, ![a, 1]⟩ _ hc (ix2 p u))) = _
  rw [shapeCast_a_a1_apply, rowMax_apply]
  show Ideal.div c (max eq ((Finset.univ : Finset (Fin b)).fold max (Ideal.ofBits .f32 acc) fun k => BitMlp.absE (y (ix2 p k)))) = _
  simp only [hy]

/-- Every entry scaled, rounded to the nearest integer, clipped to [lo, hi] and unscaled. -/
def quantVec (y : FVec Ideal ⟨2, ![a, b]⟩ .f32) (s : FVec Ideal ⟨2, ![a, 1]⟩ .f32) (lo hi : Ideal .f32)
    (hb : (⟨2, ![a, 1]⟩ : Shape).Broadcasts ⟨2, ![a, b]⟩) : FVec Ideal ⟨2, ![a, b]⟩ .f32 :=
  divf (minimumf (broadcast ⟨2, ![a, b]⟩ hi) (maximumf (broadcast ⟨2, ![a, b]⟩ lo)
    (roundeven (mulf y (broadcastTo ⟨2, ![a, b]⟩ s hb))))) (broadcastTo ⟨2, ![a, b]⟩ s hb)

theorem quantVec_apply (y : FVec Ideal ⟨2, ![a, b]⟩ .f32) (s : FVec Ideal ⟨2, ![a, 1]⟩ .f32) (lo hi : Ideal .f32)
    (hb : (⟨2, ![a, 1]⟩ : Shape).Broadcasts ⟨2, ![a, b]⟩) (p : Fin a) (q : Fin b) :
    quantVec y s lo hi hb (ix2 p q) = BitMlp.quant lo hi (s (ix2 p (0 : Fin 1))) (y (ix2 p q)) := by
  unfold quantVec
  show Ideal.div (min hi (max lo (Ideal.liftRound Ideal.roundHalfEven (y (ix2 p q) * broadcastTo ⟨2, ![a, b]⟩ s hb (ix2 p q)))))
      (broadcastTo ⟨2, ![a, b]⟩ s hb (ix2 p q)) = _
  rw [broadcastTo_a1_ab_apply]
  rfl

/-- The three stages composed, at (p, q): the quantisation of the normalised row at its own scale. -/
theorem rowQuant_apply (x : FVec Ideal ⟨2, ![a, b]⟩ .f32) (g : FVec Ideal ⟨1, ![b]⟩ .f32) (n e c eq lo hi : Ideal .f32)
    (accS accM : BitVec 32) (hr : (⟨2, ![a, b]⟩ : Shape).Reduces [1] ⟨1, ![a]⟩) (hφ hφ' : FKind.Formats .f32)
    (haccS : accS = FKind.add.neutral .f32 hφ) (haccM : accM = FKind.maximumf.neutral .f32 hφ')
    (hc : (⟨1, ![a]⟩ : Shape).ShapeCasts ⟨2, ![a, 1]⟩) (hb : (⟨2, ![a, 1]⟩ : Shape).Broadcasts ⟨2, ![a, b]⟩)
    (hc' : (⟨1, ![b]⟩ : Shape).ShapeCasts ⟨2, ![1, b]⟩) (hb' : (⟨2, ![1, b]⟩ : Shape).Broadcasts ⟨2, ![a, b]⟩)
    (p : Fin a) (q : Fin b) :
    quantVec (normVec x g n e accS hr hφ haccS hc hb hc' hb')
        (scaleVec (normVec x g n e accS hr hφ haccS hc hb hc' hb') c eq accM hr hφ' haccM hc) lo hi hb (ix2 p q)
      = BitMlp.quant lo hi
          (Ideal.div c (max eq ((Finset.univ : Finset (Fin b)).fold max (Ideal.ofBits .f32 accM) fun k =>
            BitMlp.absE (nrm n e (fun j => x (ix2 p j)) (fun j => g (ix1 j)) k))))
          (nrm n e (fun j => x (ix2 p j)) (fun j => g (ix1 j)) q) := by
  rw [quantVec_apply, normVec_apply,
    scaleVec_apply _ c eq accM hr hφ' haccM hc p 0 _ (fun k => normVec_apply x g n e accS hr hφ haccS hc hb hc' hb' p k)]

end Stages

/-- The specification's quantised normalised row with the constants of this computation spelt out: the sum's start 0.0 adds nothing. -/
theorem actQ_consts {b : ℕ} (cnt : EReal) (x g : Fin b → EReal) (q : Fin b) :
    BitMlp.actQ BitMlp.consts (BitMlp.rowNorm BitMlp.consts cnt x g) q
      = BitMlp.quant (Ideal.ofBits .f32 0xC3000000#32) (Ideal.ofBits .f32 0x42FE0000#32)
          (Ideal.div (Ideal.ofBits .f32 0x42FE0000#32) (max (Ideal.ofBits .f32 0x3727C5AC#32)
            ((Finset.univ : Finset (Fin b)).fold max (Ideal.ofBits .f32 0xFF800000#32) fun k =>
              BitMlp.absE (nrm cnt (Ideal.ofBits .f32 0x358637BD#32) x g k))))
          (nrm cnt (Ideal.ofBits .f32 0x358637BD#32) x g q) := by
  have hz : BitMlp.consts.zero + ∑ k : Fin b, x k * x k = ∑ k : Fin b, x k * x k := by
    show Ideal.ofBits .f32 0x00000000#32 + _ = _
    rw [Ideal.ofBits_zero_f32, zero_add]
  unfold BitMlp.actQ BitMlp.rowScale BitMlp.rowNorm nrm
  rw [hz]
  rfl

theorem pay0_eq (x0 : Vec Ideal S512x2048 .f32) (x1 : Vec Ideal S2048 .f32) :
    k0_pay1 (F := Ideal) x0 x1 = truncf .bf16 (quantVec
      (normVec x0 x1 (Ideal.ofBits .f32 0x45000000#32) (Ideal.ofBits .f32 0x358637BD#32) 0x00000000#32 reduces_S512x2048_S512 (.inl rfl) rfl
        shapeCasts_S512_S512x1 broadcasts_S512x1_S512x2048 shapeCasts_S2048_S1x2048 broadcasts_S1x2048_S512x2048)
      (scaleVec (normVec x0 x1 (Ideal.ofBits .f32 0x45000000#32) (Ideal.ofBits .f32 0x358637BD#32) 0x00000000#32 reduces_S512x2048_S512 (.inl rfl) rfl
        shapeCasts_S512_S512x1 broadcasts_S512x1_S512x2048 shapeCasts_S2048_S1x2048 broadcasts_S1x2048_S512x2048)
        (Ideal.ofBits .f32 0x42FE0000#32) (Ideal.ofBits .f32 0x3727C5AC#32) 0xFF800000#32 reduces_S512x2048_S512 (.inl rfl) rfl shapeCasts_S512_S512x1)
      (Ideal.ofBits .f32 0xC3000000#32) (Ideal.ofBits .f32 0x42FE0000#32) broadcasts_S512x1_S512x2048) bitsLt_bf16_f32 := by
  unfold k0_pay1 quantVec scaleVec normVec
  simp only [shapeCast_self]
  rfl

theorem pay0_apply (x0 : Vec Ideal S512x2048 .f32) (x1 : Vec Ideal S2048 .f32) (p : Fin 512) (q : Fin 2048) :
    k0_pay1 (F := Ideal) x0 x1 (ValueIdx.ix2 p q)
      = BitMlp.actQ BitMlp.consts (BitMlp.rowNorm BitMlp.consts BitMlp.consts.nD (fun k => x0 (ValueIdx.ix2 p k)) (fun k => x1 (ValueIdx.ix1 k))) q := by
  rw [pay0_eq]
  refine (truncf_apply (s := S512x2048) (φ := .f32) (ψ := .bf16) _ bitsLt_bf16_f32 (ix2 p q)).trans ?_
  refine (rowQuant_apply _ _ _ _ _ _ _ _ _ _ _ _ _ _ _ _ _ _ _ p q).trans ?_
  exact (actQ_consts _ _ _ q).symm

/-! ## The second payload: the quantised rows contracted with the weight matrix -/

/-- The contraction of the [128, 5632] rows with the [2048, 5632] matrix over the second axis of both. -/
abbrev dotQW : DotDims S128x5632 S2048x5632 S128x2048 := dot_S128x5632_S2048x5632_S128x2048_1_1_0_0_n_n

theorem dotQW_lhs0 (i : S128x2048.Idx) (k : dotQW.contr.Idx) : (dotQW.lhsIdx i k 0).val = (i 0).val := by
  unfold DotDims.lhsIdx
  rw [dif_neg (show ¬(0 : Fin S128x5632.rank) ∈ dotQW.lhsBatch by decide),
    dif_pos (show (0 : Fin S128x5632.rank) ∈ dotQW.lhsNonContracting by decide)]
  rfl
theorem dotQW_lhs1 (i : S128x2048.Idx) (k : dotQW.contr.Idx) : (dotQW.lhsIdx i k 1).val = (k ⟨0, by decide⟩).val :=
  dotQW.lhsIdx_val_of_single rfl i k
theorem dotQW_rhs0 (i : S128x2048.Idx) (k : dotQW.contr.Idx) : (dotQW.rhsIdx i k 0).val = (i 1).val := by
  unfold DotDims.rhsIdx
  rw [dif_neg (show ¬(0 : Fin S2048x5632.rank) ∈ dotQW.rhsBatch by decide),
    dif_pos (show (0 : Fin S2048x5632.rank) ∈ dotQW.rhsNonContracting by decide)]
  rfl
theorem dotQW_rhs1 (i : S128x2048.Idx) (k : dotQW.contr.Idx) : (dotQW.rhsIdx i k 1).val = (k ⟨0, by decide⟩).val :=
  dotQW.rhsIdx_val_of_single rfl i k

/-- The matrix product into a zero accumulator, at (p, d): Σ_k l(p, k) · r(d, k). -/
theorem matmulQW_apply (l : FVec Ideal S128x5632 .bf16) (r : FVec Ideal S2048x5632 .bf16) (p : Fin 128) (d : Fin 2048) :
    matmul dotQW none l r (constant (F := Ideal) S128x2048 .f32 0x00000000#32) (ix2 p d)
      = ∑ k : Fin 5632, l (ix2 p k) * r (ix2 d k) := by
  simp only [matmul]
  rw [Ideal.matmul_constant_zero_apply, ← Equiv.sum_comp (ValueIdx.contrEquiv1 dotQW 5632 rfl rfl).symm]
  refine Finset.sum_congr rfl fun k _ => ?_
  have hk := ValueIdx.contrEquiv1_symm_val dotQW 5632 rfl rfl k
  have el : dotQW.lhsIdx (ix2 p d) ((ValueIdx.contrEquiv1 dotQW 5632 rfl rfl).symm k) = ix2 p k :=
    funext fun a => Fin.ext (by
      match a with
      | ⟨0, _⟩ => exact dotQW_lhs0 _ _
      | ⟨1, _⟩ => exact (dotQW_lhs1 _ _).trans hk)
  have er : dotQW.rhsIdx (ix2 p d) ((ValueIdx.contrEquiv1 dotQW 5632 rfl rfl).symm k) = ix2 d k :=
    funext fun a => Fin.ext (by
      match a with
      | ⟨0, _⟩ => exact dotQW_rhs0 _ _
      | ⟨1, _⟩ => exact (dotQW_rhs1 _ _).trans hk)
  rw [el, er]

theorem pay2_eq (x0 : Vec Ideal S128x5632 .bf16) (x1 : Vec Ideal S5632 .f32) (x2 : Vec Ideal S2048x5632 .bf16) :
    k2_pay1 (F := Ideal) x0 x1 x2 = matmul (φ₁ := .bf16) (φ₂ := .bf16) dotQW none (truncf .bf16 (quantVec
      (normVec (extf .f32 x0 bitsLt_bf16_f32) x1 (Ideal.ofBits .f32 0x45B00000#32) (Ideal.ofBits .f32 0x358637BD#32) 0x00000000#32
        reduces_S128x5632_S128 (.inl rfl) rfl
        shapeCasts_S128_S128x1 broadcasts_S128x1_S128x5632 shapeCasts_S5632_S1x5632 broadcasts_S1x5632_S128x5632)
      (scaleVec (normVec (extf .f32 x0 bitsLt_bf16_f32) x1 (Ideal.ofBits .f32 0x45B00000#32) (Ideal.ofBits .f32 0x358637BD#32) 0x00000000#32
        reduces_S128x5632_S128 (.inl rfl) rfl
        shapeCasts_S128_S128x1 broadcasts_S128x1_S128x5632 shapeCasts_S5632_S1x5632 broadcasts_S1x5632_S128x5632)
        (Ideal.ofBits .f32 0x42FE0000#32) (Ideal.ofBits .f32 0x3727C5AC#32) 0xFF800000#32 reduces_S128x5632_S128 (.inl rfl) rfl shapeCasts_S128_S128x1)
      (Ideal.ofBits .f32 0xC3000000#32) (Ideal.ofBits .f32 0x42FE0000#32) broadcasts_S128x1_S128x5632) bitsLt_bf16_f32)
      x2 (constant (F := Ideal) S128x2048 .f32 0x00000000#32) := by
  unfold k2_pay1 quantVec scaleVec normVec
  simp only [shapeCast_self]
  rfl

theorem pay2_apply (x0 : Vec Ideal S128x5632 .bf16) (x1 : Vec Ideal S5632 .f32) (x2 : Vec Ideal S2048x5632 .bf16) (p : Fin 128) (d : Fin 2048) :
    k2_pay1 (F := Ideal) x0 x1 x2 (ValueIdx.ix2 p d)
      = BitMlp.dot (fun i => BitMlp.actQ BitMlp.consts (BitMlp.rowNorm BitMlp.consts BitMlp.consts.nI (fun k => x0 (ValueIdx.ix2 p k)) (fun k => x1 (ValueIdx.ix1 k))) i)
          (fun i => x2 (ValueIdx.ix2 d i)) := by
  rw [pay2_eq]
  refine (matmulQW_apply _ _ p d).trans ?_
  unfold BitMlp.dot
  refine Finset.sum_congr rfl fun k _ => ?_
  refine congrArg (fun t => t * x2 (ix2 d k)) ?_
  refine (truncf_apply (s := S128x5632) (φ := .f32) (ψ := .bf16) _ bitsLt_bf16_f32 (ix2 p k)).trans ?_
  refine (rowQuant_apply _ _ _ _ _ _ _ _ _ _ _ _ _ _ _ _ _ _ _ p k).trans ?_
  exact (actQ_consts _ _ _ k).symm

end Cert.KernelIdeal.Pay

end
-- ==== Proof.KI.PayGate.lean ====
/-
  The gated-product block of the first linear layer, read at one index: each of the two matrix products is the
  contraction Σ_k a(p,k) · w(n,k) of a row of the activation block with a row of a weight block, and the stored
  value at (p, n) is gate · σ(gate) · value with σ the logistic function. The same contraction lemma for the
  second layer's product is stated beside it.
-/
import proofs.«132295_j1597727834559_2_alg».proof.Proof.Gen.KernelIdeal.Skeleton
import proofs.«132295_j1597727834559_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic

/-! ## The first layer's product: [1024, 2048] against [512, 2048], both second axes contracted -/

theorem dot1_lhs0 (j : S1024x512.Idx) (q : dot_S1024x2048_S512x2048_S1024x512_1_1_0_0_n_n.contr.Idx) :
    (dot_S1024x2048_S512x2048_S1024x512_1_1_0_0_n_n.lhsIdx j q 0).val = (j 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem dot1_lhs1 (j : S1024x512.Idx) (q : dot_S1024x2048_S512x2048_S1024x512_1_1_0_0_n_n.contr.Idx) :
    (dot_S1024x2048_S512x2048_S1024x512_1_1_0_0_n_n.lhsIdx j q 1).val = (q ⟨0, by decide⟩).val :=
  dot_S1024x2048_S512x2048_S1024x512_1_1_0_0_n_n.lhsIdx_val_of_single rfl j q
theorem dot1_rhs0 (j : S1024x512.Idx) (q : dot_S1024x2048_S512x2048_S1024x512_1_1_0_0_n_n.contr.Idx) :
    (dot_S1024x2048_S512x2048_S1024x512_1_1_0_0_n_n.rhsIdx j q 0).val = (j 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem dot1_rhs1 (j : S1024x512.Idx) (q : dot_S1024x2048_S512x2048_S1024x512_1_1_0_0_n_n.contr.Idx) :
    (dot_S1024x2048_S512x2048_S1024x512_1_1_0_0_n_n.rhsIdx j q 1).val = (q ⟨0, by decide⟩).val :=
  dot_S1024x2048_S512x2048_S1024x512_1_1_0_0_n_n.rhsIdx_val_of_single rfl j q

/-- Into a zero accumulator, entry (p, n) is Σ_k a(p,k) · b(n,k). -/
theorem matmul1_apply (a : FVec Ideal S1024x2048 .bf16) (b : FVec Ideal S512x2048 .bf16) (p : Fin 1024) (n : Fin 512) :
    matmul (F := Ideal) dot_S1024x2048_S512x2048_S1024x512_1_1_0_0_n_n none a b (constant (F := Ideal) S1024x512 .f32 0x00000000#32) (ValueIdx.ix2 p n)
      = ∑ k : Fin 2048, a (ValueIdx.ix2 p k) * b (ValueIdx.ix2 n k) := by
  refine (Ideal.matmul_constant_zero_apply dot_S1024x2048_S512x2048_S1024x512_1_1_0_0_n_n none a b (ValueIdx.ix2 p n)).trans ?_
  rw [← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ValueIdx.ix2 p n) ((ValueIdx.contrEquiv1 dot_S1024x2048_S512x2048_S1024x512_1_1_0_0_n_n 2048 rfl rfl).symm k) = ValueIdx.ix2 p k := funext fun c => Fin.ext (by
    match c with
    | ⟨0, _⟩ => exact dot1_lhs0 _ _
    | ⟨1, _⟩ => exact (dot1_lhs1 _ _).trans hk)
  have er : dot_S1024x2048_S512x2048_S1024x512_1_1_0_0_n_n.rhsIdx (ValueIdx.ix2 p n) ((ValueIdx.contrEquiv1 dot_S1024x2048_S512x2048_S1024x512_1_1_0_0_n_n 2048 rfl rfl).symm k) = ValueIdx.ix2 n k := funext fun c => Fin.ext (by
    match c with
    | ⟨0, _⟩ => exact dot1_rhs0 _ _
    | ⟨1, _⟩ => exact (dot1_rhs1 _ _).trans hk)
  rw [el, er]

/-- The stored value of the gated block at (p, n): gate · σ(gate) · value, each a contraction of row p of the
    activations with row n of a weight block. -/
theorem pay1_apply (x0 : Vec Ideal S1024x2048 .bf16) (x1 : Vec Ideal S512x2048 .bf16) (x2 : Vec Ideal S512x2048 .bf16) (p : Fin 1024) (n : Fin 512) :
    k1_pay1 (F := Ideal) x0 x1 x2 (ValueIdx.ix2 p n)
      = BitMlp.dot (fun k => x0 (ValueIdx.ix2 p k)) (fun k => x1 (ValueIdx.ix2 n k))
          * Ideal.logistic (BitMlp.dot (fun k => x0 (ValueIdx.ix2 p k)) (fun k => x1 (ValueIdx.ix2 n k)))
          * BitMlp.dot (fun k => x0 (ValueIdx.ix2 p k)) (fun k => x2 (ValueIdx.ix2 n k)) := by
  unfold k1_pay1
  simp only [shapeCast_self]
  show matmul (F := Ideal) dot_S1024x2048_S512x2048_S1024x512_1_1_0_0_n_n none x0 x1 (constant (F := Ideal) S1024x512 .f32 0x00000000#32) (ValueIdx.ix2 p n)
      * Ideal.logistic (matmul (F := Ideal) dot_S1024x2048_S512x2048_S1024x512_1_1_0_0_n_n none x0 x1 (constant (F := Ideal) S1024x512 .f32 0x00000000#32) (ValueIdx.ix2 p n))
      * matmul (F := Ideal) dot_S1024x2048_S512x2048_S1024x512_1_1_0_0_n_n none x0 x2 (constant (F := Ideal) S1024x512 .f32 0x00000000#32) (ValueIdx.ix2 p n) = _
  rw [matmul1_apply x0 x1 p n, matmul1_apply x0 x2 p n]
  rfl

/-! ## The second layer's product: [128, 5632] against [2048, 5632], both second axes contracted -/

theorem dot2_lhs0 (j : S128x2048.Idx) (q : dot_S128x5632_S2048x5632_S128x2048_1_1_0_0_n_n.contr.Idx) :
    (dot_S128x5632_S2048x5632_S128x2048_1_1_0_0_n_n.lhsIdx j q 0).val = (j 0).val := by
  unfold DotDims.lhsIdx
  rw [dif_neg (show ¬(0 : Fin S128x5632.rank) ∈ dot_S128x5632_S2048x5632_S128x2048_1_1_0_0_n_n.lhsBatch by decide), dif_pos (show (0 : Fin S128x5632.rank) ∈ dot_S128x5632_S2048x5632_S128x2048_1_1_0_0_n_n.lhsNonContracting by decide)]
  rfl
theorem dot2_lhs1 (j : S128x2048.Idx) (q : dot_S128x5632_S2048x5632_S128x2048_1_1_0_0_n_n.contr.Idx) :
    (dot_S128x5632_S2048x5632_S128x2048_1_1_0_0_n_n.lhsIdx j q 1).val = (q ⟨0, by decide⟩).val :=
  dot_S128x5632_S2048x5632_S128x2048_1_1_0_0_n_n.lhsIdx_val_of_single rfl j q
theorem dot2_rhs0 (j : S128x2048.Idx) (q : dot_S128x5632_S2048x5632_S128x2048_1_1_0_0_n_n.contr.Idx) :
    (dot_S128x5632_S2048x5632_S128x2048_1_1_0_0_n_n.rhsIdx j q 0).val = (j 1).val := by
  unfold DotDims.rhsIdx
  rw [dif_neg (show ¬(0 : Fin S2048x5632.rank) ∈ dot_S128x5632_S2048x5632_S128x2048_1_1_0_0_n_n.rhsBatch by decide), dif_pos (show (0 : Fin S2048x5632.rank) ∈ dot_S128x5632_S2048x5632_S128x2048_1_1_0_0_n_n.rhsNonContracting by decide)]
  rfl
theorem dot2_rhs1 (j : S128x2048.Idx) (q : dot_S128x5632_S2048x5632_S128x2048_1_1_0_0_n_n.contr.Idx) :
    (dot_S128x5632_S2048x5632_S128x2048_1_1_0_0_n_n.rhsIdx j q 1).val = (q ⟨0, by decide⟩).val :=
  dot_S128x5632_S2048x5632_S128x2048_1_1_0_0_n_n.rhsIdx_val_of_single rfl j q

/-- Into a zero accumulator, entry (p, d) is Σ_i a(p,i) · b(d,i). -/
theorem matmul2_apply (a : FVec Ideal S128x5632 .bf16) (b : FVec Ideal S2048x5632 .bf16) (p : Fin 128) (d : Fin 2048) :
    matmul (F := Ideal) dot_S128x5632_S2048x5632_S128x2048_1_1_0_0_n_n none a b (constant (F := Ideal) S128x2048 .f32 0x00000000#32) (ValueIdx.ix2 p d)
      = ∑ i : Fin 5632, a (ValueIdx.ix2 p i) * b (ValueIdx.ix2 d i) := by
  refine (Ideal.matmul_constant_zero_apply dot_S128x5632_S2048x5632_S128x2048_1_1_0_0_n_n none a b (ValueIdx.ix2 p d)).trans ?_
  rw [← Equiv.sum_comp (ValueIdx.contrEquiv1 dot_S128x5632_S2048x5632_S128x2048_1_1_0_0_n_n 5632 rfl rfl).symm]
  refine Finset.sum_congr rfl fun k _ => ?_
  have hk := ValueIdx.contrEquiv1_symm_val dot_S128x5632_S2048x5632_S128x2048_1_1_0_0_n_n 5632 rfl rfl k
  have el : dot_S128x5632_S2048x5632_S128x2048_1_1_0_0_n_n.lhsIdx (ValueIdx.ix2 p d) ((ValueIdx.contrEquiv1 dot_S128x5632_S2048x5632_S128x2048_1_1_0_0_n_n 5632 rfl rfl).symm k) = ValueIdx.ix2 p k := funext fun c => Fin.ext (by
    match c with
    | ⟨0, _⟩ => exact dot2_lhs0 _ _
    | ⟨1, _⟩ => exact (dot2_lhs1 _ _).trans hk)
  have er : dot_S128x5632_S2048x5632_S128x2048_1_1_0_0_n_n.rhsIdx (ValueIdx.ix2 p d) ((ValueIdx.contrEquiv1 dot_S128x5632_S2048x5632_S128x2048_1_1_0_0_n_n 5632 rfl rfl).symm k) = ValueIdx.ix2 d k := funext fun c => Fin.ext (by
    match c with
    | ⟨0, _⟩ => exact dot2_rhs0 _ _
    | ⟨1, _⟩ => exact (dot2_rhs1 _ _).trans hk)
  rw [el, er]

end Cert.KernelIdeal.Pay

end
-- ==== Proof.KI.HostVals.lean ====
/-
  The values the kernel program's own host operations compute: the two ternary-quantised weight matrices, the
  flattened input, and the result folded back to three axes.
-/
import proofs.«132295_j1597727834559_2_alg».proof.Proof.Gen.KernelIdeal.Regions
import proofs.«132295_j1597727834559_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostVals

open Cert.KernelIdeal Cert.KernelIdeal.Gen Idealize.ShloMosaic Idealize.ShloMosaic.TcCoe Idealize.SL.Sem

variable (m : (ℓ : Loc nD τ sig) → Buf (Elt Ideal) ℓ) (c : Dev nD)

/-! ## Two readings at an index used for both weight matrices -/

/-- A scalar broadcast to any shape reads the scalar, at whichever of its indices. -/
theorem bcast0_apply {t : Shape} (h : S_.BroadcastsInDim t (![] : Fin 0 → Fin t.rank)) (y : S_.Idx → EReal) (i : t.Idx)
    (j : S_.Idx) : broadcastInDim t ![] h y i = y j :=
  broadcastInDim_apply _ h y i j (fun a => a.elim0)

/-- A float sum over every axis, into a scalar: the initial value plus the sum over every index. -/
theorem reduceAdd_total_apply {s : Shape} {axes : List (Fin s.rank)} (x : s.Idx → EReal) (init : S_.Idx → EReal)
    (h : s.ReducesTo axes S_) (hu : 0 < S_.numel) (j : S_.Idx) :
    Host.reduceAdd (F := Ideal) (φ := .f32) x init h hu j = init (Shape.Idx.first hu) + ∑ i : s.Idx, x i := by
  simp only [Host.reduceAdd, Ideal.hostReduceAdd_def]
  exact Ideal.hostReduceAdd_total h (fun b => b.elim0) x _ j

/-! ## The ternary quantisation of a weight tensor, as the host operations spell it -/

/-- The ternary scale of a weight tensor, a scalar array: 1 / max(ε', (0 + Σ|w|) / count). -/
def scaleArr (s : Shape) (axes : List (Fin s.rank)) (hr : s.ReducesTo axes S_) (cnt : BitVec 32) (w : s.Idx → EReal) :
    S_.Idx → EReal :=
  Host.divf (F := Ideal) (φ := .f32) (constant (F := Ideal) S_ .f32 0x3F800000#32)
    (maximumf (F := Ideal) (φ := .f32) (id (constant (F := Ideal) S_ .f32 0x3727C5AC#32))
      (Host.divf (F := Ideal) (φ := .f32)
        (Host.reduceAdd (F := Ideal) (φ := .f32) (Host.absf (F := Ideal) (φ := .f32) w)
          (constant (F := Ideal) S_ .f32 0x00000000#32) hr h_S_)
        (constant (F := Ideal) S_ .f32 cnt)))

/-- The ternary-quantised weight tensor at scale sc: round(w · sc) clipped to [−1, 1], over sc. -/
def quantArr (s : Shape) (hb : S_.BroadcastsInDim s (![] : Fin 0 → Fin s.rank)) (sc : S_.Idx → EReal) (w : s.Idx → EReal) :
    s.Idx → EReal :=
  truncf (F := Ideal) (φ := .f32) .bf16
    (Host.divf (F := Ideal) (φ := .f32)
      (minimumf (F := Ideal) (φ := .f32) (broadcastInDim s ![] hb (id (constant (F := Ideal) S_ .f32 0x3F800000#32)))
        (maximumf (F := Ideal) (φ := .f32) (broadcastInDim s ![] hb (id (constant (F := Ideal) S_ .f32 0xBF800000#32)))
          (Host.roundeven (F := Ideal) (φ := .f32) (mulf (F := Ideal) (φ := .f32) w (broadcastInDim s ![] hb sc)))))
      (broadcastInDim s ![] hb sc))
    bitsLt_bf16_f32

/-- The ternary scale read at its one index. -/
theorem scaleArr_apply (s : Shape) (axes : List (Fin s.rank)) (hr : s.ReducesTo axes S_) (cnt : BitVec 32) (w : s.Idx → EReal)
    (j : S_.Idx) :
    scaleArr s axes hr cnt w j
      = Ideal.div (Ideal.ofBits .f32 0x3F800000#32) (max (Ideal.ofBits .f32 0x3727C5AC#32)
          (Ideal.div (Ideal.ofBits .f32 0x00000000#32 + ∑ i : s.Idx, BitMlp.absE (w i)) (Ideal.ofBits .f32 cnt))) := by
  show Ideal.div _ (max _ (Ideal.div (Host.reduceAdd (F := Ideal) (φ := .f32) _ _ hr h_S_ j) _)) = _
  rw [reduceAdd_total_apply]
  rfl

/-- The quantised tensor read at an index: round(w_i · sc) clipped to [−1, 1], over sc. -/
theorem quantArr_apply (s : Shape) (hb : S_.BroadcastsInDim s (![] : Fin 0 → Fin s.rank)) (sc : S_.Idx → EReal)
    (w : s.Idx → EReal) (i : s.Idx) (j : S_.Idx) :
    quantArr s hb sc w i
      = Ideal.div (min (Ideal.ofBits .f32 0x3F800000#32) (max (Ideal.ofBits .f32 0xBF800000#32)
          (Ideal.liftRound Ideal.roundHalfEven (w i * sc j)))) (sc j) := by
  show Ideal.div (min (broadcastInDim (s := S_) s ![] hb _ i) (max (broadcastInDim (s := S_) s ![] hb _ i)
      (Ideal.liftRound Ideal.roundHalfEven (w i * broadcastInDim (s := S_) s ![] hb sc i))))
    (broadcastInDim (s := S_) s ![] hb sc i) = _
  simp only [bcast0_apply hb _ i j]
  rfl

/-! ## Buffers no host operation writes -/

/-- The first gain is as launched when the first region starts. -/
theorem v13_arg2 : V13 (F := Ideal) m c (Proc.devRef .tc main_arg2) = m ((c : Thread nD τ).loc main_arg2) :=
  (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- The second gain is as launched when the first region starts. -/
theorem v13_arg4 : V13 (F := Ideal) m c (Proc.devRef .tc main_arg4) = m ((c : Thread nD τ).loc main_arg4) :=
  (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl

/-- The input is as launched before the last host stretch ahead of the regions. -/
theorem v12_arg0 : V12 (F := Ideal) m c (Proc.devRef .tc main_arg0) = m ((c : Thread nD τ).loc main_arg0) :=
  (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-! ## The two reshapes -/

/-- The flattened input: row b·4096 + s of the [16384, 2048] array is row (b, s) of the input. -/
theorem v24_apply (b : Fin 4) (s : Fin 4096) (k : Fin 2048) :
    V13 (F := Ideal) m c (Proc.devRef .tc main_v24)
        (ValueIdx.ix2 ⟨b.val * 4096 + s.val, by have := b.isLt; have := s.isLt; omega⟩ k)
      = m ((c : Thread nD τ).loc main_arg0) (ValueIdx.ix3 b s k) := by
  show StableHlo.after hostOps0_12 (V12 (F := Ideal) m c) (Proc.devRef .tc main_v24) _ = _
  after_results_simp
  exact shapeCast_apply (s := S4x4096x2048) (t := S16384x2048) (V0 (F := Ideal) m c (Proc.devRef .tc main_arg0)) _ _ (ValueIdx.ix3 b s k)
    (by rw [Shape.rowMajor_val_three, Shape.rowMajor_val_two]; rfl)

/-- The result folded back: entry (b, s, d) of the [4, 4096, 2048] result is row b·4096 + s of the last region's output. -/
theorem v28_apply (outs : Outs (F := Ideal)) (b : Fin 4) (s : Fin 4096) (d : Fin 2048) :
    V17 (F := Ideal) m outs c (Proc.devRef .tc main_v28) (ValueIdx.ix3 b s d)
      = V16 (F := Ideal) m outs c (Proc.devRef .tc main_v27)
          (ValueIdx.ix2 ⟨b.val * 4096 + s.val, by have := b.isLt; have := s.isLt; omega⟩ d) := by
  show StableHlo.after hostOps3 (V16 (F := Ideal) m outs c) (Proc.devRef .tc main_v28) _ = _
  simp only [StableHlo.after_cons, StableHlo.after_nil]
  rw [StableHlo.reshape_result]
  exact shapeCast_apply (s := S16384x2048) (t := S4x4096x2048) (V16 (F := Ideal) m outs c (Proc.devRef .tc main_v27)) _ _
    (ValueIdx.ix2 ⟨b.val * 4096 + s.val, by have := b.isLt; have := s.isLt; omega⟩ d)
    (by rw [Shape.rowMajor_val_three, Shape.rowMajor_val_two]; rfl)

/-! ## The first weight matrix, ternary-quantised -/

/-- No host stretch after the seventh writes the first quantised weight matrix. -/
theorem v13_v11 : V13 (F := Ideal) m c (Proc.devRef .tc main_v11) = V7 (F := Ideal) m c (Proc.devRef .tc main_v11) :=
  (V13_of m c main_v11 (by decide)).trans <| (V12_of m c main_v11 (by decide)).trans <| (V11_of m c main_v11 (by decide)).trans <| (V10_of m c main_v11 (by decide)).trans <| (V9_of m c main_v11 (by decide)).trans <| (V8_of m c main_v11 (by decide)).trans <| rfl

/-- The first quantised weight matrix as one pure term of the launched weights. -/
theorem v7_v11 : (V7 (F := Ideal) m c (Proc.devRef .tc main_v11) : S11264x2048.Idx → EReal)
    = quantArr S11264x2048 bcast_S_S11264x2048
        (scaleArr S11264x2048 [0, 1] reducesTo_S11264x2048_S_d0_1 0x4BB00000#32 (m ((c : Thread nD τ).loc main_arg1)))
        (m ((c : Thread nD τ).loc main_arg1)) := by
  show StableHlo.after hostOps0_6 (V6 (F := Ideal) m c) (Proc.devRef .tc main_v11) = _
  after_results_simp
  rfl

/-- The first quantised weight matrix at (o, k) is the specification's direct-form weight. -/
theorem v11_apply (o : Fin 11264) (k : Fin 2048) :
    V13 (F := Ideal) m c (Proc.devRef .tc main_v11) (ValueIdx.ix2 o k)
      = BitMlp.wMat BitMlp.consts BitMlp.direct BitMlp.consts.cG (m ((c : Thread nD τ).loc main_arg1)) o k := by
  rw [v13_v11]
  refine (congrFun (v7_v11 m c) (ValueIdx.ix2 o k)).trans ?_
  rw [quantArr_apply _ _ _ _ _ ValueIdx.ix0, scaleArr_apply]
  unfold BitMlp.wMat BitMlp.direct BitMlp.wQuant BitMlp.quant BitMlp.rne BitMlp.wScale
  rfl

/-! ## The second weight matrix, ternary-quantised -/

/-- The second quantised weight matrix as one pure term of the launched weights. -/
theorem v13_v23 : (V13 (F := Ideal) m c (Proc.devRef .tc main_v23) : S2048x5632.Idx → EReal)
    = quantArr S2048x5632 bcast_S_S2048x5632
        (scaleArr S2048x5632 [0, 1] reducesTo_S2048x5632_S_d0_1 0x4B300000#32 (m ((c : Thread nD τ).loc main_arg3)))
        (m ((c : Thread nD τ).loc main_arg3)) := by
  show StableHlo.after hostOps0_12 (V12 (F := Ideal) m c) (Proc.devRef .tc main_v23) = _
  after_results_simp
  rfl

/-- The second quantised weight matrix at (d, i) is the specification's direct-form weight. -/
theorem v23_apply (d : Fin 2048) (i : Fin 5632) :
    V13 (F := Ideal) m c (Proc.devRef .tc main_v23) (ValueIdx.ix2 d i)
      = BitMlp.wMat BitMlp.consts BitMlp.direct BitMlp.consts.cD (m ((c : Thread nD τ).loc main_arg3)) d i := by
  refine (congrFun (v13_v23 m c) (ValueIdx.ix2 d i)).trans ?_
  rw [quantArr_apply _ _ _ _ _ ValueIdx.ix0, scaleArr_apply]
  unfold BitMlp.wMat BitMlp.direct BitMlp.wQuant BitMlp.quant BitMlp.rne BitMlp.wScale
  rfl

end Cert.KernelIdeal.HostVals

end
-- ==== Proof.KI.Arr02.lean ====
/-
  From blocks to arrays, for the two regions whose grid runs over row blocks only. Each grid point writes one block
  of rows of the region's output; the block is the region's row function (normalise and quantise a row; normalise,
  quantise and contract a row with every row of a weight matrix) of the rows the point holds, so after the whole
  grid the output array is that one function of the arrays the region was entered with, index by index.
-/
import proofs.«132295_j1597727834559_2_alg».proof.Proof.KI.Region0
import proofs.«132295_j1597727834559_2_alg».proof.Proof.KI.Region2
import proofs.«132295_j1597727834559_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Arr

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The first region: rows normalised and quantised to int8 -/

/-- The two spellings of a zero offset vector, of two axes and of one. -/
theorem zeroPair0 : (![0, 0] : Fin 2 → Nat) = fun _ => 0 := funext fun a => by fin_cases a <;> rfl
theorem zeroOne0 : (![0] : Fin 1 → Nat) = fun _ => 0 := funext fun a => by fin_cases a <;> rfl

/-- Row i₀ of the activations, normalised with the gain and quantised by its own maximum, at column i₁. -/
abbrev normQuant0 (a : S16384x2048.Idx → EReal) (g : S2048.Idx → EReal) : S16384x2048.Idx → EReal := fun i =>
  BitMlp.actQ BitMlp.consts (BitMlp.rowNorm BitMlp.consts BitMlp.consts.nD (fun k => a (ValueIdx.ix2 (i 0) k)) (fun k => g (ValueIdx.ix1 k))) (i 1)

/-- The block indices at point t: the row blocks follow the point, the gain's block stays. -/
theorem blockIdx0 : ∀ t : Fin cfg0.N, win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- Row p of the activations' block at point t is row 512·t + p of the activations. -/
theorem rows0 (t : Fin cfg0.N) (p : Fin 512) (k : Fin 2048) (r : Fin 16384) (hr : r.val = t.val * 512 + p.val) :
    iblk0 (F := Ideal) V c 0 t (ValueIdx.ix2 p k) = V c main_v24 (ValueIdx.ix2 r k) := by
  obtain ⟨e0, e1, -⟩ := blockIdx0 t
  unfold iblk0
  rw [View.read_apply]
  show V c main_v24 _ = V c main_v24 _
  congr 1
  funext a
  apply Fin.ext
  match a with
  | ⟨0, _⟩ => show win0_0.index t (0 : Fin 2) * 512 + 1 * p.val = r.val; omega
  | ⟨1, _⟩ => show win0_0.index t (1 : Fin 2) * 2048 + 1 * k.val = k.val; omega

/-- The gain's block at every point is the gain. -/
theorem gain0 (t : Fin cfg0.N) (k : Fin 2048) :
    iblk0 (F := Ideal) V c 1 t (ValueIdx.ix1 k) = V c main_arg2 (ValueIdx.ix1 k) := by
  obtain ⟨-, -, e0, -⟩ := blockIdx0 t
  unfold iblk0
  rw [View.read_apply]
  show V c main_arg2 _ = V c main_arg2 _
  congr 1
  funext a
  apply Fin.ext
  match a with
  | ⟨0, _⟩ => show win0_1.index t (0 : Fin 1) * 2048 + 1 * k.val = k.val; omega

/-- Element (p, q) of the output's block at point t sits at (512·t + p, q) in the output. -/
theorem outAt0 (t : Fin cfg0.N) (p : Fin 512) (q : Fin 2048) (r : Fin 16384) (hr : r.val = t.val * 512 + p.val) :
    ((cfg0.win 2).blk t).view.emb (ValueIdx.ix2 p q) = (ValueIdx.ix2 r q : S16384x2048.Idx) := by
  obtain ⟨-, -, -, e0, e1⟩ := blockIdx0 t
  funext a
  apply Fin.ext
  match a with
  | ⟨0, _⟩ => show win0_2.index t (0 : Fin 2) * 512 + 1 * p.val = r.val; omega
  | ⟨1, _⟩ => show win0_2.index t (1 : Fin 2) * 2048 + 1 * q.val = q.val; omega

/-- The payload at (p, q) of blocks that hold row r of a and the whole of g is normQuant0 a g at (r, q). -/
theorem point0
    (hpay : ∀ (x0 : Vec Ideal S512x2048 .f32) (x1 : Vec Ideal S2048 .f32) (p : Fin 512) (q : Fin 2048), k0_pay1 (F := Ideal) x0 x1 (ValueIdx.ix2 p q)
      = BitMlp.actQ BitMlp.consts (BitMlp.rowNorm BitMlp.consts BitMlp.consts.nD (fun k => x0 (ValueIdx.ix2 p k)) (fun k => x1 (ValueIdx.ix1 k))) q)
    (a : S16384x2048.Idx → EReal) (g : S2048.Idx → EReal) (x0 : Vec Ideal S512x2048 .f32) (x1 : Vec Ideal S2048 .f32)
    (p : Fin 512) (q : Fin 2048) (r : Fin 16384)
    (h0 : ∀ k : Fin 2048, x0 (ValueIdx.ix2 p k) = a (ValueIdx.ix2 r k)) (h1 : ∀ k : Fin 2048, x1 (ValueIdx.ix1 k) = g (ValueIdx.ix1 k)) :
    k0_pay1 (F := Ideal) x0 x1 (ValueIdx.ix2 p q) = normQuant0 a g (ValueIdx.ix2 r q) := by
  rw [hpay, funext h0, funext h1]

/-- What point t writes back is block t of normQuant0 of the activations and the gain as the region finds them. -/
theorem flushed_eq0
    (hpay : ∀ (x0 : Vec Ideal S512x2048 .f32) (x1 : Vec Ideal S2048 .f32) (p : Fin 512) (q : Fin 2048), k0_pay1 (F := Ideal) x0 x1 (ValueIdx.ix2 p q)
      = BitMlp.actQ BitMlp.consts (BitMlp.rowNorm BitMlp.consts BitMlp.consts.nD (fun k => x0 (ValueIdx.ix2 p k)) (fun k => x1 (ValueIdx.ix1 k))) q)
    (t : Fin cfg0.N) :
    (dat0 (F := Ideal) V c).flushed 2 t = ((cfg0.win 2).blk t).view.read (Elt Ideal) (normQuant0 (V c main_v24) (V c main_arg2)) := by
  show (cfg0.win 2).cut (grid0.coords t) ((dat0 (F := Ideal) V c).after 2 t) = _
  rw [after0_2]
  unfold out0
  rw [View.canon_unit_zero zeroPair0]
  simp only [View.ld_unit_zero (S := S512x2048) zeroPair0, View.ld_unit_zero (S := S2048) zeroOne0]
  funext j
  obtain ⟨p, q, rfl⟩ : ∃ (p : Fin 512) (q : Fin 2048), j = ValueIdx.ix2 p q := ⟨j 0, j 1, ValueIdx.eq_ix2 j⟩
  have ht : t.val < 32 := lt_of_lt_of_eq t.isLt N_0
  have hr : (⟨t.val * 512 + p.val, by omega⟩ : Fin 16384).val = t.val * 512 + p.val := rfl
  refine (point0 hpay (V c main_v24) (V c main_arg2) (iblk0 (F := Ideal) V c 0 t) (iblk0 (F := Ideal) V c 1 t) p q ⟨t.val * 512 + p.val, by omega⟩
    (fun k => rows0 V c t p k _ hr) (fun k => gain0 V c t k)).trans ?_
  rw [View.read_apply]
  exact (congrArg (normQuant0 (V c main_v24) (V c main_arg2)) (outAt0 t p q _ hr)).symm

/-- An index of the output is in point t's block iff each coordinate is in the block's range on its axis. -/
theorem mem_blk0 (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v25).slice (win0_2.rect t)).set ↔ _
  rw [View.set_slice_whole, Rect.mem_set_unit]
  exact Iff.rfl

/-- Every index of the output is in the block of the point its row falls to. -/
theorem covered0 (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_2 _, ?_⟩
  rw [mem_blk0]
  obtain ⟨-, -, -, e0, e1⟩ := blockIdx0 ⟨(i 0).val / 512, by rw [hN]; omega⟩
  intro a
  match a with
  | ⟨0, _⟩ => show win0_2.index ⟨(i 0).val / 512, _⟩ (0 : Fin 2) * 512 ≤ (i 0).val ∧ (i 0).val < win0_2.index ⟨(i 0).val / 512, _⟩ (0 : Fin 2) * 512 + 512
              rw [e0]; show (i 0).val / 512 * 512 ≤ (i 0).val ∧ (i 0).val < (i 0).val / 512 * 512 + 512; omega
  | ⟨1, _⟩ => show win0_2.index ⟨(i 0).val / 512, _⟩ (1 : Fin 2) * 2048 ≤ (i 1).val ∧ (i 1).val < win0_2.index ⟨(i 0).val / 512, _⟩ (1 : Fin 2) * 2048 + 2048
              rw [e1]; omega

/-- The first region's output after the whole grid: every row of the activations normalised and quantised. -/
theorem final0
    (hpay : ∀ (x0 : Vec Ideal S512x2048 .f32) (x1 : Vec Ideal S2048 .f32) (p : Fin 512) (q : Fin 2048), k0_pay1 (F := Ideal) x0 x1 (ValueIdx.ix2 p q)
      = BitMlp.actQ BitMlp.consts (BitMlp.rowNorm BitMlp.consts BitMlp.consts.nD (fun k => x0 (ValueIdx.ix2 p k)) (fun k => x1 (ValueIdx.ix1 k))) q) :
    (dat0 (F := Ideal) V c).arrAt 2 cfg0.N = fun i =>
      BitMlp.actQ BitMlp.consts (BitMlp.rowNorm BitMlp.consts BitMlp.consts.nD (fun k => V c main_v24 (ValueIdx.ix2 (i 0) k)) (fun k => V c main_arg2 (ValueIdx.ix1 k))) (i 1) :=
  (dat0 (F := Ideal) V c).arrAt_eq_of_cover 2 (normQuant0 (V c main_v24) (V c main_arg2)) (fun t _ => flushed_eq0 V c hpay t) covered0

/-! ## The third region: rows normalised, quantised and contracted with the second weight matrix -/

/-- The two spellings of a zero offset vector, of two axes and of one. -/
theorem zeroPair2 : (![0, 0] : Fin 2 → Nat) = fun _ => 0 := funext fun a => by fin_cases a <;> rfl
theorem zeroOne2 : (![0] : Fin 1 → Nat) = fun _ => 0 := funext fun a => by fin_cases a <;> rfl

/-- Row i₀ of the gated activations, normalised with the gain and quantised by its own maximum, contracted with
    row i₁ of the weights. -/
abbrev normQuantDot2 (a : S16384x5632.Idx → EReal) (g : S5632.Idx → EReal) (w : S2048x5632.Idx → EReal) : S16384x2048.Idx → EReal := fun i =>
  BitMlp.dot (fun j => BitMlp.actQ BitMlp.consts (BitMlp.rowNorm BitMlp.consts BitMlp.consts.nI (fun k => a (ValueIdx.ix2 (i 0) k)) (fun k => g (ValueIdx.ix1 k))) j)
    (fun j => w (ValueIdx.ix2 (i 1) j))

/-- The block indices at point t: the row blocks follow the point, the gain's and the weights' blocks stay. -/
theorem blockIdx2 : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the gated activations' block at point t is row 128·t + p of the gated activations. -/
theorem rows2 (t : Fin cfg2.N) (p : Fin 128) (k : Fin 5632) (r : Fin 16384) (hr : r.val = t.val * 128 + p.val) :
    iblk2 (F := Ideal) V c 0 t (ValueIdx.ix2 p k) = V c main_v26 (ValueIdx.ix2 r k) := by
  obtain ⟨e0, e1, -⟩ := blockIdx2 t
  unfold iblk2
  rw [View.read_apply]
  show V c main_v26 _ = V c main_v26 _
  congr 1
  funext a
  apply Fin.ext
  match a with
  | ⟨0, _⟩ => show win2_0.index t (0 : Fin 2) * 128 + 1 * p.val = r.val; omega
  | ⟨1, _⟩ => show win2_0.index t (1 : Fin 2) * 5632 + 1 * k.val = k.val; omega

/-- The gain's block at every point is the gain. -/
theorem gain2 (t : Fin cfg2.N) (k : Fin 5632) :
    iblk2 (F := Ideal) V c 1 t (ValueIdx.ix1 k) = V c main_arg4 (ValueIdx.ix1 k) := by
  obtain ⟨-, -, e0, -⟩ := blockIdx2 t
  unfold iblk2
  rw [View.read_apply]
  show V c main_arg4 _ = V c main_arg4 _
  congr 1
  funext a
  apply Fin.ext
  match a with
  | ⟨0, _⟩ => show win2_1.index t (0 : Fin 1) * 5632 + 1 * k.val = k.val; omega

/-- The weights' block at every point is the weight matrix. -/
theorem weights2 (t : Fin cfg2.N) (d : Fin 2048) (k : Fin 5632) :
    iblk2 (F := Ideal) V c 2 t (ValueIdx.ix2 d k) = V c main_v23 (ValueIdx.ix2 d k) := by
  obtain ⟨-, -, -, e0, e1, -⟩ := blockIdx2 t
  unfold iblk2
  rw [View.read_apply]
  show V c main_v23 _ = V c main_v23 _
  congr 1
  funext a
  apply Fin.ext
  match a with
  | ⟨0, _⟩ => show win2_2.index t (0 : Fin 2) * 2048 + 1 * d.val = d.val; omega
  | ⟨1, _⟩ => show win2_2.index t (1 : Fin 2) * 5632 + 1 * k.val = k.val; omega

/-- Element (p, d) of the output's block at point t sits at (128·t + p, d) in the output. -/
theorem outAt2 (t : Fin cfg2.N) (p : Fin 128) (d : Fin 2048) (r : Fin 16384) (hr : r.val = t.val * 128 + p.val) :
    ((cfg2.win 3).blk t).view.emb (ValueIdx.ix2 p d) = (ValueIdx.ix2 r d : S16384x2048.Idx) := by
  obtain ⟨-, -, -, -, -, e0, e1⟩ := blockIdx2 t
  funext a
  apply Fin.ext
  match a with
  | ⟨0, _⟩ => show win2_3.index t (0 : Fin 2) * 128 + 1 * p.val = r.val; omega
  | ⟨1, _⟩ => show win2_3.index t (1 : Fin 2) * 2048 + 1 * d.val = d.val; omega

/-- The payload at (p, d) of blocks that hold row r of a, the whole of g and the whole of w is normQuantDot2 a g w at (r, d). -/
theorem point2
    (hpay : ∀ (x0 : Vec Ideal S128x5632 .bf16) (x1 : Vec Ideal S5632 .f32) (x2 : Vec Ideal S2048x5632 .bf16) (p : Fin 128) (d : Fin 2048), k2_pay1 (F := Ideal) x0 x1 x2 (ValueIdx.ix2 p d)
      = BitMlp.dot (fun i => BitMlp.actQ BitMlp.consts (BitMlp.rowNorm BitMlp.consts BitMlp.consts.nI (fun k => x0 (ValueIdx.ix2 p k)) (fun k => x1 (ValueIdx.ix1 k))) i) (fun i => x2 (ValueIdx.ix2 d i)))
    (a : S16384x5632.Idx → EReal) (g : S5632.Idx → EReal) (w : S2048x5632.Idx → EReal)
    (x0 : Vec Ideal S128x5632 .bf16) (x1 : Vec Ideal S5632 .f32) (x2 : Vec Ideal S2048x5632 .bf16)
    (p : Fin 128) (d : Fin 2048) (r : Fin 16384)
    (h0 : ∀ k : Fin 5632, x0 (ValueIdx.ix2 p k) = a (ValueIdx.ix2 r k)) (h1 : ∀ k : Fin 5632, x1 (ValueIdx.ix1 k) = g (ValueIdx.ix1 k))
    (h2 : ∀ k : Fin 5632, x2 (ValueIdx.ix2 d k) = w (ValueIdx.ix2 d k)) :
    k2_pay1 (F := Ideal) x0 x1 x2 (ValueIdx.ix2 p d) = normQuantDot2 a g w (ValueIdx.ix2 r d) := by
  rw [hpay, funext h0, funext h1, funext h2]

/-- What point t writes back is block t of normQuantDot2 of the gated activations, the gain and the weights as the
    region finds them. -/
theorem flushed_eq2
    (hpay : ∀ (x0 : Vec Ideal S128x5632 .bf16) (x1 : Vec Ideal S5632 .f32) (x2 : Vec Ideal S2048x5632 .bf16) (p : Fin 128) (d : Fin 2048), k2_pay1 (F := Ideal) x0 x1 x2 (ValueIdx.ix2 p d)
      = BitMlp.dot (fun i => BitMlp.actQ BitMlp.consts (BitMlp.rowNorm BitMlp.consts BitMlp.consts.nI (fun k => x0 (ValueIdx.ix2 p k)) (fun k => x1 (ValueIdx.ix1 k))) i) (fun i => x2 (ValueIdx.ix2 d i)))
    (t : Fin cfg2.N) :
    (dat2 (F := Ideal) V c).flushed 3 t = ((cfg2.win 3).blk t).view.read (Elt Ideal) (normQuantDot2 (V c main_v26) (V c main_arg4) (V c main_v23)) := by
  show (cfg2.win 3).cut (grid2.coords t) ((dat2 (F := Ideal) V c).after 3 t) = _
  rw [after2_3]
  unfold out2
  rw [View.canon_unit_zero zeroPair2]
  simp only [View.ld_unit_zero (S := S128x5632) zeroPair2, View.ld_unit_zero (S := S5632) zeroOne2, View.ld_unit_zero (S := S2048x5632) zeroPair2]
  funext j
  obtain ⟨p, d, rfl⟩ : ∃ (p : Fin 128) (d : Fin 2048), j = ValueIdx.ix2 p d := ⟨j 0, j 1, ValueIdx.eq_ix2 j⟩
  have ht : t.val < 128 := lt_of_lt_of_eq t.isLt N_2
  have hr : (⟨t.val * 128 + p.val, by omega⟩ : Fin 16384).val = t.val * 128 + p.val := rfl
  refine (point2 hpay (V c main_v26) (V c main_arg4) (V c main_v23) (iblk2 (F := Ideal) V c 0 t) (iblk2 (F := Ideal) V c 1 t) (iblk2 (F := Ideal) V c 2 t)
    p d ⟨t.val * 128 + p.val, by omega⟩ (fun k => rows2 V c t p k _ hr) (fun k => gain2 V c t k) (fun k => weights2 V c t d k)).trans ?_
  rw [View.read_apply]
  exact (congrArg (normQuantDot2 (V c main_v26) (V c main_arg4) (V c main_v23)) (outAt2 t p d _ hr)).symm

/-- An index of the output is in point t's block iff each coordinate is in the block's range on its axis. -/
theorem mem_blk2 (t : Fin cfg2.N) (i : S16384x2048.Idx) :
    i ∈ ((cfg2.win 3).blk t).view.set ↔ ∀ a : Fin 2, win2_3.index t a * S128x2048.size a ≤ (i a).val ∧ (i a).val < win2_3.index t a * S128x2048.size a + S128x2048.size a := by
  show i ∈ ((View.whole main_v27).slice (win2_3.rect t)).set ↔ _
  rw [View.set_slice_whole, Rect.mem_set_unit]
  exact Iff.rfl

/-- Every index of the output is in the block of the point its row falls to. -/
theorem covered2 (i : S16384x2048.Idx) : ∃ t : Fin cfg2.N, (cfg2.win 3).flush t = true ∧ i ∈ ((cfg2.win 3).blk t).view.set := by
  have hi0 : (i 0).val < 16384 := (i 0).isLt
  have hi1 : (i 1).val < 2048 := (i 1).isLt
  have hN : cfg2.N = 128 := N_2
  refine ⟨⟨(i 0).val / 128, by rw [hN]; omega⟩, flush2_3 _, ?_⟩
  rw [mem_blk2]
  obtain ⟨-, -, -, -, -, e0, e1⟩ := blockIdx2 ⟨(i 0).val / 128, by rw [hN]; omega⟩
  intro a
  match a with
  | ⟨0, _⟩ => show win2_3.index ⟨(i 0).val / 128, _⟩ (0 : Fin 2) * 128 ≤ (i 0).val ∧ (i 0).val < win2_3.index ⟨(i 0).val / 128, _⟩ (0 : Fin 2) * 128 + 128
              rw [e0]; show (i 0).val / 128 * 128 ≤ (i 0).val ∧ (i 0).val < (i 0).val / 128 * 128 + 128; omega
  | ⟨1, _⟩ => show win2_3.index ⟨(i 0).val / 128, _⟩ (1 : Fin 2) * 2048 ≤ (i 1).val ∧ (i 1).val < win2_3.index ⟨(i 0).val / 128, _⟩ (1 : Fin 2) * 2048 + 2048
              rw [e1]; omega

/-- The third region's output after the whole grid: every row of the gated activations normalised, quantised and
    contracted with every row of the weights. -/
theorem final2
    (hpay : ∀ (x0 : Vec Ideal S128x5632 .bf16) (x1 : Vec Ideal S5632 .f32) (x2 : Vec Ideal S2048x5632 .bf16) (p : Fin 128) (d : Fin 2048), k2_pay1 (F := Ideal) x0 x1 x2 (ValueIdx.ix2 p d)
      = BitMlp.dot (fun i => BitMlp.actQ BitMlp.consts (BitMlp.rowNorm BitMlp.consts BitMlp.consts.nI (fun k => x0 (ValueIdx.ix2 p k)) (fun k => x1 (ValueIdx.ix1 k))) i) (fun i => x2 (ValueIdx.ix2 d i))) :
    (dat2 (F := Ideal) V c).arrAt 3 cfg2.N = fun i =>
      BitMlp.dot (fun j => BitMlp.actQ BitMlp.consts (BitMlp.rowNorm BitMlp.consts BitMlp.consts.nI (fun k => V c main_v26 (ValueIdx.ix2 (i 0) k)) (fun k => V c main_arg4 (ValueIdx.ix1 k))) j)
        (fun j => V c main_v23 (ValueIdx.ix2 (i 1) j)) :=
  (dat2 (F := Ideal) V c).arrAt_eq_of_cover 3 (normQuantDot2 (V c main_v26) (V c main_arg4) (V c main_v23)) (fun t _ => flushed_eq2 V c hpay t) covered2

end Cert.KernelIdeal.Arr

end
-- ==== Proof.KI.Arr1.lean ====
/-
  From blocks to the array, second region: the 16 × 11 grid's output blocks of 1024 × 512 tile the [16384, 5632] array, and
  the block at (t / 11, t % 11) is computed from rows (t / 11)·1024 … of the activations and from rows (t % 11)·512 … and
  (t % 11 + 11)·512 … of the one weight matrix. So the array ends as one function of the activations and the weights,
  index by index: at (r, n), gate · σ(gate) · value with gate = ⟨row r, weight row n⟩ and value = ⟨row r, weight row n + 5632⟩.
-/
import proofs.«132295_j1597727834559_2_alg».proof.Proof.KI.Region1
import proofs.«132295_j1597727834559_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Arr

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The zero offset vector of a whole-block load or store. -/
theorem zeroOffsets1 : (![0, 0] : Fin 2 → Nat) = fun _ => 0 := funext fun a => by fin_cases a <;> rfl

/-- The block indices at grid point t, whose coordinates are (t / 11, t % 11): the output block is (t / 11, t % 11), the
    activation rows block t / 11, the gate rows block t % 11 and the value rows block t % 11 + 11 of the one weight matrix. -/
theorem blockIndex1 : ∀ t : Fin cfg1.N,
    win1_3.index t (0 : Fin 2) = t.val / 11 ∧ win1_3.index t (1 : Fin 2) = t.val % 11
    ∧ win1_0.index t (0 : Fin 2) = t.val / 11 ∧ win1_0.index t (1 : Fin 2) = 0
    ∧ win1_1.index t (0 : Fin 2) = t.val % 11 ∧ win1_1.index t (1 : Fin 2) = 0
    ∧ win1_2.index t (0 : Fin 2) = t.val % 11 + 11 ∧ win1_2.index t (1 : Fin 2) = 0 :=
  (by decide +kernel : ∀ t : Fin grid1.N, _)

/-- What the output array ends holding: at (r, n), gate · σ(gate) · value of row r of the activations against rows n
    and n + 5632 of the weight matrix. -/
abbrev swiglu1 (A : S16384x2048.Idx → EReal) (W : S11264x2048.Idx → EReal) : S16384x5632.Idx → EReal := fun i =>
  BitMlp.dot (fun k => A (ValueIdx.ix2 (i 0) k)) (fun k => W (ValueIdx.ix2 (BitMlp.top (i 1)) k))
    * Ideal.logistic (BitMlp.dot (fun k => A (ValueIdx.ix2 (i 0) k)) (fun k => W (ValueIdx.ix2 (BitMlp.top (i 1)) k)))
    * BitMlp.dot (fun k => A (ValueIdx.ix2 (i 0) k)) (fun k => W (ValueIdx.ix2 (BitMlp.bot (i 1)) k))

/-- One grid point, in coordinates: when the three loaded blocks are rows b0·1024 …, b1·512 … and (b1 + 11)·512 … of the
    activations A and of the weight matrix W, the stored block at (p, n) is the array function at (b0·1024 + p, b1·512 + n). -/
theorem point_eq1
    (hpay : ∀ (x0 : Vec Ideal S1024x2048 .bf16) (x1 : Vec Ideal S512x2048 .bf16) (x2 : Vec Ideal S512x2048 .bf16) (p : Fin 1024) (n : Fin 512), k1_pay1 (F := Ideal) x0 x1 x2 (ValueIdx.ix2 p n)
      = BitMlp.dot (fun k => x0 (ValueIdx.ix2 p k)) (fun k => x1 (ValueIdx.ix2 n k))
          * Ideal.logistic (BitMlp.dot (fun k => x0 (ValueIdx.ix2 p k)) (fun k => x1 (ValueIdx.ix2 n k)))
          * BitMlp.dot (fun k => x0 (ValueIdx.ix2 p k)) (fun k => x2 (ValueIdx.ix2 n k)))
    (A : S16384x2048.Idx → EReal) (W : S11264x2048.Idx → EReal)
    (x0 : Vec Ideal S1024x2048 .bf16) (x1 : Vec Ideal S512x2048 .bf16) (x2 : Vec Ideal S512x2048 .bf16)
    (b0 b1 : Nat) (hb0 : b0 < 16) (hb1 : b1 < 11)
    (h0 : ∀ (p : Fin 1024) (k : Fin 2048), x0 (ValueIdx.ix2 p k) = A (ValueIdx.ix2 (⟨b0 * 1024 + p.val, by have := p.isLt; omega⟩ : Fin 16384) k))
    (h1 : ∀ (n : Fin 512) (k : Fin 2048), x1 (ValueIdx.ix2 n k) = W (ValueIdx.ix2 (⟨b1 * 512 + n.val, by have := n.isLt; omega⟩ : Fin 11264) k))
    (h2 : ∀ (n : Fin 512) (k : Fin 2048), x2 (ValueIdx.ix2 n k) = W (ValueIdx.ix2 (⟨(b1 + 11) * 512 + n.val, by have := n.isLt; omega⟩ : Fin 11264) k))
    (p : Fin 1024) (n : Fin 512) :
    k1_pay1 (F := Ideal) x0 x1 x2 (ValueIdx.ix2 p n)
      = swiglu1 A W (ValueIdx.ix2 (⟨b0 * 1024 + p.val, by have := p.isLt; omega⟩ : Fin 16384) (⟨b1 * 512 + n.val, by have := n.isLt; omega⟩ : Fin 5632)) := by
  rw [hpay]
  have etop : BitMlp.top (⟨b1 * 512 + n.val, by have := n.isLt; omega⟩ : Fin 5632) = (⟨b1 * 512 + n.val, by have := n.isLt; omega⟩ : Fin 11264) := rfl
  have ebot : BitMlp.bot (⟨b1 * 512 + n.val, by have := n.isLt; omega⟩ : Fin 5632) = (⟨(b1 + 11) * 512 + n.val, by have := n.isLt; omega⟩ : Fin 11264) :=
    Fin.ext (by show b1 * 512 + n.val + 5632 = (b1 + 11) * 512 + n.val; omega)
  show _ = BitMlp.dot (fun k => A (ValueIdx.ix2 (⟨b0 * 1024 + p.val, _⟩ : Fin 16384) k)) (fun k => W (ValueIdx.ix2 (BitMlp.top (⟨b1 * 512 + n.val, _⟩ : Fin 5632)) k))
    * Ideal.logistic (BitMlp.dot (fun k => A (ValueIdx.ix2 (⟨b0 * 1024 + p.val, _⟩ : Fin 16384) k)) (fun k => W (ValueIdx.ix2 (BitMlp.top (⟨b1 * 512 + n.val, _⟩ : Fin 5632)) k)))
    * BitMlp.dot (fun k => A (ValueIdx.ix2 (⟨b0 * 1024 + p.val, _⟩ : Fin 16384) k)) (fun k => W (ValueIdx.ix2 (BitMlp.bot (⟨b1 * 512 + n.val, _⟩ : Fin 5632)) k))
  rw [etop, ebot]
  simp only [h0, h1, h2]

/-- The activations block at point t is rows (t / 11)·1024 … of the activations. -/
theorem actBlock1 (t : Fin cfg1.N) (ht : t.val < 176) (p : Fin 1024) (k : Fin 2048) :
    (iblk1 (F := Ideal) V c 0 t : Vec Ideal S1024x2048 .bf16) (ValueIdx.ix2 p k)
      = V c main_v25 (ValueIdx.ix2 (⟨t.val / 11 * 1024 + p.val, by have := p.isLt; omega⟩ : Fin 16384) k) := by
  obtain ⟨e30, e31, e00, e01, e10, e11, e20, e21⟩ := blockIndex1 t
  unfold iblk1
  rw [View.read_apply]
  show V c main_v25 _ = V c main_v25 _
  congr 1
  funext a; apply Fin.ext
  match a with
  | ⟨0, _⟩ => show win1_0.index t (0 : Fin 2) * 1024 + 1 * p.val = t.val / 11 * 1024 + p.val; omega
  | ⟨1, _⟩ => show win1_0.index t (1 : Fin 2) * 2048 + 1 * k.val = k.val; omega

/-- The gate block at point t is rows (t % 11)·512 … of the weight matrix. -/
theorem gateBlock1 (t : Fin cfg1.N) (p : Fin 512) (k : Fin 2048) :
    (iblk1 (F := Ideal) V c 1 t : Vec Ideal S512x2048 .bf16) (ValueIdx.ix2 p k)
      = V c main_v11 (ValueIdx.ix2 (⟨t.val % 11 * 512 + p.val, by have := p.isLt; omega⟩ : Fin 11264) k) := by
  obtain ⟨e30, e31, e00, e01, e10, e11, e20, e21⟩ := blockIndex1 t
  unfold iblk1
  rw [View.read_apply]
  show V c main_v11 _ = V c main_v11 _
  congr 1
  funext a; apply Fin.ext
  match a with
  | ⟨0, _⟩ => show win1_1.index t (0 : Fin 2) * 512 + 1 * p.val = t.val % 11 * 512 + p.val; omega
  | ⟨1, _⟩ => show win1_1.index t (1 : Fin 2) * 2048 + 1 * k.val = k.val; omega

/-- The value block at point t is rows (t % 11 + 11)·512 … of the same weight matrix. -/
theorem valueBlock1 (t : Fin cfg1.N) (p : Fin 512) (k : Fin 2048) :
    (iblk1 (F := Ideal) V c 2 t : Vec Ideal S512x2048 .bf16) (ValueIdx.ix2 p k)
      = V c main_v11 (ValueIdx.ix2 (⟨(t.val % 11 + 11) * 512 + p.val, by have := p.isLt; omega⟩ : Fin 11264) k) := by
  obtain ⟨e30, e31, e00, e01, e10, e11, e20, e21⟩ := blockIndex1 t
  unfold iblk1
  rw [View.read_apply]
  show V c main_v11 _ = V c main_v11 _
  congr 1
  funext a; apply Fin.ext
  match a with
  | ⟨0, _⟩ => show win1_2.index t (0 : Fin 2) * 512 + 1 * p.val = (t.val % 11 + 11) * 512 + p.val; omega
  | ⟨1, _⟩ => show win1_2.index t (1 : Fin 2) * 2048 + 1 * k.val = k.val; omega

/-- What point t writes back is block t of the array function of the activations and the weight matrix as the region
    finds them. -/
theorem flushed_eq1
    (hpay : ∀ (x0 : Vec Ideal S1024x2048 .bf16) (x1 : Vec Ideal S512x2048 .bf16) (x2 : Vec Ideal S512x2048 .bf16) (p : Fin 1024) (n : Fin 512), k1_pay1 (F := Ideal) x0 x1 x2 (ValueIdx.ix2 p n)
      = BitMlp.dot (fun k => x0 (ValueIdx.ix2 p k)) (fun k => x1 (ValueIdx.ix2 n k))
          * Ideal.logistic (BitMlp.dot (fun k => x0 (ValueIdx.ix2 p k)) (fun k => x1 (ValueIdx.ix2 n k)))
          * BitMlp.dot (fun k => x0 (ValueIdx.ix2 p k)) (fun k => x2 (ValueIdx.ix2 n k)))
    (t : Fin cfg1.N) :
    (dat1 (F := Ideal) V c).flushed 3 t
      = ((cfg1.win 3).blk t).view.read (Elt Ideal) (swiglu1 (V c main_v25) (V c main_v11)) := by
  have hN : cfg1.N = 176 := N_1
  have ht : t.val < 176 := by have := t.isLt; omega
  obtain ⟨e30, e31, -⟩ := blockIndex1 t
  show (cfg1.win 3).cut (grid1.coords t) ((dat1 V c).after 3 t) = _
  rw [after1_3]
  unfold out1
  rw [View.canon_unit_zero zeroOffsets1]
  simp only [View.ld_unit_zero (S := S1024x2048) zeroOffsets1, View.ld_unit_zero (S := S512x2048) zeroOffsets1]
  funext j
  have hj0 : (j 0).val < 1024 := (j 0).isLt
  have hj1 : (j 1).val < 512 := (j 1).isLt
  have ej : (cfg1.win 3).xinj (grid1.coords t) j = (ValueIdx.ix2 (⟨(j 0).val, hj0⟩ : Fin 1024) (⟨(j 1).val, hj1⟩ : Fin 512) : S1024x512.Idx) := by
    funext a
    match a with
    | ⟨0, _⟩ => rfl
    | ⟨1, _⟩ => rfl
  show k1_pay1 (F := Ideal) (iblk1 V c 0 t) (iblk1 V c 1 t) (iblk1 V c 2 t) ((cfg1.win 3).xinj (grid1.coords t) j)
    = swiglu1 (V c main_v25) (V c main_v11) (((cfg1.win 3).blk t).view.emb j)
  refine (congrArg (k1_pay1 (F := Ideal) (iblk1 V c 0 t) (iblk1 V c 1 t) (iblk1 V c 2 t)) ej).trans ?_
  refine (point_eq1 hpay (V c main_v25) (V c main_v11) (iblk1 V c 0 t) (iblk1 V c 1 t) (iblk1 V c 2 t) (t.val / 11) (t.val % 11)
    (by omega) (by omega) (actBlock1 V c t ht) (gateBlock1 V c t) (valueBlock1 V c t) ⟨(j 0).val, hj0⟩ ⟨(j 1).val, hj1⟩).trans ?_
  congr 1
  funext a; apply Fin.ext
  match a with
  | ⟨0, _⟩ => show t.val / 11 * 1024 + (j 0).val = win1_3.index t (0 : Fin 2) * 1024 + 1 * (j 0).val; omega
  | ⟨1, _⟩ => show t.val % 11 * 512 + (j 1).val = win1_3.index t (1 : Fin 2) * 512 + 1 * (j 1).val; omega

/-- An index of the output array is in point t's block iff each coordinate is in the block's range on its axis. -/
theorem mem_block1 (t : Fin cfg1.N) (i : S16384x5632.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v26).slice (win1_3.rect t)).set ↔ _
  rw [View.set_slice_whole, Rect.mem_set_unit]
  exact Iff.rfl

/-- The blocks tile the output array: index (r, n) is in the block of the point with coordinates (r / 1024, n / 512). -/
theorem covered1 (i : S16384x5632.Idx) :
    ∃ t : Fin cfg1.N, (cfg1.win 3).flush t = true ∧ i ∈ ((cfg1.win 3).blk t).view.set := by
  have hN : cfg1.N = 176 := N_1
  have hi0 : (i 0).val < 16384 := (i 0).isLt
  have hi1 : (i 1).val < 5632 := (i 1).isLt
  obtain ⟨t, htv⟩ : ∃ t : Fin cfg1.N, t.val = (i 0).val / 1024 * 11 + (i 1).val / 512 := ⟨⟨_, by omega⟩, rfl⟩
  obtain ⟨e30, e31, -⟩ := blockIndex1 t
  refine ⟨t, flush1_3 t, ?_⟩
  rw [mem_block1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the whole grid: at (r, n), gate · σ(gate) · value of row r of the activations against rows n
    and n + 5632 of the weight matrix, both as the region finds them. -/
theorem final1
    (hpay : ∀ (x0 : Vec Ideal S1024x2048 .bf16) (x1 : Vec Ideal S512x2048 .bf16) (x2 : Vec Ideal S512x2048 .bf16) (p : Fin 1024) (n : Fin 512), k1_pay1 (F := Ideal) x0 x1 x2 (ValueIdx.ix2 p n)
      = BitMlp.dot (fun k => x0 (ValueIdx.ix2 p k)) (fun k => x1 (ValueIdx.ix2 n k))
          * Ideal.logistic (BitMlp.dot (fun k => x0 (ValueIdx.ix2 p k)) (fun k => x1 (ValueIdx.ix2 n k)))
          * BitMlp.dot (fun k => x0 (ValueIdx.ix2 p k)) (fun k => x2 (ValueIdx.ix2 n k))) :
    (dat1 (F := Ideal) V c).arrAt 3 cfg1.N = fun i =>
      BitMlp.dot (fun k => V c main_v25 (ValueIdx.ix2 (i 0) k)) (fun k => V c main_v11 (ValueIdx.ix2 (BitMlp.top (i 1)) k))
        * Ideal.logistic (BitMlp.dot (fun k => V c main_v25 (ValueIdx.ix2 (i 0) k)) (fun k => V c main_v11 (ValueIdx.ix2 (BitMlp.top (i 1)) k)))
        * BitMlp.dot (fun k => V c main_v25 (ValueIdx.ix2 (i 0) k)) (fun k => V c main_v11 (ValueIdx.ix2 (BitMlp.bot (i 1)) k)) :=
  (dat1 (F := Ideal) V c).arrAt_eq_of_cover 3 (swiglu1 (V c main_v25) (V c main_v11)) (fun t _ => flushed_eq1 V c hpay t) covered1

end Cert.KernelIdeal.Arr

end
-- ==== Proof.KI.Value.lean ====
/-
  What the idealized kernel program computes. Its result at (b, s, d) is read back through the last reshape, the
  third region (the down-projection of the normalised, quantised gated row), the second region (the gated row: gate ·
  σ(gate) · value of the two halves of the first projection), the first region (the normalised, quantised input row)
  and the host operations before them (the two ternary weight matrices and the flattened input): it is the direct
  form of the block applied to row (b, s) of the input.
-/
import proofs.«132295_j1597727834559_2_alg».proof.Proof.KI.Run
import proofs.«132295_j1597727834559_2_alg».proof.Proof.KI.PayRows
import proofs.«132295_j1597727834559_2_alg».proof.Proof.KI.PayGate
import proofs.«132295_j1597727834559_2_alg».proof.Proof.KI.HostVals
import proofs.«132295_j1597727834559_2_alg».proof.Proof.KI.Arr02
import proofs.«132295_j1597727834559_2_alg».proof.Proof.KI.Arr1
import proofs.«132295_j1597727834559_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Row (b, s) of the input in the flattened [16384, 2048] layout. -/
def flatRow (b : Fin 4) (s : Fin 4096) : Fin 16384 := ⟨b.val * 4096 + s.val, by have := b.isLt; have := s.isLt; omega⟩

/-- The input row, the two gains and the two ternary weight matrices, as the specification takes them. -/
abbrev xRow (b : Fin 4) (s : Fin 4096) : Fin 2048 → EReal := fun k => m ((c : Thread nD τ).loc main_arg0) (ValueIdx.ix3 b s k)
abbrev gainG : Fin 2048 → EReal := fun k => m ((c : Thread nD τ).loc main_arg2) (ValueIdx.ix1 k)
abbrev gainD : Fin 5632 → EReal := fun i => m ((c : Thread nD τ).loc main_arg4) (ValueIdx.ix1 i)
abbrev matG : Fin 11264 → Fin 2048 → EReal := BitMlp.wMat BitMlp.consts BitMlp.direct BitMlp.consts.cG (m ((c : Thread nD τ).loc main_arg1))
abbrev matD : Fin 2048 → Fin 5632 → EReal := BitMlp.wMat BitMlp.consts BitMlp.direct BitMlp.consts.cD (m ((c : Thread nD τ).loc main_arg3))

/-- The buffers the regions only read keep their host values through the regions before. -/
theorem WA_v11 : WA m c (Proc.devRef .tc main_v11) = V13 m c (Proc.devRef .tc main_v11) := WA_of_ne m c main_v11 (by decide)
theorem WB_arg4 : WB m c (Proc.devRef .tc main_arg4) = V13 m c (Proc.devRef .tc main_arg4) :=
  (WB_of_ne m c main_arg4 (by decide)).trans (WA_of_ne m c main_arg4 (by decide))
theorem WB_v23 : WB m c (Proc.devRef .tc main_v23) = V13 m c (Proc.devRef .tc main_v23) :=
  (WB_of_ne m c main_v23 (by decide)).trans (WA_of_ne m c main_v23 (by decide))

/-- After the first region: the normalised, quantised input row. -/
theorem quantRow_eq (b : Fin 4) (s : Fin 4096) (k : Fin 2048) :
    WA m c (Proc.devRef .tc main_v25) (ValueIdx.ix2 (flatRow b s) k)
      = BitMlp.actQ BitMlp.consts (BitMlp.rowNorm BitMlp.consts BitMlp.consts.nD (xRow m c b s) (gainG m c)) k := by
  rw [WA_v25]; unfold o0
  rw [Cert.KernelIdeal.Arr.final0 (E0 m) c Cert.KernelIdeal.Pay.pay0_apply]
  have hx : (fun k' : Fin 2048 => V13 m c (Proc.devRef .tc main_v24) (ValueIdx.ix2 (flatRow b s) k')) = xRow m c b s :=
    funext fun k' => Cert.KernelIdeal.HostVals.v24_apply m c b s k'
  have hg : (fun k' : Fin 2048 => V13 m c (Proc.devRef .tc main_arg2) (ValueIdx.ix1 k')) = gainG m c :=
    funext fun k' => congrFun (Cert.KernelIdeal.HostVals.v13_arg2 m c) (ValueIdx.ix1 k')
  show BitMlp.actQ BitMlp.consts (BitMlp.rowNorm BitMlp.consts BitMlp.consts.nD
      (fun k' : Fin 2048 => V13 m c (Proc.devRef .tc main_v24) (ValueIdx.ix2 (flatRow b s) k'))
      (fun k' : Fin 2048 => V13 m c (Proc.devRef .tc main_arg2) (ValueIdx.ix1 k'))) k = _
  rw [hx, hg]

/-- After the second region: the gated row. -/
theorem gatedRow_eq (b : Fin 4) (s : Fin 4096) (n : Fin 5632) :
    WB m c (Proc.devRef .tc main_v26) (ValueIdx.ix2 (flatRow b s) n)
      = BitMlp.dot (fun k => BitMlp.actQ BitMlp.consts (BitMlp.rowNorm BitMlp.consts BitMlp.consts.nD (xRow m c b s) (gainG m c)) k) (matG m c (BitMlp.top n))
          * Ideal.logistic (BitMlp.dot (fun k => BitMlp.actQ BitMlp.consts (BitMlp.rowNorm BitMlp.consts BitMlp.consts.nD (xRow m c b s) (gainG m c)) k) (matG m c (BitMlp.top n)))
          * BitMlp.dot (fun k => BitMlp.actQ BitMlp.consts (BitMlp.rowNorm BitMlp.consts BitMlp.consts.nD (xRow m c b s) (gainG m c)) k) (matG m c (BitMlp.bot n)) := by
  rw [WB_v26]; unfold o1
  rw [Cert.KernelIdeal.Arr.final1 (EA m) c Cert.KernelIdeal.Pay.pay1_apply]
  have hq : (fun k : Fin 2048 => WA m c (Proc.devRef .tc main_v25) (ValueIdx.ix2 (flatRow b s) k))
      = fun k => BitMlp.actQ BitMlp.consts (BitMlp.rowNorm BitMlp.consts BitMlp.consts.nD (xRow m c b s) (gainG m c)) k :=
    funext fun k => quantRow_eq m c b s k
  have hw : ∀ o : Fin 11264, (fun k : Fin 2048 => WA m c (Proc.devRef .tc main_v11) (ValueIdx.ix2 o k)) = matG m c o :=
    fun o => funext fun k => by rw [WA_v11]; exact Cert.KernelIdeal.HostVals.v11_apply m c o k
  show BitMlp.dot (fun k : Fin 2048 => WA m c (Proc.devRef .tc main_v25) (ValueIdx.ix2 (flatRow b s) k))
        (fun k : Fin 2048 => WA m c (Proc.devRef .tc main_v11) (ValueIdx.ix2 (BitMlp.top n) k))
      * Ideal.logistic (BitMlp.dot (fun k : Fin 2048 => WA m c (Proc.devRef .tc main_v25) (ValueIdx.ix2 (flatRow b s) k))
        (fun k : Fin 2048 => WA m c (Proc.devRef .tc main_v11) (ValueIdx.ix2 (BitMlp.top n) k)))
      * BitMlp.dot (fun k : Fin 2048 => WA m c (Proc.devRef .tc main_v25) (ValueIdx.ix2 (flatRow b s) k))
        (fun k : Fin 2048 => WA m c (Proc.devRef .tc main_v11) (ValueIdx.ix2 (BitMlp.bot n) k)) = _
  rw [hq, hw (BitMlp.top n), hw (BitMlp.bot n)]

/-- THE RESULT: the direct form of the specification, at every index. -/
theorem result_eq (b : Fin 4) (s : Fin 4096) (d : Fin 2048) :
    V17 m (outs m) c (Proc.devRef .tc main_v28) (ValueIdx.ix3 b s d)
      = BitMlp.outDirect BitMlp.consts (m ((c : Thread nD τ).loc main_arg0)) (m ((c : Thread nD τ).loc main_arg1)) (m ((c : Thread nD τ).loc main_arg2))
          (m ((c : Thread nD τ).loc main_arg3)) (m ((c : Thread nD τ).loc main_arg4)) b s d := by
  rw [Cert.KernelIdeal.HostVals.v28_apply, V16_eq]
  show WC m c (Proc.devRef .tc main_v27) (ValueIdx.ix2 (flatRow b s) d) = _
  rw [WC_v27]; unfold o2
  rw [Cert.KernelIdeal.Arr.final2 (EB m) c Cert.KernelIdeal.Pay.pay2_apply]
  have hs : (fun n : Fin 5632 => WB m c (Proc.devRef .tc main_v26) (ValueIdx.ix2 (flatRow b s) n))
      = fun n => BitMlp.dot (fun k => BitMlp.actQ BitMlp.consts (BitMlp.rowNorm BitMlp.consts BitMlp.consts.nD (xRow m c b s) (gainG m c)) k) (matG m c (BitMlp.top n))
          * Ideal.logistic (BitMlp.dot (fun k => BitMlp.actQ BitMlp.consts (BitMlp.rowNorm BitMlp.consts BitMlp.consts.nD (xRow m c b s) (gainG m c)) k) (matG m c (BitMlp.top n)))
          * BitMlp.dot (fun k => BitMlp.actQ BitMlp.consts (BitMlp.rowNorm BitMlp.consts BitMlp.consts.nD (xRow m c b s) (gainG m c)) k) (matG m c (BitMlp.bot n)) :=
    funext fun n => gatedRow_eq m c b s n
  have hg : (fun i : Fin 5632 => WB m c (Proc.devRef .tc main_arg4) (ValueIdx.ix1 i)) = gainD m c :=
    funext fun i => by rw [WB_arg4]; exact congrFun (Cert.KernelIdeal.HostVals.v13_arg4 m c) (ValueIdx.ix1 i)
  have hw : (fun j : Fin 5632 => WB m c (Proc.devRef .tc main_v23) (ValueIdx.ix2 d j)) = matD m c d :=
    funext fun j => by rw [WB_v23]; exact Cert.KernelIdeal.HostVals.v23_apply m c d j
  show BitMlp.dot (fun j : Fin 5632 => BitMlp.actQ BitMlp.consts (BitMlp.rowNorm BitMlp.consts BitMlp.consts.nI
        (fun n : Fin 5632 => WB m c (Proc.devRef .tc main_v26) (ValueIdx.ix2 (flatRow b s) n))
        (fun i : Fin 5632 => WB m c (Proc.devRef .tc main_arg4) (ValueIdx.ix1 i))) j)
      (fun j : Fin 5632 => WB m c (Proc.devRef .tc main_v23) (ValueIdx.ix2 d j)) = _
  rw [hs, hg, hw]
  unfold BitMlp.outDirect BitMlp.mlpRow BitMlp.direct
  rfl

end Cert.KernelIdeal.Hand

end
-- ==== Proof.RefRun.lean ====
/-
  The reference program's run, read against the per-operation values.

  The program is a straight line of 148 operations in single-assignment form: every buffer is written once, by an
  operation whose operands were written earlier or are arguments. The line is cut into eight consecutive stretches
  (twenty operations each, eight in the last). For each stretch one lemma says: if, before it, every buffer that the
  stretch or a later one still reads holds its value as a function of the five arguments, then after it every buffer a
  later stretch still reads does. A buffer the stretch writes is read off the stretch's own operations, whose operands
  are values of the stretch or of the hypotheses; a buffer it does not write keeps its contents. Chaining the eight
  lemmas gives the result buffer after the whole line; the machine's run of the line ends in that valuation.
-/
import proofs.«132295_j1597727834559_2_alg».proof.Proof.RefRunP
import proofs.«132295_j1597727834559_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-! ## A line run in two parts -/

/-- The contents after two lines in turn are the contents after their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line run as its first n operations and then the rest. -/
theorem after_split {τ : Topo} {sig : RefSig} {Val : EltTy → Type} (n : Nat) (l : List (HloOp τ sig Val)) (V : Valuation τ sig Val) :
    after l V = after (l.drop n) (after (l.take n) V) :=
  (congrArg (fun l' => after l' V) (List.take_append_drop n l).symm).trans (after_append _ _ V)

/-! ## The eight stretches -/

/-- what is left of the line after 20, 40, … , 140 operations -/
abbrev r1 : List (HloOp τ sig (Elt F)) := (ops (F := F)).drop 20
abbrev r2 : List (HloOp τ sig (Elt F)) := (r1 (F := F)).drop 20
abbrev r3 : List (HloOp τ sig (Elt F)) := (r2 (F := F)).drop 20
abbrev r4 : List (HloOp τ sig (Elt F)) := (r3 (F := F)).drop 20
abbrev r5 : List (HloOp τ sig (Elt F)) := (r4 (F := F)).drop 20
abbrev r6 : List (HloOp τ sig (Elt F)) := (r5 (F := F)).drop 20
abbrev r7 : List (HloOp τ sig (Elt F)) := (r6 (F := F)).drop 20

/-- operations 0 … 19, 20 … 39, … , 120 … 139, and the last eight -/
abbrev s0 : List (HloOp τ sig (Elt F)) := (ops (F := F)).take 20
abbrev s1 : List (HloOp τ sig (Elt F)) := (r1 (F := F)).take 20
abbrev s2 : List (HloOp τ sig (Elt F)) := (r2 (F := F)).take 20
abbrev s3 : List (HloOp τ sig (Elt F)) := (r3 (F := F)).take 20
abbrev s4 : List (HloOp τ sig (Elt F)) := (r4 (F := F)).take 20
abbrev s5 : List (HloOp τ sig (Elt F)) := (r5 (F := F)).take 20
abbrev s6 : List (HloOp τ sig (Elt F)) := (r6 (F := F)).take 20
abbrev s7 : List (HloOp τ sig (Elt F)) := r7 (F := F)

/-- The whole line is the eight stretches in turn. -/
theorem after_ops_eq (V : Valuation τ sig (Elt F)) :
    after (ops (F := F)) V
      = after (s7 (F := F)) (after (s6 (F := F)) (after (s5 (F := F)) (after (s4 (F := F)) (after (s3 (F := F))
          (after (s2 (F := F)) (after (s1 (F := F)) (after (s0 (F := F)) V))))))) :=
  (after_split 20 _ V).trans <| (after_split 20 _ _).trans <| (after_split 20 _ _).trans <| (after_split 20 _ _).trans <|
    (after_split 20 _ _).trans <| (after_split 20 _ _).trans <| (after_split 20 _ _)

/-- One stretch at one buffer: the stretch as a literal list; the operations' results at the buffer; the transports of
    contents between a buffer's type and the equal type its value was declared at, which compose to the identity
    (removed before anything is substituted for the contents); the hypotheses on what was there before; and the
    definitions of the values the stretch writes. -/
macro "stretch_values" : tactic =>
  `(tactic| (
    simp only [s0, s1, s2, s3, s4, s5, s6, s7, r1, r2, r3, r4, r5, r6, r7, ops, List.take_succ_cons, List.take_zero,
      List.drop_succ_cons, List.drop_zero]
    after_results_simp <;> (try simp only [TRef.toBuf, TRef.ofBuf, cast_cast, cast_eq]) <;> (try simp only [*]) <;> rfl))

section Stretches

variable {A0 : (⟨S4x4096x2048, .f32⟩ : BufTy).Contents (Elt F)} {A1 : (⟨S11264x2048, .f32⟩ : BufTy).Contents (Elt F)}
  {A2 : (⟨S2048, .f32⟩ : BufTy).Contents (Elt F)} {A3 : (⟨S2048x5632, .f32⟩ : BufTy).Contents (Elt F)}
  {A4 : (⟨S5632, .f32⟩ : BufTy).Contents (Elt F)} (W : Valuation τ sig (Elt F))

/-- Operations 0 … 19: the first row normalisation and its row maximum. -/
theorem stretch0
    (h0 : W (Proc.devRef .tc main_arg0) = A0) (h1 : W (Proc.devRef .tc main_arg1) = A1) (h2 : W (Proc.devRef .tc main_arg2) = A2)
    (h3 : W (Proc.devRef .tc main_arg3) = A3) (h4 : W (Proc.devRef .tc main_arg4) = A4) :
    after (s0 (F := F)) W (Proc.devRef .tc main_v15) = val_main_v15 (F := F) A0 A2
      ∧ after (s0 (F := F)) W (Proc.devRef .tc main_v12) = val_main_v12 (F := F) A0 A2
      ∧ after (s0 (F := F)) W (Proc.devRef .tc main_arg1) = A1
      ∧ after (s0 (F := F)) W (Proc.devRef .tc main_arg4) = A4
      ∧ after (s0 (F := F)) W (Proc.devRef .tc main_arg3) = A3 := by
  refine ⟨?_, ?_, ?_, ?_, ?_⟩ <;> stretch_values

/-- Operations 20 … 39. -/
theorem stretch1
    (h15 : W (Proc.devRef .tc main_v15) = val_main_v15 (F := F) A0 A2)
    (h12 : W (Proc.devRef .tc main_v12) = val_main_v12 (F := F) A0 A2)
    (h1 : W (Proc.devRef .tc main_arg1) = A1) (h4 : W (Proc.devRef .tc main_arg4) = A4) (h3 : W (Proc.devRef .tc main_arg3) = A3) :
    after (s1 (F := F)) W (Proc.devRef .tc main_v24) = val_main_v24 (F := F) A0 A2
      ∧ after (s1 (F := F)) W (Proc.devRef .tc main_v12) = val_main_v12 (F := F) A0 A2
      ∧ after (s1 (F := F)) W (Proc.devRef .tc main_arg1) = A1
      ∧ after (s1 (F := F)) W (Proc.devRef .tc main_arg4) = A4
      ∧ after (s1 (F := F)) W (Proc.devRef .tc main_arg3) = A3 := by
  refine ⟨?_, ?_, ?_, ?_, ?_⟩ <;> stretch_values

/-- Operations 40 … 59. -/
theorem stretch2
    (h24 : W (Proc.devRef .tc main_v24) = val_main_v24 (F := F) A0 A2)
    (h12 : W (Proc.devRef .tc main_v12) = val_main_v12 (F := F) A0 A2)
    (h1 : W (Proc.devRef .tc main_arg1) = A1) (h4 : W (Proc.devRef .tc main_arg4) = A4) (h3 : W (Proc.devRef .tc main_arg3) = A3) :
    after (s2 (F := F)) W (Proc.devRef .tc main_cst_12) = val_main_cst_12 (F := F)
      ∧ after (s2 (F := F)) W (Proc.devRef .tc main_call5_v2) = val_main_call5_v2 (F := F) A1
      ∧ after (s2 (F := F)) W (Proc.devRef .tc main_v31) = val_main_v31 (F := F) A1
      ∧ after (s2 (F := F)) W (Proc.devRef .tc main_arg1) = A1
      ∧ after (s2 (F := F)) W (Proc.devRef .tc main_v26) = val_main_v26 (F := F) A0 A2
      ∧ after (s2 (F := F)) W (Proc.devRef .tc main_arg4) = A4
      ∧ after (s2 (F := F)) W (Proc.devRef .tc main_arg3) = A3 := by
  refine ⟨?_, ?_, ?_, ?_, ?_, ?_, ?_⟩ <;> stretch_values

/-- Operations 60 … 79. -/
theorem stretch3
    (hc12 : W (Proc.devRef .tc main_cst_12) = val_main_cst_12 (F := F))
    (hc5 : W (Proc.devRef .tc main_call5_v2) = val_main_call5_v2 (F := F) A1)
    (h31 : W (Proc.devRef .tc main_v31) = val_main_v31 (F := F) A1)
    (h1 : W (Proc.devRef .tc main_arg1) = A1)
    (h26 : W (Proc.devRef .tc main_v26) = val_main_v26 (F := F) A0 A2)
    (h4 : W (Proc.devRef .tc main_arg4) = A4) (h3 : W (Proc.devRef .tc main_arg3) = A3) :
    after (s3 (F := F)) W (Proc.devRef .tc main_v50) = val_main_v50 (F := F) A0 A1 A2
      ∧ after (s3 (F := F)) W (Proc.devRef .tc main_arg4) = A4
      ∧ after (s3 (F := F)) W (Proc.devRef .tc main_arg3) = A3 := by
  refine ⟨?_, ?_, ?_⟩ <;> stretch_values

/-- Operations 80 … 99. -/
theorem stretch4
    (h50 : W (Proc.devRef .tc main_v50) = val_main_v50 (F := F) A0 A1 A2)
    (h4 : W (Proc.devRef .tc main_arg4) = A4) (h3 : W (Proc.devRef .tc main_arg3) = A3) :
    after (s4 (F := F)) W (Proc.devRef .tc main_v66) = val_main_v66 (F := F) A0 A1 A2 A4
      ∧ after (s4 (F := F)) W (Proc.devRef .tc main_v63) = val_main_v63 (F := F) A0 A1 A2 A4
      ∧ after (s4 (F := F)) W (Proc.devRef .tc main_arg3) = A3 := by
  refine ⟨?_, ?_, ?_⟩ <;> stretch_values

/-- Operations 100 … 119. -/
theorem stretch5
    (h66 : W (Proc.devRef .tc main_v66) = val_main_v66 (F := F) A0 A1 A2 A4)
    (h63 : W (Proc.devRef .tc main_v63) = val_main_v63 (F := F) A0 A1 A2 A4)
    (h3 : W (Proc.devRef .tc main_arg3) = A3) :
    after (s5 (F := F)) W (Proc.devRef .tc main_v75) = val_main_v75 (F := F) A0 A1 A2 A4
      ∧ after (s5 (F := F)) W (Proc.devRef .tc main_v63) = val_main_v63 (F := F) A0 A1 A2 A4
      ∧ after (s5 (F := F)) W (Proc.devRef .tc main_arg3) = A3 := by
  refine ⟨?_, ?_, ?_⟩ <;> stretch_values

/-- Operations 120 … 139. -/
theorem stretch6
    (h75 : W (Proc.devRef .tc main_v75) = val_main_v75 (F := F) A0 A1 A2 A4)
    (h63 : W (Proc.devRef .tc main_v63) = val_main_v63 (F := F) A0 A1 A2 A4)
    (h3 : W (Proc.devRef .tc main_arg3) = A3) :
    after (s6 (F := F)) W (Proc.devRef .tc main_cst_28) = val_main_cst_28 (F := F)
      ∧ after (s6 (F := F)) W (Proc.devRef .tc main_call11_v2) = val_main_call11_v2 (F := F) A3
      ∧ after (s6 (F := F)) W (Proc.devRef .tc main_v82) = val_main_v82 (F := F) A3
      ∧ after (s6 (F := F)) W (Proc.devRef .tc main_arg3) = A3
      ∧ after (s6 (F := F)) W (Proc.devRef .tc main_v77) = val_main_v77 (F := F) A0 A1 A2 A4 := by
  refine ⟨?_, ?_, ?_, ?_, ?_⟩ <;> stretch_values

/-- Operations 140 … 147: the second weight matrix's last steps and the final contraction. -/
theorem stretch7
    (hc28 : W (Proc.devRef .tc main_cst_28) = val_main_cst_28 (F := F))
    (hc11 : W (Proc.devRef .tc main_call11_v2) = val_main_call11_v2 (F := F) A3)
    (h82 : W (Proc.devRef .tc main_v82) = val_main_v82 (F := F) A3)
    (h3 : W (Proc.devRef .tc main_arg3) = A3)
    (h77 : W (Proc.devRef .tc main_v77) = val_main_v77 (F := F) A0 A1 A2 A4) :
    after (s7 (F := F)) W (Proc.devRef .tc main_v91) = val_main_v91 (F := F) A0 A1 A2 A3 A4 := by
  stretch_values

end Stretches

/-! ## The whole line, and the run -/

/-- After the whole line the result buffer holds the last operation's value of the five arguments' contents. -/
theorem after_ops (V : Valuation τ sig (Elt F)) :
    after (ops (F := F)) V (Proc.devRef .tc main_v91)
      = val_main_v91 (F := F) (V (Proc.devRef .tc main_arg0)) (V (Proc.devRef .tc main_arg1)) (V (Proc.devRef .tc main_arg2))
          (V (Proc.devRef .tc main_arg3)) (V (Proc.devRef .tc main_arg4)) := by
  rw [after_ops_eq]
  obtain ⟨a15, a12, a1, a4, a3⟩ := stretch0 (F := F) V rfl rfl rfl rfl rfl
  obtain ⟨b24, b12, b1, b4, b3⟩ := stretch1 (F := F) _ a15 a12 a1 a4 a3
  obtain ⟨cc12, cc5, c31, c1, c26, c4, c3⟩ := stretch2 (F := F) _ b24 b12 b1 b4 b3
  obtain ⟨d50, d4, d3⟩ := stretch3 (F := F) _ cc12 cc5 c31 c1 c26 c4 c3
  obtain ⟨e66, e63, e3⟩ := stretch4 (F := F) _ d50 d4 d3
  obtain ⟨f75, f63, f3⟩ := stretch5 (F := F) _ e66 e63 e3
  obtain ⟨gc28, gc11, g82, g3, g77⟩ := stretch6 (F := F) _ f75 f63 f3
  exact stretch7 (F := F) _ gc28 gc11 g82 g3 g77

set_option maxRecDepth 8192 in
set_option maxHeartbeats 59200000 in
/-- On every device, for any float values, from any memory with zero counters: every weakly fair execution of @main
    terminates with the result buffer at the last operation's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Cert.ReferenceIdeal.Read.val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v91).trans (after_ops (F := F) (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result, read at an index, is the straight-through form of the specification.
-/
import proofs.«132295_j1597727834559_2_alg».proof.Proof.RefReadP
import proofs.«132295_j1597727834559_2_alg».proof.Proof.Spec

noncomputable section

namespace Cert.ReferenceIdeal.RefValue

open Idealize.ShloMosaic

open Idealize.ShloMosaic.ValueIdx
open Cert.ReferenceIdeal Cert.ReferenceIdeal.Read
open BitMlp

/-- Two rank-3 indices with the same three coordinates are equal. -/
local macro "idx_eq3" : tactic =>
  `(tactic| exact funext fun a => Fin.ext (by match a with | ⟨0, _⟩ => rfl | ⟨1, _⟩ => rfl | ⟨2, _⟩ => rfl))
/-- Two rank-2 indices with the same two coordinates are equal. -/
local macro "idx_eq2" : tactic =>
  `(tactic| exact funext fun a => Fin.ext (by match a with | ⟨0, _⟩ => rfl | ⟨1, _⟩ => rfl))
/-- Two rank-1 indices with the same coordinate are equal. -/
local macro "idx_eq1" : tactic =>
  `(tactic| exact funext fun a => Fin.ext (by match a with | ⟨0, _⟩ => rfl))

variable (x0 : (⟨S4x4096x2048, .f32⟩ : BufTy).Contents (Elt Ideal)) (x1 : (⟨S11264x2048, .f32⟩ : BufTy).Contents (Elt Ideal))
  (x2 : (⟨S2048, .f32⟩ : BufTy).Contents (Elt Ideal)) (x3 : (⟨S2048x5632, .f32⟩ : BufTy).Contents (Elt Ideal))
  (x4 : (⟨S5632, .f32⟩ : BufTy).Contents (Elt Ideal))

/-! ## The first layer's row: normalised, its maximum, its scale, quantised, wrapped -/

/-- The normalised row at (b, s): x_k · rsqrt(mean x² + ε) · g_k. -/
def yRow (b : Fin 4) (s : Fin 4096) : Fin 2048 → EReal :=
  rowNorm consts consts.nD (fun k => x0 (ix3 b s k)) (fun k => x2 (ix1 k))

/-- The sum of squares of the row at (b, s), from 0. -/
theorem v1_eq (b : Fin 4) (s : Fin 4096) :
    val_main_v1 (F := Ideal) x0 (ix2 b s) = consts.zero + ∑ k : Fin 2048, x0 (ix3 b s k) * x0 (ix3 b s k) := by
  rw [val_main_v1_apply, val_main_cst_apply]
  refine congrArg (_ + ·) (Finset.sum_congr rfl fun k _ => ?_)
  rw [show idx_main_v1 (ix2 b s) k = ix3 b s k by idx_eq3, val_main_v0_apply]
  rfl

/-- The reference's normalised activation at (b, s, k) is the specification's row entry. -/
theorem v12_eq (b : Fin 4) (s : Fin 4096) (k : Fin 2048) :
    val_main_v12 (F := Ideal) x0 x2 (ix3 b s k) = yRow x0 x2 b s k := by
  rw [val_main_v12_apply, val_main_v9_apply, val_main_v8_apply, val_main_v7_apply, val_main_v6_apply, val_main_v4_apply,
    val_main_v2_apply, val_main_v3_apply, val_main_v5_apply, val_main_v11_apply, val_main_v10_apply,
    val_main_cst_0_apply, val_main_cst_1_apply,
    show idx_main_v2 (idx_main_v8 (ix3 b s k)) = ix2 b s by idx_eq2,
    show idx_main_v10 (idx_main_v11 (ix3 b s k)) = ix1 k by idx_eq1, v1_eq]
  rfl

/-- The row maximum of |y| at (b, s), folded from −∞. -/
theorem v14_eq (b : Fin 4) (s : Fin 4096) :
    val_main_v14 (F := Ideal) x0 x2 (ix2 b s)
      = (Finset.univ : Finset (Fin 2048)).fold max consts.ninf (fun k => absE (yRow x0 x2 b s k)) := by
  have hR : S4x4096x2048.Reduces [2] S4x4096 := by decide
  have hl : ∀ k : Fin 2048, hR.lift (ix2 b s) k = ix3 b s k := fun k => by idx_eq3
  unfold val_main_v14
  refine (Host.reduce_eq_fold_single FloatOps.maximumf _ _ _ hR _ (ix2 b s)).trans ?_
  show (Finset.univ : Finset (Fin 2048)).fold max consts.ninf
      (fun k : Fin 2048 => val_main_v13 (F := Ideal) x0 x2 (hR.lift (ix2 b s) k)) = _
  exact Finset.fold_congr fun (k : Fin 2048) _ => by rw [hl, val_main_v13_apply, v12_eq]; rfl

/-- The int8 scale of the row at (b, s). -/
theorem v18_eq (b : Fin 4) (s : Fin 4096) :
    val_main_v18 (F := Ideal) x0 x2 (ix3 b s (0 : Fin 1)) = rowScale consts (yRow x0 x2 b s) := by
  rw [val_main_v18_apply, val_main_v17_apply, val_main_cst_4_apply, val_main_v16_apply, val_main_call0_v1_apply,
    val_main_call0_v0_apply, val_main_cst_3_apply, val_main_v15_apply,
    show idx_main_v15 (ix3 b s (0 : Fin 1)) = ix2 b s by idx_eq2, v14_eq]
  rfl

/-- The int8-quantised entry at (b, s, k). -/
theorem v24_eq (b : Fin 4) (s : Fin 4096) (k : Fin 2048) :
    val_main_v24 (F := Ideal) x0 x2 (ix3 b s k) = actQ consts (yRow x0 x2 b s) k := by
  have e19 : idx_main_v19 (ix3 b s k) = ix3 b s (0 : Fin 1) := by idx_eq3
  have e23 : idx_main_v23 (ix3 b s k) = ix3 b s (0 : Fin 1) := by idx_eq3
  rw [val_main_v24_apply, val_main_v22_apply, val_main_call2_v4_apply, val_main_call2_v3_apply, val_main_cst_6_apply,
    val_main_call2_v2_apply, val_main_call2_v1_apply, val_main_call2_v0_apply, val_main_cst_5_apply,
    val_main_v21_apply, val_main_v20_apply, val_main_v19_apply, val_main_v23_apply]
  simp only [e19, e23, v18_eq, v12_eq, Ideal.mulf_def, Ideal.hostDivf_def, Ideal.maximumf_def, Ideal.minimumf_def,
    Ideal.hostUnary_roundeven_def, Ideal.ofBits_def]
  unfold actQ quant rne
  rfl

/-- The straight-through wrapped row at (b, s). -/
def xqRow (b : Fin 4) (s : Fin 4096) : Fin 2048 → EReal :=
  fun k => ste (yRow x0 x2 b s k) (actQ consts (yRow x0 x2 b s) k)

theorem v26_eq (b : Fin 4) (s : Fin 4096) (k : Fin 2048) :
    val_main_v26 (F := Ideal) x0 x2 (ix3 b s k) = xqRow x0 x2 b s k := by
  rw [val_main_v26_apply, val_main_v25_apply, v24_eq, v12_eq]
  rfl

/-! ## The first weight matrix, ternary-quantised and wrapped -/

/-- The ternary scale of the first weight tensor. -/
theorem v31_eq (i : S_.Idx) :
    val_main_v31 (F := Ideal) x1 i = wScale consts consts.cG (ι := (⟨2, ![11264, 2048]⟩ : Shape).Idx) x1 := by
  rw [val_main_v31_apply, val_main_cst_10_apply, val_main_v30_apply, val_main_call3_v0_apply, val_main_cst_9_apply,
    val_main_v29_apply, val_main_cst_8_apply, val_main_v28_apply, val_main_cst_7_apply]
  rfl

/-- One wrapped weight of the first matrix. -/
theorem v39_eq (o : Fin 11264) (k : Fin 2048) :
    val_main_v39 (F := Ideal) x1 (ix2 o k) = wMat consts ste consts.cG x1 o k := by
  rw [val_main_v39_apply, val_main_v38_apply, val_main_v37_apply, val_main_v35_apply, val_main_call5_v4_apply,
    val_main_call5_v3_apply, val_main_cst_12_apply, val_main_call5_v2_apply, val_main_call5_v1_apply,
    val_main_call5_v0_apply, val_main_cst_11_apply, val_main_v34_apply, val_main_v33_apply, val_main_v32_apply,
    val_main_v36_apply]
  simp only [v31_eq]
  rfl

/-! ## The first contraction, its halves, and the gate -/

/-- The first contraction at (b, s, n): the wrapped row against weight row n. -/
theorem v40_eq (b : Fin 4) (s : Fin 4096) (n : Fin 11264) :
    val_main_v40 (F := Ideal) x0 x1 x2 (ix3 b s n) = dot (xqRow x0 x2 b s) (wMat consts ste consts.cG x1 n) := by
  rw [val_main_v40_apply]
  unfold dot
  refine Finset.sum_congr rfl fun k _ => ?_
  rw [show lidx_main_v40 (ix3 b s n) k = ix3 b s k by idx_eq3,
    show ridx_main_v40 (ix3 b s n) k = ix2 n k by idx_eq2, v26_eq, v39_eq]

/-- The gated product row at (b, s): gate · σ(gate) · value. -/
def swRow (b : Fin 4) (s : Fin 4096) : Fin 5632 → EReal := fun n =>
  dot (xqRow x0 x2 b s) (wMat consts ste consts.cG x1 (top n))
    * sigmoidSpelt consts (dot (xqRow x0 x2 b s) (wMat consts ste consts.cG x1 (top n)))
    * dot (xqRow x0 x2 b s) (wMat consts ste consts.cG x1 (bot n))

theorem v50_eq (b : Fin 4) (s : Fin 4096) (n : Fin 5632) :
    val_main_v50 (F := Ideal) x0 x1 x2 (ix3 b s n) = swRow x0 x1 x2 b s n := by
  have e41 : idx_main_v41 (ix3 b s n) = ix3 b s (top n) := by idx_eq3
  have e42 : idx_main_v42 (ix3 b s n) = ix3 b s (bot n) :=
    funext fun a => Fin.ext (by match a with | ⟨0, _⟩ => rfl | ⟨1, _⟩ => rfl | ⟨2, _⟩ => exact Nat.add_comm 5632 n.val)
  rw [val_main_v50_apply, val_main_v49_apply, val_main_v48_apply, val_main_v47_apply, val_main_cst_14_apply,
    val_main_v46_apply, val_main_v45_apply, val_main_cst_13_apply, val_main_v44_apply, val_main_v43_apply,
    val_main_v41_apply, val_main_v42_apply, e41, e42, v40_eq, v40_eq]
  simp only [Ideal.mulf_def, Ideal.addf_def, Ideal.hostDivf_def, Ideal.hostUnary_exp_def, Ideal.hostNegf_def,
    Ideal.negf_def, Ideal.ofBits_def]
  unfold swRow sigmoidSpelt
  rfl

/-! ## The second layer's row: normalised, its maximum, its scale, quantised, wrapped -/

/-- The second layer's normalised row at (b, s). -/
def yRow2 (b : Fin 4) (s : Fin 4096) : Fin 5632 → EReal :=
  rowNorm consts consts.nI (swRow x0 x1 x2 b s) (fun i => x4 (ix1 i))

/-- The sum of squares of the gated row at (b, s), from 0. -/
theorem v52_eq (b : Fin 4) (s : Fin 4096) :
    val_main_v52 (F := Ideal) x0 x1 x2 (ix2 b s)
      = consts.zero + ∑ k : Fin 5632, swRow x0 x1 x2 b s k * swRow x0 x1 x2 b s k := by
  rw [val_main_v52_apply, val_main_cst_15_apply]
  refine congrArg (_ + ·) (Finset.sum_congr rfl fun k _ => ?_)
  rw [show idx_main_v52 (ix2 b s) k = ix3 b s k by idx_eq3, val_main_v51_apply, v50_eq]
  rfl

theorem v63_eq (b : Fin 4) (s : Fin 4096) (n : Fin 5632) :
    val_main_v63 (F := Ideal) x0 x1 x2 x4 (ix3 b s n) = yRow2 x0 x1 x2 x4 b s n := by
  rw [val_main_v63_apply, val_main_v60_apply, val_main_v59_apply, val_main_v58_apply, val_main_v57_apply,
    val_main_v55_apply, val_main_v53_apply, val_main_v54_apply, val_main_v56_apply, val_main_v62_apply,
    val_main_v61_apply, val_main_cst_16_apply, val_main_cst_17_apply,
    show idx_main_v53 (idx_main_v59 (ix3 b s n)) = ix2 b s by idx_eq2,
    show idx_main_v61 (idx_main_v62 (ix3 b s n)) = ix1 n by idx_eq1, v52_eq, v50_eq]
  rfl

/-- The row maximum of |y'| at (b, s), folded from −∞. -/
theorem v65_eq (b : Fin 4) (s : Fin 4096) :
    val_main_v65 (F := Ideal) x0 x1 x2 x4 (ix2 b s)
      = (Finset.univ : Finset (Fin 5632)).fold max consts.ninf (fun k => absE (yRow2 x0 x1 x2 x4 b s k)) := by
  have hR : S4x4096x5632.Reduces [2] S4x4096 := by decide
  have hl : ∀ k : Fin 5632, hR.lift (ix2 b s) k = ix3 b s k := fun k => by idx_eq3
  unfold val_main_v65
  refine (Host.reduce_eq_fold_single FloatOps.maximumf _ _ _ hR _ (ix2 b s)).trans ?_
  show (Finset.univ : Finset (Fin 5632)).fold max consts.ninf
      (fun k : Fin 5632 => val_main_v64 (F := Ideal) x0 x1 x2 x4 (hR.lift (ix2 b s) k)) = _
  exact Finset.fold_congr fun (k : Fin 5632) _ => by rw [hl, val_main_v64_apply, v63_eq]; rfl

/-- The int8 scale of the second layer's row at (b, s). -/
theorem v69_eq (b : Fin 4) (s : Fin 4096) :
    val_main_v69 (F := Ideal) x0 x1 x2 x4 (ix3 b s (0 : Fin 1)) = rowScale consts (yRow2 x0 x1 x2 x4 b s) := by
  rw [val_main_v69_apply, val_main_v68_apply, val_main_cst_20_apply, val_main_v67_apply, val_main_call6_v1_apply,
    val_main_call6_v0_apply, val_main_cst_19_apply, val_main_v66_apply,
    show idx_main_v66 (ix3 b s (0 : Fin 1)) = ix2 b s by idx_eq2, v65_eq]
  rfl

/-- The int8-quantised entry of the second layer's row at (b, s, n). -/
theorem v75_eq (b : Fin 4) (s : Fin 4096) (n : Fin 5632) :
    val_main_v75 (F := Ideal) x0 x1 x2 x4 (ix3 b s n) = actQ consts (yRow2 x0 x1 x2 x4 b s) n := by
  have e70 : idx_main_v70 (ix3 b s n) = ix3 b s (0 : Fin 1) := by idx_eq3
  have e74 : idx_main_v74 (ix3 b s n) = ix3 b s (0 : Fin 1) := by idx_eq3
  rw [val_main_v75_apply, val_main_v73_apply, val_main_call8_v4_apply, val_main_call8_v3_apply, val_main_cst_22_apply,
    val_main_call8_v2_apply, val_main_call8_v1_apply, val_main_call8_v0_apply, val_main_cst_21_apply,
    val_main_v72_apply, val_main_v71_apply, val_main_v70_apply, val_main_v74_apply]
  simp only [e70, e74, v69_eq, v63_eq, Ideal.mulf_def, Ideal.hostDivf_def, Ideal.maximumf_def, Ideal.minimumf_def,
    Ideal.hostUnary_roundeven_def, Ideal.ofBits_def]
  unfold actQ quant rne
  rfl

/-- The straight-through wrapped second-layer row at (b, s). -/
def sqRow (b : Fin 4) (s : Fin 4096) : Fin 5632 → EReal :=
  fun i => ste (yRow2 x0 x1 x2 x4 b s i) (actQ consts (yRow2 x0 x1 x2 x4 b s) i)

theorem v77_eq (b : Fin 4) (s : Fin 4096) (n : Fin 5632) :
    val_main_v77 (F := Ideal) x0 x1 x2 x4 (ix3 b s n) = sqRow x0 x1 x2 x4 b s n := by
  rw [val_main_v77_apply, val_main_v76_apply, v75_eq, v63_eq]
  rfl

/-! ## The second weight matrix, ternary-quantised and wrapped -/

/-- The ternary scale of the second weight tensor. -/
theorem v82_eq (i : S_.Idx) :
    val_main_v82 (F := Ideal) x3 i = wScale consts consts.cD (ι := (⟨2, ![2048, 5632]⟩ : Shape).Idx) x3 := by
  rw [val_main_v82_apply, val_main_cst_26_apply, val_main_v81_apply, val_main_call9_v0_apply, val_main_cst_25_apply,
    val_main_v80_apply, val_main_cst_24_apply, val_main_v79_apply, val_main_cst_23_apply]
  rfl

/-- One wrapped weight of the second matrix. -/
theorem v90_eq (d : Fin 2048) (i : Fin 5632) :
    val_main_v90 (F := Ideal) x3 (ix2 d i) = wMat consts ste consts.cD x3 d i := by
  rw [val_main_v90_apply, val_main_v89_apply, val_main_v88_apply, val_main_v86_apply, val_main_call11_v4_apply,
    val_main_call11_v3_apply, val_main_cst_28_apply, val_main_call11_v2_apply, val_main_call11_v1_apply,
    val_main_call11_v0_apply, val_main_cst_27_apply, val_main_v85_apply, val_main_v84_apply, val_main_v83_apply,
    val_main_v87_apply]
  simp only [v82_eq]
  rfl

/-! ## The result -/

/-- The second contraction at (b, s, d): the wrapped second-layer row against weight row d. -/
theorem v91_eq (b : Fin 4) (s : Fin 4096) (d : Fin 2048) :
    val_main_v91 (F := Ideal) x0 x1 x2 x3 x4 (ix3 b s d)
      = dot (sqRow x0 x1 x2 x4 b s) (wMat consts ste consts.cD x3 d) := by
  rw [val_main_v91_apply]
  unfold dot
  refine Finset.sum_congr rfl fun k _ => ?_
  rw [show lidx_main_v91 (ix3 b s d) k = ix3 b s k by idx_eq3,
    show ridx_main_v91 (ix3 b s d) k = ix2 d k by idx_eq2, v77_eq, v90_eq]

open Cert.ReferenceIdeal in
/-- The reference's result at (b, s, d) is the straight-through form of the specification. -/
theorem ref_eq (x0 : (⟨S4x4096x2048, .f32⟩ : BufTy).Contents (Elt Ideal)) (x1 : (⟨S11264x2048, .f32⟩ : BufTy).Contents (Elt Ideal))
    (x2 : (⟨S2048, .f32⟩ : BufTy).Contents (Elt Ideal)) (x3 : (⟨S2048x5632, .f32⟩ : BufTy).Contents (Elt Ideal))
    (x4 : (⟨S5632, .f32⟩ : BufTy).Contents (Elt Ideal)) (b : Fin 4) (s : Fin 4096) (d : Fin 2048) :
    Cert.ReferenceIdeal.Read.val_main_v91 (F := Ideal) x0 x1 x2 x3 x4 (ValueIdx.ix3 b s d)
      = BitMlp.outSte BitMlp.consts x0 x1 x2 x3 x4 b s d := by
  rw [v91_eq]
  rfl

end Cert.ReferenceIdeal.RefValue

end
-- ==== Proof.SteDirect.lean ====
/-
  The straight-through form of the block equals the direct form wherever the gains and the weights are real numbers.

  Over the extended reals a + (q − a) = q as soon as a is a real number, whatever q is; so the two forms agree
  once every value that gets wrapped is real.  The weights are real by hypothesis.  A normalised row
  x_d · rsqrt(mean x² + ε) · g_d is real whenever the gain g_d is: if every x_k is real the mean square plus ε is a
  positive real and so is its reciprocal square root; if some x_k is infinite the sum of squares is +∞, its
  reciprocal square root is 0, and x_d · 0 · g_d = 0.
-/
import proofs.«132295_j1597727834559_2_alg».proof.Proof.Spec

noncomputable section

namespace BitMlp

open Idealize.ShloMosaic

/-- what the constants must satisfy for the two forms to agree -/
structure Consts.Good (c : Consts) : Prop where
  zero : c.zero = 0
  ninf : c.ninf = ⊥
  one : c.one = 1
  mone : c.mone = -1
  epsN : ∃ r : ℝ, 0 < r ∧ c.epsN = (r : EReal)
  epsQ : ∃ r : ℝ, 0 < r ∧ c.epsQ = (r : EReal)
  qhi : ∃ r : ℝ, c.qhi = (r : EReal)
  qlo : ∃ r : ℝ, c.qlo = (r : EReal)
  nD : ∃ r : ℝ, 0 < r ∧ c.nD = (r : EReal)
  nI : ∃ r : ℝ, 0 < r ∧ c.nI = (r : EReal)
  cG : ∃ r : ℝ, 0 < r ∧ c.cG = (r : EReal)
  cD : ∃ r : ℝ, 0 < r ∧ c.cD = (r : EReal)

/-- a is a real number -/
def IsR (a : EReal) : Prop := ∃ r : ℝ, a = (r : EReal)

/-- a + (q − a) = q for a real a and any q, the infinities included -/
theorem ste_of_isR {a : EReal} (ha : IsR a) (q : EReal) : ste a q = q := by
  obtain ⟨r, rfl⟩ := ha
  unfold ste
  induction q using EReal.rec with
  | bot => simp
  | coe s => rw [← EReal.coe_sub, ← EReal.coe_add]; congr 1; ring
  | top => simp

/-- a square is never negative, and is +∞ at both infinities -/
theorem mul_self_nonneg_ereal (a : EReal) : 0 ≤ a * a := by
  induction a using EReal.rec with
  | bot => simp
  | coe r => exact_mod_cast mul_self_nonneg r
  | top => simp

theorem mul_self_eq_top_of_not_isR {a : EReal} (ha : ¬ IsR a) : a * a = ⊤ := by
  induction a using EReal.rec with
  | bot => simp
  | coe r => exact absurd ⟨r, rfl⟩ ha
  | top => simp

/-- a finite sum of reals, summed in the extended reals, is the real sum -/
theorem sum_coe_ereal {ι : Type} (s : Finset ι) (f : ι → ℝ) :
    (Finset.sum s fun i => (f i : EReal)) = ((Finset.sum s f : ℝ) : EReal) := by
  classical
  induction s using Finset.induction_on with
  | empty => simp
  | insert a s ha ih => rw [Finset.sum_insert ha, Finset.sum_insert ha, ih, EReal.coe_add]

/-- every entry of a normalised row is real where its gain is, whatever the row holds -/
theorem rowNorm_isR (c : Consts) (h0 : c.zero = 0) {cnt : EReal} (hcnt : ∃ r : ℝ, 0 < r ∧ cnt = (r : EReal))
    (heps : ∃ r : ℝ, 0 < r ∧ c.epsN = (r : EReal)) {n : Nat} (x g : Fin n → EReal) (d : Fin n)
    (hg : IsR (g d)) : IsR (rowNorm c cnt x g d) := by
  obtain ⟨N, hN, rfl⟩ := hcnt
  obtain ⟨e, he, hee⟩ := heps
  obtain ⟨gr, hgr⟩ := hg
  unfold rowNorm
  rw [h0, hee, zero_add, Ideal.div_coe hN.ne', hgr]
  by_cases hx : ∀ k, IsR (x k)
  · choose xr hxr using hx
    have hS : (∑ k, x k * x k) = ((∑ k, xr k * xr k : ℝ) : EReal) := by
      rw [← sum_coe_ereal]
      exact Finset.sum_congr rfl fun k _ => by rw [hxr k, EReal.coe_mul]
    have hSnn : 0 ≤ ∑ k, xr k * xr k := Finset.sum_nonneg fun k _ => mul_self_nonneg (xr k)
    have hpos : 0 < (∑ k, xr k * xr k) * (1 / N) + e := by positivity
    rw [hS, ← EReal.coe_mul, ← EReal.coe_add, Ideal.rsqrt_coe, if_neg (not_lt.mpr hpos.le), if_neg hpos.ne', hxr d,
      ← EReal.coe_mul, ← EReal.coe_mul]
    exact ⟨_, rfl⟩
  · obtain ⟨k0, hk0⟩ := not_forall.mp hx
    have hS : (∑ k, x k * x k) = ⊤ := by
      apply top_le_iff.mp
      rw [← mul_self_eq_top_of_not_isR hk0]
      exact Finset.single_le_sum (f := fun k => x k * x k) (fun k _ => mul_self_nonneg_ereal (x k)) (Finset.mem_univ k0)
    have hN' : (0 : ℝ) < 1 / N := by positivity
    rw [hS, EReal.top_mul_coe_of_pos hN', EReal.top_add_coe, Ideal.rsqrt_top, mul_zero, zero_mul]
    exact ⟨0, rfl⟩

/-- the f32 words of this computation denote 0, −∞, ±1 and positive (resp. finite) reals -/
theorem consts_good : consts.Good where
  zero := by simp [consts, Ideal.ofBits, Ideal.ieee]
  ninf := by simp [consts, Ideal.ofBits, Ideal.ieee]
  one := by simp [consts, Ideal.ofBits, Ideal.ieee, -EReal.coe_mul]; norm_num
  mone := by simp [consts, Ideal.ofBits, Ideal.ieee, -EReal.coe_mul]; norm_num
  epsN := by simp [consts, Ideal.ofBits, Ideal.ieee, -EReal.coe_mul]
  epsQ := by simp [consts, Ideal.ofBits, Ideal.ieee, -EReal.coe_mul]
  qhi := by simp [consts, Ideal.ofBits, Ideal.ieee, -EReal.coe_mul]
  qlo := by
    simp [consts, Ideal.ofBits, Ideal.ieee, -EReal.coe_mul]
    exact ⟨_, (EReal.coe_neg _).symm⟩
  nD := by simp [consts, Ideal.ofBits, Ideal.ieee, -EReal.coe_mul]
  nI := by simp [consts, Ideal.ofBits, Ideal.ieee, -EReal.coe_mul]
  cG := by simp [consts, Ideal.ofBits, Ideal.ieee, -EReal.coe_mul]
  cD := by simp [consts, Ideal.ofBits, Ideal.ieee, -EReal.coe_mul]

/-- wrapping a normalised row straight-through or directly is the same row -/
theorem wrap_rowNorm_eq (c : Consts) (hc : c.Good) {cnt : EReal} (hcnt : ∃ r : ℝ, 0 < r ∧ cnt = (r : EReal))
    {n : Nat} (x g : Fin n → EReal) (hg : ∀ k, IsR (g k)) :
    (fun k => ste (rowNorm c cnt x g k) (actQ c (rowNorm c cnt x g) k))
      = fun k => direct (rowNorm c cnt x g k) (actQ c (rowNorm c cnt x g) k) :=
  funext fun k => ste_of_isR (rowNorm_isR c hc.zero hcnt hc.epsN x g k (hg k)) _

/-- the block on one row: the two wrappings agree, whatever σ and the weights are, where the gains are real -/
theorem mlpRow_ste_eq_direct (c : Consts) (hc : c.Good) (sg : EReal → EReal)
    (Wg : Fin 11264 → Fin 2048 → EReal) (Wd : Fin 2048 → Fin 5632 → EReal)
    (gg : Fin 2048 → EReal) (gd : Fin 5632 → EReal) (x : Fin 2048 → EReal)
    (hgg : ∀ k, IsR (gg k)) (hgd : ∀ i, IsR (gd i)) :
    mlpRow c ste sg Wg Wd gg gd x = mlpRow c direct sg Wg Wd gg gd x := by
  dsimp only [mlpRow]
  rw [wrap_rowNorm_eq c hc hc.nD x gg hgg, wrap_rowNorm_eq c hc hc.nI _ gd hgd]

/-- a weight tensor of reals: the two wrappings of its quantisation agree -/
theorem wMat_ste_eq_direct (c : Consts) (cnt : EReal) {A B : Nat}
    (w : (⟨2, ![A, B]⟩ : Shape).Idx → EReal) (hw : ∀ i, IsR (w i)) :
    wMat c ste cnt w = wMat c direct cnt w :=
  funext fun o => funext fun k => ste_of_isR (hw _) _

/-- σ spelt out with the literal 1.0 is the logistic function -/
theorem sigmoidSpelt_eq_logistic (c : Consts) (h1 : c.one = 1) : sigmoidSpelt c = Ideal.logistic := by
  funext a
  unfold sigmoidSpelt Ideal.logistic
  rw [h1]

theorem outSte_eq_outDirect (c : Consts) (hc : c.Good)
    (x : (⟨3, ![4, 4096, 2048]⟩ : Shape).Idx → EReal) (wg : (⟨2, ![11264, 2048]⟩ : Shape).Idx → EReal)
    (gg : (⟨1, ![2048]⟩ : Shape).Idx → EReal) (wd : (⟨2, ![2048, 5632]⟩ : Shape).Idx → EReal)
    (gd : (⟨1, ![5632]⟩ : Shape).Idx → EReal)
    (hx : ∀ i, ∃ r : ℝ, x i = (r : EReal)) (hwg : ∀ i, ∃ r : ℝ, wg i = (r : EReal)) (hgg : ∀ i, ∃ r : ℝ, gg i = (r : EReal))
    (hwd : ∀ i, ∃ r : ℝ, wd i = (r : EReal)) (hgd : ∀ i, ∃ r : ℝ, gd i = (r : EReal))
    (b : Fin 4) (s : Fin 4096) (d : Fin 2048) :
    outSte c x wg gg wd gd b s d = outDirect c x wg gg wd gd b s d := by
  unfold outSte outDirect
  rw [sigmoidSpelt_eq_logistic c hc.one, wMat_ste_eq_direct c c.cG wg hwg, wMat_ste_eq_direct c c.cD wd hwd,
    mlpRow_ste_eq_direct c hc _ _ _ _ _ _ (fun k => hgg _) (fun i => hgd _)]

end BitMlp

end
-- ==== Proof.Finite.lean ====
/-
  From the precondition to finiteness of the inputs.

  The precondition is, for each of the five input arrays a, the conjunction over all entries of |a_i| < +∞,
  the five results conjoined. Over the extended reals |x| = max x (−x), and max x (−x) < ⊤ excludes both
  x = ⊤ and x = ⊥ (since −⊥ = ⊤); what is left is a real number.
-/
import proofs.«132295_j1597727834559_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic

/-- A rank-0 shape has exactly one index. -/
instance subsingleton_S_Idx : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ came out true, so x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  refine real_of_abs_lt_top x ?_
  by_contra hn
  simp [hn] at h'

/-- One array: the conjunction over all entries of |a_i| < +∞ came out true, so every entry is a real number. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
        (constantI S_ 1 1#1) hr hu ValueIdx.ix0 = 1#1) :
    ∀ i, ∃ r : ℝ, a i = (r : EReal) := by
  intro i
  have e := Host.reduce_andi_all _ _ hr hu ValueIdx.ix0 h i
  exact real_of_cmp (a i) e

theorem reals_of_pre [Cert.Pre_finite_inputs.Facts] (a0 : FVec Ideal S4x4096x2048 .f32) (a1 : FVec Ideal S11264x2048 .f32) (a2 : FVec Ideal S2048 .f32)
    (a3 : FVec Ideal S2048x5632 .f32) (a4 : FVec Ideal S5632 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ a0 h0', all_real _ _ _ a1 h1, all_real _ _ _ a2 h2, all_real _ _ _ a3 h3, all_real _ _ _ a4 h4⟩

end Cert.Pre_finite_inputs.Hand

end
-- ==== Proof.lean ====
/-
  A gated two-layer block whose two linear maps are "bit-linear" (RMS-normalised rows fake-quantised to int8 by their
  own absolute maximum, weight matrices fake-quantised to ternary values by their mean absolute value), computed by
  three kernel regions after a host prologue that quantises the weights, against a plain reference that computes the
  same block with every quantised value wrapped "straight-through", a + (q − a), and σ spelt 1 / (1 + e^(−a)).

  Over the extended reals the two agree because every value the reference wraps is a real number: a normalised row
  entry x · rsqrt(mean x² + ε) · g is real whenever its gain is (an infinite entry makes the mean ⊤, whose rsqrt is 0),
  and the weights are real by the precondition; for a real a, a + (q − a) = q whatever q is. The three frames: each
  program runs to the end, nothing faulting, its argument arrays unchanged. The idealization rewrote nothing.
-/
import proofs.«132295_j1597727834559_2_alg».proof.Defs
import proofs.«132295_j1597727834559_2_alg».proof.Proof.Gen.Kernel
import proofs.«132295_j1597727834559_2_alg».proof.Proof.Gen.KernelIdeal
import proofs.«132295_j1597727834559_2_alg».proof.Proof.Gen.ReferenceIdeal
import proofs.«132295_j1597727834559_2_alg».proof.Proof.Gen.Pre_finite_inputs
import proofs.«132295_j1597727834559_2_alg».proof.Proof.KB.Run
import proofs.«132295_j1597727834559_2_alg».proof.Proof.KI.Value
import proofs.«132295_j1597727834559_2_alg».proof.Proof.RefRun
import proofs.«132295_j1597727834559_2_alg».proof.Proof.RefValue
import proofs.«132295_j1597727834559_2_alg».proof.Proof.SteDirect
import proofs.«132295_j1597727834559_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level program and its idealization run to the end with their arguments unchanged: the three regions'
    pipelines over the thread state that holds every unscoped buffer. -/
theorem frame_k : Cert.frame_Kernel := fun m ρ _ => Cert.Kernel.Hand.frame m ρ
theorem frame_ki : Cert.frame_KernelIdeal := fun m ρ _ => Cert.KernelIdeal.Hand.frame m ρ
/-- The reference is host operations only: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization is the program's own text read over the extended reals. -/
theorem preserves : Cert.preserves_Kernel_KernelIdeal := trivial

/-- Both idealized programs end with the direct form of the block at every index: the kernel program by reading its
    three regions back, the reference because its straight-through form is the direct form on real weights and gains. -/
theorem algebraic : Cert.algebraic_KernelIdeal_ReferenceIdeal := by
  intro m ρ m' ρ' hpre hagree
  refine ⟨fun c => fun i => BitMlp.outDirect BitMlp.consts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (i 0) (i 1) (i 2), ?_, ?_⟩
  · refine (θ_run Cert.KernelIdeal.defs _ _).mono (fun r h c => ⟨?_, ?_, ?_, ?_, ?_, ?_⟩) (Cert.KernelIdeal.Hand.run_all m ρ)
    · refine (h c _ (Cert.KernelIdeal.Hand.mem_uc Cert.KernelIdeal.main_v28 (by decide))).trans (funext fun i => ?_)
      obtain ⟨b, s, d, rfl⟩ : ∃ (b : Fin 4) (s : Fin 4096) (d : Fin 2048), i = ValueIdx.ix3 b s d := ⟨i 0, i 1, i 2, ValueIdx.eq_ix3 i⟩
      exact Cert.KernelIdeal.Hand.result_eq m c b s d
    · exact (h c _ (Cert.KernelIdeal.Hand.mem_uc Cert.KernelIdeal.main_arg0 (by decide))).trans (Cert.KernelIdeal.Gen.V17_main_arg0 m (Cert.KernelIdeal.Hand.outs m) c)
    · exact (h c _ (Cert.KernelIdeal.Hand.mem_uc Cert.KernelIdeal.main_arg1 (by decide))).trans (Cert.KernelIdeal.Gen.V17_main_arg1 m (Cert.KernelIdeal.Hand.outs m) c)
    · exact (h c _ (Cert.KernelIdeal.Hand.mem_uc Cert.KernelIdeal.main_arg2 (by decide))).trans (Cert.KernelIdeal.Gen.V17_main_arg2 m (Cert.KernelIdeal.Hand.outs m) c)
    · exact (h c _ (Cert.KernelIdeal.Hand.mem_uc Cert.KernelIdeal.main_arg3 (by decide))).trans (Cert.KernelIdeal.Gen.V17_main_arg3 m (Cert.KernelIdeal.Hand.outs m) c)
    · exact (h c _ (Cert.KernelIdeal.Hand.mem_uc Cert.KernelIdeal.main_arg4 (by decide))).trans (Cert.KernelIdeal.Gen.V17_main_arg4 m (Cert.KernelIdeal.Hand.outs m) c)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4⟩ := hagree c
    rw [h0, h1, h2, h3, h4]
    obtain ⟨r0, r1, r2, r3, r4⟩ := Cert.Pre_finite_inputs.Hand.reals_of_pre _ _ _ _ _ (hpre c)
    funext i
    obtain ⟨b, s, d, rfl⟩ : ∃ (b : Fin 4) (s : Fin 4096) (d : Fin 2048), i = ValueIdx.ix3 b s d := ⟨i 0, i 1, i 2, ValueIdx.eq_ix3 i⟩
    rw [Cert.ReferenceIdeal.RefValue.ref_eq]
    exact BitMlp.outSte_eq_outDirect BitMlp.consts BitMlp.consts_good _ _ _ _ _ r0 r1 r2 r3 r4 b s d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
